-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S10x64 .f32) (main_arg13 : FVec F S10x64 .f32) (main_arg14 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S10x64 .f32 := Host.absf main_arg12
  let main_cst_20 : FVec F S_ .f32 := constant S_ .f32 0x7F800000#32
  let main_v55 : FVec F S10x64 .f32 := broadcastInDim S10x64 ![] bcast_S_S10x64 main_cst_20
  let main_v56 : IVec S10x64 1 := cmpf .olt main_v54 main_v55
  let main_c_21 : IVec S_ 1 := constantI S_ 1 1#1
  let main_v57 : IVec S_ 1 := (fun x v => Host.reduce IntOp.andi x v reducesTo_S10x64_S_d0_1 h_S_) main_v56 main_c_21
  let main_v58 : IVec S_ 1 := andi main_v53 main_v57
  let main_v59 : FVec F S10x64 .f32 := Host.absf main_arg13
  let main_cst_22 : FVec F S_ .f32 := constant S_ .f32 0x7F800000#32
  let main_v60 : FVec F S10x64 .f32 := broadcastInDim S10x64 ![] bcast_S_S10x64 main_cst_22
  let main_v61 : IVec S10x64 1 := cmpf .olt main_v59 main_v60
  let main_c_23 : IVec S_ 1 := constantI S_ 1 1#1
  let main_v62 : IVec S_ 1 := (fun x v => Host.reduce IntOp.andi x v reducesTo_S10x64_S_d0_1 h_S_) main_v61 main_c_23
  let main_v63 : IVec S_ 1 := andi main_v58 main_v62
  let main_v64 : FVec F S10 .f32 := Host.absf main_arg14
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg8 : FVec F S64x64 .f32) (main_arg9 : FVec F S64 .f32) (main_arg10 : FVec F S64 .f32) (main_arg11 : FVec F S64 .f32) (main_arg12 : FVec F S10x64 .f32) (main_arg13 : FVec F S10x64 .f32) (main_arg14 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64 .f32) (main_arg6 : FVec F S64 .f32) (main_arg7 : FVec F S64x64 .f32) (main_arg8 : FVec F S64x64 .f32) (main_arg9 : FVec F S64 .f32) (main_arg10 : FVec F S64 .f32) (main_arg11 : FVec F S64 .f32) (main_arg12 : FVec F S10x64 .f32) (main_arg13 : FVec F S10x64 .f32) (main_arg14 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64 .f32) (main_arg6 : FVec F S64 .f32) (main_arg7 : FVec F S64x64 .f32) (main_arg8 : FVec F S64x64 .f32) (main_arg9 : FVec F S64 .f32) (main_arg10 : FVec F S64 .f32) (main_arg11 : FVec F S64 .f32) (main_arg12 : FVec F S10x64 .f32) (main_arg13 : FVec F S10x64 .f32) (main_arg14 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩
abbrev S64x10 : Shape := ⟨2, ![64, 10]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 113
  | .vmem => 49
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S10x64, .f32⟩
  | .hbm, ⟨13, _⟩ => ⟨S10x64, .f32⟩
  | .hbm, ⟨14, _⟩ => ⟨S10, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S64x64, .f32⟩
  | .hbm, ⟨40, _⟩ => ⟨S64x64, .f32⟩
  | .hbm, ⟨41, _⟩ => ⟨S1x64, .f32⟩
  | .hbm, ⟨42, _⟩ => ⟨S100000x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S64x64, .f32⟩
  | .hbm, ⟨75, _⟩ => ⟨S64x64, .f32⟩
  | .hbm, ⟨76, _⟩ => ⟨S1x64, .f32⟩
  | .hbm, ⟨77, _⟩ => ⟨S100000x64, .f32⟩
  | .hbm, ⟨78, _⟩ => ⟨S_, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S100000x64, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x64, .f32⟩
  | .hbm, ⟨105, _⟩ => ⟨S_, .f32⟩
  | .hbm, ⟨106, _⟩ => ⟨S100000x64, .f32⟩
  | .hbm, ⟨107, _⟩ => ⟨S1600000x1, .i32⟩
  | .hbm, ⟨108, _⟩ => ⟨S100000x64, .f32⟩
  | .hbm, ⟨109, _⟩ => ⟨S64x10, .f32⟩
  | .hbm, ⟨110, _⟩ => ⟨S64x10, .f32⟩
  | .hbm, ⟨111, _⟩ => ⟨S1x10, .f32⟩
  | .hbm, ⟨112, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S5000x64, .f32⟩
  | .local _ .vmem, ⟨43, _⟩ => ⟨S5000x64, .f32⟩
  | .local _ .vmem, ⟨44, _⟩ => ⟨S64x10, .f32⟩
  | .local _ .vmem, ⟨45, _⟩ => ⟨S64x10, .f32⟩
  | .local _ .vmem, ⟨46, _⟩ => ⟨S1x10, .f32⟩
  | .local _ .vmem, ⟨47, _⟩ => ⟨S5000x10, .f32⟩
  | .local _ .vmem, ⟨48, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x10 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  reducesTo_S100000x64_S64_d0 : S100000x64.ReducesTo [0] S64
  h_S_ : 0 < S_.numel
  bcast_S_S64 : S_.BroadcastsInDim S64 (![] : Fin 0 → Fin S64.rank)
  bcast_S1x64_S100000x64_0_1 : S1x64.BroadcastsInDim S100000x64 (![0, 1] : Fin 2 → Fin S100000x64.rank)
  transposes_S10x64_S64x10_1_0 : S10x64.Transposes [1, 0] S64x10
  shapeCasts_S10_S1x10 : S10.ShapeCasts S1x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x10.size a ≤ S64x10.size a
  hwx4_4 : ∀ i : grid4.Coords, EltTy.bits .f32 = 32 ∨ (Rect.block (s := S64x10) S64x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x10.size a ≤ S100000x10.size a
  hwx4_6 : ∀ i : grid4.Coords, EltTy.bits .f32 = 32 ∨ (Rect.block (s := S100000x10) S5000x10.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v74) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S64x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S64x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78) S5000x10.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x10 : Shape := ⟨2, ![64, 10]⟩
abbrev S100000x10 : Shape := ⟨2, ![100000, 10]⟩
abbrev S1x10 : Shape := ⟨2, ![1, 10]⟩

abbrev nBuf : Space → Nat
  | .hbm => 207
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64x64, .f32⟩
  | 9 => ⟨S64, .f32⟩
  | 10 => ⟨S64, .f32⟩
  | 11 => ⟨S64, .f32⟩
  | 12 => ⟨S10x64, .f32⟩
  | 13 => ⟨S10x64, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S64x64, .f32⟩
  | 46 => ⟨S100000x64, .f32⟩
  | 47 => ⟨S64x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S100000x64, .f32⟩
  | 54 => ⟨S_, .f32⟩
  | 55 => ⟨S100000, .f32⟩
  | 56 => ⟨S100000x1, .f32⟩
  | 57 => ⟨S100000x1, .f32⟩
  | 58 => ⟨S_, .f32⟩
  | 59 => ⟨S100000x1, .f32⟩
  | 60 => ⟨S100000x1, .f32⟩
  | 61 => ⟨S100000x64, .f32⟩
  | 62 => ⟨S100000x64, .f32⟩
  | 63 => ⟨S_, .f32⟩
  | 64 => ⟨S64, .f32⟩
  | 65 => ⟨S_, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S64x64, .f32⟩
  | 123 => ⟨S100000x64, .f32⟩
  | 124 => ⟨S64x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S100000x64, .f32⟩
  | 11 => ⟨S100000x64, .f32⟩
  | 12 => ⟨S_, .f32⟩
  | 13 => ⟨S64, .f32⟩
  | 14 => ⟨S_, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S64, .f32⟩
  | 23 => ⟨S_, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S_, .f32⟩
  | 30 => ⟨S64, .f32⟩
  | 31 => ⟨S64, .f32⟩
  | 32 => ⟨S64, .f32⟩
  | 33 => ⟨S1x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S_, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S100000x1, .f32⟩
  | 69 => ⟨S100000x64, .f32⟩
  | 70 => ⟨S100000x64, .f32⟩
  | 71 => ⟨S64x10, .f32⟩
  | 72 => ⟨S100000x10, .f32⟩
  | 73 => ⟨S64x10, .f32⟩
  | 74 => ⟨S100000x10, .f32⟩
  | 75 => ⟨S100000x10, .f32⟩
  | 76 => ⟨S1x10, .f32⟩
  | 77 => ⟨S100000x10, .f32⟩
  | 78 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call1_cst : Ref sig .tc := ⟨.hbm, 93, rfl⟩
abbrev main_call1_v0 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_call2_v0 : Ref sig .tc := ⟨.hbm, 116, rfl⟩
abbrev main_call2_v1 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_19 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_23 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_call3_cst : Ref sig .tc := ⟨.hbm, 170, rfl⟩
abbrev main_call3_v0 : Ref sig .tc := ⟨.hbm, 171, rfl⟩
abbrev main_v123 : Ref sig .tc := ⟨.hbm, 172, rfl⟩
abbrev main_c_24 : Ref sig .tc := ⟨.hbm, 173, rfl⟩
abbrev main_v124 : Ref sig .tc := ⟨.hbm, 174, rfl⟩
abbrev main_v125 : Ref sig .tc := ⟨.hbm, 175, rfl⟩
abbrev main_c_25 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_26 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_27 : Ref sig .tc := ⟨.hbm, 186, rfl⟩
abbrev main_v134 : Ref sig .tc := ⟨.hbm, 187, rfl⟩
abbrev main_cst_28 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_29 : Ref sig .tc := ⟨.hbm, 192, rfl⟩
abbrev main_call4_v0 : Ref sig .tc := ⟨.hbm, 193, rfl⟩
abbrev main_call4_v1 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  reducesTo_S100000x64_S64_d0 : S100000x64.ReducesTo [0] S64
  bcast_S_S64 : S_.BroadcastsInDim S64 (![] : Fin 0 → Fin S64.rank)
  transposes_S10x64_S64x10_1_0 : S10x64.Transposes [1, 0] S64x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Spec.lean ====
/-
  What one layer of the network computes, stated once, index by index, on the extended reals.

  A layer takes the summed neighbour features `agg`, the neighbour counts `cnt` (one column), the node features
  `feat`, two weight matrices `wl`, `wr` and a bias row `b`.  Its affine part at row `r`, column `c` is

      lin r c = Σ_k (agg r k / max (cnt r) 1) · wl k c  +  Σ_k feat r k · wr k c  +  b c,

  the normalised layer divides each row of `lin` by `max (sqrt (Σ_c (lin r c)²)) ε`, and the batch-norm / relu
  stage is `max (((h r c - μ c) · rsqrt (v c + ε')) · γ c + β c) 0`.  Every function is generic in the extents, so the
  same definition reads a block of rows and the whole array; `*_rows` says a block whose rows are rows of the array
  computes those rows of the array's result (a row of a layer depends on that row of `agg`, `cnt`, `feat` only).
  The float literals stay as their bit patterns: they are the same words in both programs.
-/
import Idealize.ShloMosaic.PureOps.Ideal
import Idealize.ShloMosaic.Lib.ValueIdx

noncomputable section

namespace Cert.Sage

open Idealize.ShloMosaic Idealize.ShloMosaic.ValueIdx

/-- A matrix of extended reals with `a` rows and `b` columns. -/
abbrev Mat (a b : ℕ) : Type := (⟨2, ![a, b]⟩ : Shape).Idx → EReal

variable {N K D : ℕ}

/-- The affine part of a layer at row `r`, column `c`. -/
def lin (agg : Mat N K) (cnt : Mat N 1) (feat : Mat N K) (wl wr : Mat K D) (b : Mat 1 D) (r : Fin N) (c : Fin D) : EReal :=
  (∑ k : Fin K, Ideal.div (agg (ix2 r k)) (max (cnt (ix2 r 0)) (Ideal.ofBits .f32 0x3F800000#32)) * wl (ix2 k c))
    + (∑ k : Fin K, feat (ix2 r k) * wr (ix2 k c)) + b (ix2 0 c)

/-- A row of `f` divided by the larger of its Euclidean norm and ε. -/
def normed (f : Fin N → Fin D → EReal) (r : Fin N) (c : Fin D) : EReal :=
  Ideal.div (f r c) (max (Ideal.sqrt (∑ k : Fin D, f r k * f r k)) (Ideal.ofBits .f32 0x2B8CBCCC#32))

/-- The layer without normalisation, as an array. -/
def conv (agg : Mat N K) (cnt : Mat N 1) (feat : Mat N K) (wl wr : Mat K D) (b : Mat 1 D) : Mat N D :=
  fun i => lin agg cnt feat wl wr b (i 0) (i 1)

/-- The layer with each row normalised, as an array. -/
def convN (agg : Mat N K) (cnt : Mat N 1) (feat : Mat N K) (wl wr : Mat K D) (b : Mat 1 D) : Mat N D :=
  fun i => normed (lin agg cnt feat wl wr b) (i 0) (i 1)

/-- Batch normalisation with given column statistics, then relu. -/
def bnrelu (h : Mat N D) (mu var g be : Mat 1 D) : Mat N D :=
  fun i => max (((h i - mu (ix2 0 (i 1))) * Ideal.rsqrt (var (ix2 0 (i 1)) + Ideal.ofBits .f32 0x3727C5AC#32)) * g (ix2 0 (i 1))
    + be (ix2 0 (i 1))) (Ideal.ofBits .f32 0x00000000#32)

variable {n : ℕ}

/-- A row of `lin` depends on that row of `agg`, `cnt`, `feat` only. -/
theorem lin_rows (σ : Fin n → Fin N) {agg' : Mat n K} {cnt' : Mat n 1} {feat' : Mat n K} {agg : Mat N K} {cnt : Mat N 1} {feat : Mat N K}
    (wl wr : Mat K D) (b : Mat 1 D)
    (ha : ∀ p k, agg' (ix2 p k) = agg (ix2 (σ p) k)) (hc : ∀ p, cnt' (ix2 p 0) = cnt (ix2 (σ p) 0))
    (hf : ∀ p k, feat' (ix2 p k) = feat (ix2 (σ p) k)) (p : Fin n) (c : Fin D) :
    lin agg' cnt' feat' wl wr b p c = lin agg cnt feat wl wr b (σ p) c := by
  unfold lin
  simp only [ha, hc, hf]

theorem conv_rows (σ : Fin n → Fin N) {agg' : Mat n K} {cnt' : Mat n 1} {feat' : Mat n K} {agg : Mat N K} {cnt : Mat N 1} {feat : Mat N K}
    (wl wr : Mat K D) (b : Mat 1 D)
    (ha : ∀ p k, agg' (ix2 p k) = agg (ix2 (σ p) k)) (hc : ∀ p, cnt' (ix2 p 0) = cnt (ix2 (σ p) 0))
    (hf : ∀ p k, feat' (ix2 p k) = feat (ix2 (σ p) k)) (p : Fin n) (c : Fin D) :
    conv agg' cnt' feat' wl wr b (ix2 p c) = conv agg cnt feat wl wr b (ix2 (σ p) c) :=
  lin_rows σ wl wr b ha hc hf p c

theorem convN_rows (σ : Fin n → Fin N) {agg' : Mat n K} {cnt' : Mat n 1} {feat' : Mat n K} {agg : Mat N K} {cnt : Mat N 1} {feat : Mat N K}
    (wl wr : Mat K D) (b : Mat 1 D)
    (ha : ∀ p k, agg' (ix2 p k) = agg (ix2 (σ p) k)) (hc : ∀ p, cnt' (ix2 p 0) = cnt (ix2 (σ p) 0))
    (hf : ∀ p k, feat' (ix2 p k) = feat (ix2 (σ p) k)) (p : Fin n) (c : Fin D) :
    convN agg' cnt' feat' wl wr b (ix2 p c) = convN agg cnt feat wl wr b (ix2 (σ p) c) := by
  show normed _ p c = normed _ (σ p) c
  unfold normed
  simp only [lin_rows σ wl wr b ha hc hf]

/-- An entry of the batch-norm / relu stage depends on that entry of `h` only (and on the column statistics). -/
theorem bnrelu_rows (σ : Fin n → Fin N) {h' : Mat n D} {h : Mat N D} (mu var g be : Mat 1 D)
    (hh : ∀ p c, h' (ix2 p c) = h (ix2 (σ p) c)) (p : Fin n) (c : Fin D) :
    bnrelu h' mu var g be (ix2 p c) = bnrelu h mu var g be (ix2 (σ p) c) := by
  unfold bnrelu
  simp only [hh]
  rfl

end Cert.Sage

end
-- ==== Proof.LibBlockOps.lean ====
/-
  Block operations read at an index given by its coordinates: the keepdims column forms that a row reduction followed by
  a division of every row needs.  A column `[a, 1]` spread over `b` lanes reads its one entry of the row; a vector
  `[a]` recast as a column `[a, 1]` reads the vector's entry; the sum of an `[a, b]` array along its lanes, at row
  `p`, is the sum over the lane coordinate of the entries of row `p`.
-/
import Idealize.ShloMosaic.Lib.ValueLayout
import Idealize.ShloMosaic.PureOps.Ideal.Laws

noncomputable section

namespace Cert.BlockOps

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its lanes, read at row `p`: the sum over the lane coordinate
`k` of the entries `(p, k)`.  The accumulator's word is the zero word, and the fact about it is stated as the equation between
the two literal words. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = ∑ k : Fin b, src (ix2 p k)
  refine Finset.sum_congr rfl fun k _ => congrArg src (funext fun c => Fin.ext ?_)
  match c with
  | ⟨0, _⟩ => rfl
  | ⟨1, _⟩ => rfl

/-- A square root at an index is the square root of the element. -/
theorem sqrtf_apply {s : Shape} {φ : FTy} (x : FVec Ideal s φ) (i : s.Idx) : sqrt x i = Ideal.sqrt (x i) := rfl

/-- A reciprocal square root at an index is that of the element. -/
theorem rsqrtf_apply {s : Shape} {φ : FTy} (x : FVec Ideal s φ) (i : s.Idx) : rsqrt x i = Ideal.rsqrt (x i) := rfl

end Cert.BlockOps

end
-- ==== Proof.Payloads.lean ====
/-
  The arithmetic of each kernel body, read at the extended reals: what a body stores is the layer function of
  `Cert.Sage` applied to the blocks it loaded (a block of 5000 rows is an array of 5000 rows).

  Each body is one pure term over the loaded blocks.  Read at an entry `(p, q)`, the pointwise operations act on the
  entries; a column spread over the lanes reads its entry of row `p`, a row spread over the rows reads its entry of
  column `q`; a matrix product into the zero accumulator is the sum over the contracted coordinate; the sum along the
  lanes is the sum over the lane coordinate; a change of float format is the identity.  What remains is, term for term,
  the layer function of the specification.
-/
import proofs.«167795_j71949292143006_1_alg».proof.Proof.Gen.KernelIdeal.Skeleton
import proofs.«167795_j71949292143006_1_alg».proof.Proof.Spec
import proofs.«167795_j71949292143006_1_alg».proof.Proof.LibBlockOps

noncomputable section

namespace Cert.KernelIdeal.Payloads

open Idealize.ShloMosaic Idealize.ShloMosaic.ValueIdx Cert.KernelIdeal Cert.KernelIdeal.Gen Cert.BlockOps

/-- In the 64-column product the left operand's row is the output's row, whatever the contraction position. -/
theorem lhs64_0 (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- In the 64-column product the right operand's column is the output's column, whatever the contraction position. -/
theorem rhs64_1 (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The 64-column matrix product into the zero accumulator, at `(p, q)`: the sum over the contracted coordinate `k` of `lhs (p, k) * rhs (k, q)`. -/
theorem matmul64_apply {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant S5000x64 .f32 0x00000000#32) (ix2 p q)
      = ∑ k : Fin 64, lhs (ix2 p k) * rhs (ix2 k q) := by
  refine (Ideal.matmul_constant_zero_apply dot_S5000x64_S64x64_S5000x64_1_0_0_1_n_n none lhs rhs (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl (ix2 p q) _).trans hk
    | ⟨1, _⟩ => exact rhs64_1 _ _)
  rw [el, er]

/-- In the 10-column product the left operand's row is the output's row, whatever the contraction position. -/
theorem lhs10_0 (i : S5000x10.Idx) (κ : dot_S5000x64_S64x10_S5000x10_1_0_0_1_n_n.contr.Idx) :
    (dot_S5000x64_S64x10_S5000x10_1_0_0_1_n_n.lhsIdx i κ 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl

/-- In the 10-column product the right operand's column is the output's column, whatever the contraction position. -/
theorem rhs10_1 (i : S5000x10.Idx) (κ : dot_S5000x64_S64x10_S5000x10_1_0_0_1_n_n.contr.Idx) :
    (dot_S5000x64_S64x10_S5000x10_1_0_0_1_n_n.rhsIdx i κ 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The 10-column matrix product into the zero accumulator, at `(p, q)`: the sum over the contracted coordinate `k` of `lhs (p, k) * rhs (k, q)`. -/
theorem matmul10_apply {φ₁ φ₂ : FTy} (lhs : FVec Ideal S5000x64 φ₁) (rhs : FVec Ideal S64x10 φ₂) (p : Fin 5000) (q : Fin 10) :
    matmul dot_S5000x64_S64x10_S5000x10_1_0_0_1_n_n none lhs rhs (constant S5000x10 .f32 0x00000000#32) (ix2 p q)
      = ∑ k : Fin 64, lhs (ix2 p k) * rhs (ix2 k q) := by
  refine (Ideal.matmul_constant_zero_apply dot_S5000x64_S64x10_S5000x10_1_0_0_1_n_n none lhs rhs (ix2 p q)).trans ?_
  rw [← Equiv.sum_comp (contrEquiv1 dot_S5000x64_S64x10_S5000x10_1_0_0_1_n_n 64 rfl rfl).symm]
  refine Finset.sum_congr rfl fun k _ => ?_
  have hk := contrEquiv1_symm_val dot_S5000x64_S64x10_S5000x10_1_0_0_1_n_n 64 rfl rfl k
  have el : dot_S5000x64_S64x10_S5000x10_1_0_0_1_n_n.lhsIdx (ix2 p q) ((contrEquiv1 dot_S5000x64_S64x10_S5000x10_1_0_0_1_n_n 64 rfl rfl).symm k) = ix2 p k := funext fun a => Fin.ext (by
    match a with
    | ⟨0, _⟩ => exact lhs10_0 _ _
    | ⟨1, _⟩ => exact (dot_S5000x64_S64x10_S5000x10_1_0_0_1_n_n.lhsIdx_val_of_single rfl (ix2 p q) _).trans hk)
  have er : dot_S5000x64_S64x10_S5000x10_1_0_0_1_n_n.rhsIdx (ix2 p q) ((contrEquiv1 dot_S5000x64_S64x10_S5000x10_1_0_0_1_n_n 64 rfl rfl).symm k) = ix2 k q := funext fun a => Fin.ext (by
    match a with
    | ⟨0, _⟩ => exact (dot_S5000x64_S64x10_S5000x10_1_0_0_1_n_n.rhsIdx_val_of_single rfl (ix2 p q) _).trans hk
    | ⟨1, _⟩ => exact rhs10_1 _ _)
  rw [el, er]

/-- The first layer's body: the normalised layer of the loaded blocks. -/
theorem pay0 (v0 : Vec Ideal S5000x1 .f32) (v4 v9 : Vec Ideal S5000x64 .f32) (v11 v14 : Vec Ideal S64x64 .f32) (v20 : Vec Ideal S1x64 .f32) :
    k0_pay1 (F := Ideal) v0 v4 v9 v11 v14 v20 = Cert.Sage.convN v4 v0 v9 v11 v14 v20 := by
  funext j
  obtain ⟨p, q, rfl⟩ : ∃ (p : Fin 5000) (q : Fin 64), j = ix2 p q := ⟨j 0, j 1, eq_ix2 j⟩
  unfold k0_pay1
  simp only [shapeCast_self]
  simp only [divf_apply, maximumf_apply, broadcast_apply, broadcastTo_a1_ab_apply, sqrtf_apply, shapeCast_a_a1_apply]
  rw [laneSum_apply]
  simp only [divf_apply, maximumf_apply, addf_apply, mulf_apply, truncf_apply, broadcast_apply, broadcastTo_1b_ab_apply,
    broadcastTo_a1_ab_apply, matmul64_apply]
  rfl

/-- The first batch-norm / relu body. -/
theorem pay1 (v0 : Vec Ideal S5000x64 .f32) (v2 v6 v13 v17 : Vec Ideal S1x64 .f32) :
    k1_pay1 (F := Ideal) v0 v2 v6 v13 v17 = Cert.Sage.bnrelu v0 v2 v6 v13 v17 := by
  funext j
  obtain ⟨p, q, rfl⟩ : ∃ (p : Fin 5000) (q : Fin 64), j = ix2 p q := ⟨j 0, j 1, eq_ix2 j⟩
  unfold k1_pay1 Cert.Sage.bnrelu
  simp only [shapeCast_self]
  simp only [maximumf_apply, addf_apply, mulf_apply, subf_apply, broadcast_apply, broadcastTo_1b_ab_apply, rsqrtf_apply]
  rfl

/-- The second layer's body: the normalised layer of the loaded blocks. -/
theorem pay2 (v0 : Vec Ideal S5000x1 .f32) (v4 v9 : Vec Ideal S5000x64 .f32) (v12 v15 : Vec Ideal S64x64 .f32) (v21 : Vec Ideal S1x64 .f32) :
    k2_pay1 (F := Ideal) v0 v4 v9 v12 v15 v21 = Cert.Sage.convN v4 v0 v9 v12 v15 v21 := by
  funext j
  obtain ⟨p, q, rfl⟩ : ∃ (p : Fin 5000) (q : Fin 64), j = ix2 p q := ⟨j 0, j 1, eq_ix2 j⟩
  unfold k2_pay1
  simp only [shapeCast_self]
  simp only [divf_apply, maximumf_apply, broadcast_apply, broadcastTo_a1_ab_apply, sqrtf_apply, shapeCast_a_a1_apply]
  rw [laneSum_apply]
  simp only [divf_apply, maximumf_apply, addf_apply, mulf_apply, truncf_apply, broadcast_apply, broadcastTo_1b_ab_apply,
    broadcastTo_a1_ab_apply, matmul64_apply]
  rfl

/-- The second batch-norm / relu body. -/
theorem pay3 (v0 : Vec Ideal S5000x64 .f32) (v2 v6 v13 v17 : Vec Ideal S1x64 .f32) :
    k3_pay1 (F := Ideal) v0 v2 v6 v13 v17 = Cert.Sage.bnrelu v0 v2 v6 v13 v17 := by
  funext j
  obtain ⟨p, q, rfl⟩ : ∃ (p : Fin 5000) (q : Fin 64), j = ix2 p q := ⟨j 0, j 1, eq_ix2 j⟩
  unfold k3_pay1 Cert.Sage.bnrelu
  simp only [shapeCast_self]
  simp only [maximumf_apply, addf_apply, mulf_apply, subf_apply, broadcast_apply, broadcastTo_1b_ab_apply, rsqrtf_apply]
  rfl

/-- The last layer's body: the layer without normalisation, ten output columns. -/
theorem pay4 (v0 : Vec Ideal S5000x1 .f32) (v4 v9 : Vec Ideal S5000x64 .f32) (v12 v15 : Vec Ideal S64x10 .f32) (v21 : Vec Ideal S1x10 .f32) :
    k4_pay1 (F := Ideal) v0 v4 v9 v12 v15 v21 = Cert.Sage.conv v4 v0 v9 v12 v15 v21 := by
  funext j
  obtain ⟨p, q, rfl⟩ : ∃ (p : Fin 5000) (q : Fin 10), j = ix2 p q := ⟨j 0, j 1, eq_ix2 j⟩
  unfold k4_pay1
  simp only [shapeCast_self]
  simp only [divf_apply, maximumf_apply, addf_apply, truncf_apply, broadcast_apply, broadcastTo_1b_ab_apply,
    broadcastTo_a1_ab_apply, matmul10_apply]
  rfl

end Cert.KernelIdeal.Payloads

end
-- ==== Proof.Region0.lean ====
/-
  Region 0 (the first normalised layer), from blocks to the whole array: whatever the buffers hold when the region is
  entered, its output array ends as the normalised layer of the region's input arrays.  Point t of the grid works on
  rows 5000·t … 5000·t + 4999; the 20 blocks tile the 100000 rows.
-/
import proofs.«167795_j71949292143006_1_alg».proof.Proof.Gen.KernelIdeal.Frame
import proofs.«167795_j71949292143006_1_alg».proof.Proof.Payloads
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The whole-shape rectangle's offsets, however the zeros are spelt. -/
theorem offsets_zero0 : (![0, 0] : Fin 2 → Nat) = fun _ => 0 := funext fun a => by fin_cases a <;> rfl

/-- The index maps of region 0 over its 20 points: the row-blocked windows (summed neighbour features, counts, node features, output) sit at block (t, 0), the weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block t of the summed neighbour features is rows 5000·t … 5000·t + 4999 of the array. -/
theorem rows0_0 (c : Dev nD) (t : Fin cfg0.N) (x : S5000x64.Idx) (k : S100000x64.Idx)
    (hk0 : (k 0).val = 5000 * t.val + (x 0).val) (hk1 : (k 1).val = (x 1).val) :
    (iblk0 V c 0 t : Vec Ideal S5000x64 .f32) x = (V c main_v18 : S100000x64.Idx → Elt Ideal .f32) k := by
  obtain ⟨e0, e1, -⟩ := idx0 t
  unfold iblk0
  rw [View.read_apply]
  show V c main_v18 _ = V c main_v18 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- Block t of the neighbour counts is rows 5000·t … 5000·t + 4999 of the column. -/
theorem rows0_1 (c : Dev nD) (t : Fin cfg0.N) (x : S5000x1.Idx) (k : S100000x1.Idx)
    (hk0 : (k 0).val = 5000 * t.val + (x 0).val) (hk1 : (k 1).val = (x 1).val) :
    (iblk0 V c 1 t : Vec Ideal S5000x1 .f32) x = (V c main_v8 : S100000x1.Idx → Elt Ideal .f32) k := by
  obtain ⟨-, -, e0, e1, -⟩ := idx0 t
  unfold iblk0
  rw [View.read_apply]
  show V c main_v8 _ = V c main_v8 _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 1 + 1 * (x 1).val = (k 1).val; rw [e1, hk1]; omega

/-- Block t of the node features is rows 5000·t … 5000·t + 4999 of the array. -/
theorem rows0_2 (c : Dev nD) (t : Fin cfg0.N) (x : S5000x64.Idx) (k : S100000x64.Idx)
    (hk0 : (k 0).val = 5000 * t.val + (x 0).val) (hk1 : (k 1).val = (x 1).val) :
    (iblk0 V c 2 t : Vec Ideal S5000x64 .f32) x = (V c main_arg0 : S100000x64.Idx → Elt Ideal .f32) k := by
  obtain ⟨-, -, -, -, e0, e1, -⟩ := idx0 t
  unfold iblk0
  rw [View.read_apply]
  show V c main_arg0 _ = V c main_arg0 _
  congr 1
  funext a
  apply Fin.ext
  match a with
  | ⟨0, _⟩ => show win0_2.index t (0 : Fin 2) * 5000 + 1 * (x 0).val = (k 0).val; rw [e0, hk0]; omega
  | ⟨1, _⟩ => show win0_2.index t (1 : Fin 2) * 64 + 1 * (x 1).val = (k 1).val; rw [e1, hk1]; omega

/-- A weight matrix: the window's one block, at block (0, 0), is its whole array. -/
theorem whole0_3 (c : Dev nD) (t : Fin cfg0.N) :
    (iblk0 V c 3 t : Vec Ideal S64x64 .f32) = (V c main_v19 : S64x64.Idx → Elt Ideal .f32) := by
  obtain ⟨-, -, -, -, -, -, e0, e1, -⟩ := idx0 t
  funext x
  unfold iblk0
  rw [View.read_apply]
  show V c main_v19 _ = V c main_v19 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

theorem whole0_4 (c : Dev nD) (t : Fin cfg0.N) :
    (iblk0 V c 4 t : Vec Ideal S64x64 .f32) = (V c main_v20 : S64x64.Idx → Elt Ideal .f32) := by
  obtain ⟨-, -, -, -, -, -, -, -, e0, e1, -⟩ := idx0 t
  funext x
  unfold iblk0
  rw [View.read_apply]
  show V c main_v20 _ = V c main_v20 _
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 64 + 1 * (x 1).val = (x 1).val; rw [e1]; omega

/-- The bias row likewise. -/
theorem whole0_5 (c : Dev nD) (t : Fin cfg0.N) :
    (iblk0 V c 5 t : Vec Ideal S1x64 .f32) = (V c main_v21 : S1x64.Idx → Elt Ideal .f32) := by
  obtain ⟨-, -, -, -, -, -, -, -, -, -, e0, e1, -⟩ := idx0 t
  funext x
  unfold iblk0
  rw [View.read_apply]
  show V c main_v21 _ = V c main_v21 _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 64 + 1 * (x 1).val = (x 1).val; rw [e1]; omega

/-- The normalised layer of blocks whose rows are rows 5000·t … of the arrays is block t of the normalised layer of the
    arrays: over any block and array contents. -/
theorem convN_block0 (t : Fin cfg0.N) (agg' : Vec Ideal S5000x64 .f32) (cnt' : Vec Ideal S5000x1 .f32) (feat' : Vec Ideal S5000x64 .f32)
    (agg : S100000x64.Idx → EReal) (cnt : S100000x1.Idx → EReal) (feat : S100000x64.Idx → EReal)
    (wl wr : Vec Ideal S64x64 .f32) (b : Vec Ideal S1x64 .f32)
    (ha : ∀ (x : S5000x64.Idx) (k : S100000x64.Idx), (k 0).val = 5000 * t.val + (x 0).val → (k 1).val = (x 1).val → agg' x = agg k)
    (hc : ∀ (x : S5000x1.Idx) (k : S100000x1.Idx), (k 0).val = 5000 * t.val + (x 0).val → (k 1).val = (x 1).val → cnt' x = cnt k)
    (hf : ∀ (x : S5000x64.Idx) (k : S100000x64.Idx), (k 0).val = 5000 * t.val + (x 0).val → (k 1).val = (x 1).val → feat' x = feat k) :
    (cfg0.win 6).cut (grid0.coords t) (Cert.Sage.convN agg' cnt' feat' wl wr b)
      = ((cfg0.win 6).blk t).view.read (Elt Ideal) (Cert.Sage.convN agg cnt feat wl wr b) := by
  have ht : t.val < 20 := Nat.lt_of_lt_of_eq t.isLt N_0
  obtain ⟨-, -, -, -, -, -, -, -, -, -, -, -, e0, e1⟩ := idx0 t
  funext j
  obtain ⟨p, q, rfl⟩ : ∃ (p : Fin 5000) (q : Fin 64), j = ix2 p q := ⟨j 0, j 1, eq_ix2 j⟩
  rw [View.read_apply]
  show Cert.Sage.convN agg' cnt' feat' wl wr b (ix2 p q) = Cert.Sage.convN agg cnt feat wl wr b (((cfg0.win 6).blk t).view.emb (ix2 p q))
  have hemb : ((cfg0.win 6).blk t).view.emb (ix2 p q)
      = (ix2 (⟨5000 * t.val + p.val, by omega⟩ : Fin 100000) q : S100000x64.Idx) := by
    funext a
    apply Fin.ext
    match a with
    | ⟨0, _⟩ => show win0_6.index t (0 : Fin 2) * 5000 + 1 * p.val = 5000 * t.val + p.val; rw [e0]; omega
    | ⟨1, _⟩ => show win0_6.index t (1 : Fin 2) * 64 + 1 * q.val = q.val; rw [e1]; omega
  rw [hemb]
  exact Cert.Sage.convN_rows (fun p : Fin 5000 => (⟨5000 * t.val + p.val, by omega⟩ : Fin 100000)) wl wr b
    (fun p k => ha (ix2 p k) (ix2 ⟨5000 * t.val + p.val, by omega⟩ k) rfl rfl)
    (fun p => hc (ix2 p 0) (ix2 ⟨5000 * t.val + p.val, by omega⟩ 0) rfl rfl)
    (fun p k => hf (ix2 p k) (ix2 ⟨5000 * t.val + p.val, by omega⟩ k) rfl rfl) p q

/-- An index of the output array is in point t's block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v22).slice (win0_6.rect t)).set ↔ _
  rw [View.set_slice_whole, Rect.mem_set_unit]
  exact Iff.rfl

/-- Every index of the 100000 × 64 output array lies in the block of the point (row / 5000): the 20 blocks tile the rows. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, -, -, e0, e1⟩ := idx0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0]; show (i 0).val / 5000 * 5000 ≤ (i 0).val ∧ (i 0).val < (i 0).val / 5000 * 5000 + 5000; omega
  | ⟨1, _⟩ => show win0_6.index t (1 : Fin 2) * 64 ≤ (i 1).val ∧ (i 1).val < win0_6.index t (1 : Fin 2) * 64 + 64; rw [e1]; omega

/-- What point t writes back is block t of the normalised layer of the region's input arrays. -/
theorem flushed0 (c : Dev nD) (t : Fin cfg0.N) :
    (dat0 (F := Ideal) V c).flushed 6 t = ((cfg0.win 6).blk t).view.read (Elt Ideal)
      (Cert.Sage.convN (V c main_v18) (V c main_v8) (V c main_arg0) (V c main_v19) (V c main_v20) (V c main_v21)) := by
  show (cfg0.win 6).cut (grid0.coords t) ((dat0 V c).after 6 t) = _
  rw [after0_6]
  unfold out0_6
  rw [View.canon_unit_zero offsets_zero0]
  simp only [View.ld_unit_zero (S := S5000x1) offsets_zero0, View.ld_unit_zero (S := S5000x64) offsets_zero0, View.ld_unit_zero (S := S64x64) offsets_zero0, View.ld_unit_zero (S := S1x64) offsets_zero0]
  rw [Payloads.pay0, whole0_3, whole0_4, whole0_5]
  exact convN_block0 t _ _ _ _ _ _ _ _ _ (rows0_0 V c t) (rows0_1 V c t) (rows0_2 V c t)

theorem region0 (c : Dev nD) : (dat0 (F := Ideal) V c).arrAt 6 cfg0.N
    = Cert.Sage.convN (V c main_v18) (V c main_v8) (V c main_arg0) (V c main_v19) (V c main_v20) (V c main_v21) :=
  (dat0 V c).arrAt_eq_of_cover 6 _ (fun t _ => flushed0 V c t) cover0

end Cert.KernelIdeal.Regions

end
-- ==== Proof.Region1.lean ====
/-
  Region 1 (batch normalisation with given column statistics, then relu), from blocks to the whole array: whatever the
  buffers hold when the region is entered, its output array ends as that stage of the region's input arrays.  Point t
  of the grid works on rows 5000·t … 5000·t + 4999; the 20 blocks tile the 100000 rows.
-/
import proofs.«167795_j71949292143006_1_alg».proof.Proof.Gen.KernelIdeal.Frame
import proofs.«167795_j71949292143006_1_alg».proof.Proof.Payloads
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The whole-shape rectangle's offsets, however the zeros are spelt. -/
theorem offsets_zero1 : (![0, 0] : Fin 2 → Nat) = fun _ => 0 := funext fun a => by fin_cases a <;> rfl

/-- The index maps of region 1 over its 20 points: the row-blocked input and output sit at block (t, 0), the four rows of column statistics at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the row-blocked input is rows 5000·t … 5000·t + 4999 of its array. -/
theorem rows1_0 (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v22 : S100000x64.Idx → Elt Ideal .f32) k := by
  obtain ⟨e0, e1, -⟩ := idx1 t
  unfold iblk1
  rw [View.read_apply]
  show V c main_v22 _ = V c main_v22 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- A row of column statistics: the window's one block, at block (0, 0), is its whole array. -/
theorem whole1_1 (c : Dev nD) (t : Fin cfg1.N) :
    (iblk1 V c 1 t : Vec Ideal S1x64 .f32) = (V c main_v26 : S1x64.Idx → Elt Ideal .f32) := by
  obtain ⟨-, -, e0, e1, -⟩ := idx1 t
  funext x
  unfold iblk1
  rw [View.read_apply]
  show V c main_v26 _ = V c main_v26 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

theorem whole1_2 (c : Dev nD) (t : Fin cfg1.N) :
    (iblk1 V c 2 t : Vec Ideal S1x64 .f32) = (V c main_v33 : S1x64.Idx → Elt Ideal .f32) := by
  obtain ⟨-, -, -, -, e0, e1, -⟩ := idx1 t
  funext x
  unfold iblk1
  rw [View.read_apply]
  show V c main_v33 _ = V c main_v33 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

theorem whole1_3 (c : Dev nD) (t : Fin cfg1.N) :
    (iblk1 V c 3 t : Vec Ideal S1x64 .f32) = (V c main_v34 : S1x64.Idx → Elt Ideal .f32) := by
  obtain ⟨-, -, -, -, -, -, e0, e1, -⟩ := idx1 t
  funext x
  unfold iblk1
  rw [View.read_apply]
  show V c main_v34 _ = V c main_v34 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

theorem whole1_4 (c : Dev nD) (t : Fin cfg1.N) :
    (iblk1 V c 4 t : Vec Ideal S1x64 .f32) = (V c main_v35 : S1x64.Idx → Elt Ideal .f32) := by
  obtain ⟨-, -, -, -, -, -, -, -, e0, e1, -⟩ := idx1 t
  funext x
  unfold iblk1
  rw [View.read_apply]
  show V c main_v35 _ = V c main_v35 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The batch-norm / relu stage of a block whose rows are rows 5000·t … of an array is block t of the stage of
    that array: over any block and array contents. -/
theorem bnrelu_block1 (t : Fin cfg1.N) (h' : Vec Ideal S5000x64 .f32) (h : S100000x64.Idx → EReal)
    (mu var g be : Vec Ideal S1x64 .f32)
    (hh : ∀ (x : S5000x64.Idx) (k : S100000x64.Idx), (k 0).val = 5000 * t.val + (x 0).val → (k 1).val = (x 1).val → h' x = h k) :
    (cfg1.win 5).cut (grid1.coords t) (Cert.Sage.bnrelu h' mu var g be)
      = ((cfg1.win 5).blk t).view.read (Elt Ideal) (Cert.Sage.bnrelu h mu var g be) := by
  have ht : t.val < 20 := Nat.lt_of_lt_of_eq t.isLt N_1
  obtain ⟨-, -, -, -, -, -, -, -, -, -, e0, e1⟩ := idx1 t
  funext j
  obtain ⟨p, q, rfl⟩ : ∃ (p : Fin 5000) (q : Fin 64), j = ix2 p q := ⟨j 0, j 1, eq_ix2 j⟩
  rw [View.read_apply]
  show Cert.Sage.bnrelu h' mu var g be (ix2 p q) = Cert.Sage.bnrelu h mu var g be (((cfg1.win 5).blk t).view.emb (ix2 p q))
  have hemb : ((cfg1.win 5).blk t).view.emb (ix2 p q)
      = (ix2 (⟨5000 * t.val + p.val, by omega⟩ : Fin 100000) q : S100000x64.Idx) := by
    funext a
    apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [hemb]
  exact Cert.Sage.bnrelu_rows (fun p : Fin 5000 => (⟨5000 * t.val + p.val, by omega⟩ : Fin 100000)) mu var g be
    (fun p c => hh (ix2 p c) (ix2 ⟨5000 * t.val + p.val, by omega⟩ c) rfl rfl) p q

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v36).slice (win1_5.rect t)).set ↔ _
  rw [View.set_slice_whole, Rect.mem_set_unit]
  exact Iff.rfl

/-- Every index of the 100000 × 64 output array lies in the block of the point (row / 5000): the 20 blocks tile the rows. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0]; show (i 0).val / 5000 * 5000 ≤ (i 0).val ∧ (i 0).val < (i 0).val / 5000 * 5000 + 5000; omega
  | ⟨1, _⟩ => show win1_5.index t (1 : Fin 2) * 64 ≤ (i 1).val ∧ (i 1).val < win1_5.index t (1 : Fin 2) * 64 + 64; rw [e1]; omega

/-- What point t writes back is block t of the stage of the region's input arrays. -/
theorem flushed1 (c : Dev nD) (t : Fin cfg1.N) :
    (dat1 (F := Ideal) V c).flushed 5 t = ((cfg1.win 5).blk t).view.read (Elt Ideal)
      (Cert.Sage.bnrelu (V c main_v22) (V c main_v26) (V c main_v33) (V c main_v34) (V c main_v35)) := by
  show (cfg1.win 5).cut (grid1.coords t) ((dat1 V c).after 5 t) = _
  rw [after1_5]
  unfold out1_5
  rw [View.canon_unit_zero offsets_zero1]
  simp only [View.ld_unit_zero (S := S5000x64) offsets_zero1, View.ld_unit_zero (S := S1x64) offsets_zero1]
  rw [Payloads.pay1, whole1_1, whole1_2, whole1_3, whole1_4]
  exact bnrelu_block1 t _ _ _ _ _ _ (rows1_0 V c t)

theorem region1 (c : Dev nD) : (dat1 (F := Ideal) V c).arrAt 5 cfg1.N
    = Cert.Sage.bnrelu (V c main_v22) (V c main_v26) (V c main_v33) (V c main_v34) (V c main_v35) :=
  (dat1 V c).arrAt_eq_of_cover 5 _ (fun t _ => flushed1 V c t) cover1

end Cert.KernelIdeal.Regions

end
-- ==== Proof.Region2.lean ====
/-
  Region 2 (the second normalised layer), from blocks to the whole array: whatever the buffers hold when the region is
  entered, its output array ends as the normalised layer of the region's input arrays.  Point t of the grid works on
  rows 5000·t … 5000·t + 4999; the 20 blocks tile the 100000 rows.
-/
import proofs.«167795_j71949292143006_1_alg».proof.Proof.Gen.KernelIdeal.Frame
import proofs.«167795_j71949292143006_1_alg».proof.Proof.Payloads
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The whole-shape rectangle's offsets, however the zeros are spelt. -/
theorem offsets_zero2 : (![0, 0] : Fin 2 → Nat) = fun _ => 0 := funext fun a => by fin_cases a <;> rfl

/-- The index maps of region 2 over its 20 points: the row-blocked windows (summed neighbour features, counts, node features, output) sit at block (t, 0), the weights and the bias at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block t of the summed neighbour features is rows 5000·t … 5000·t + 4999 of the array. -/
theorem rows2_0 (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v46 : S100000x64.Idx → Elt Ideal .f32) k := by
  obtain ⟨e0, e1, -⟩ := idx2 t
  unfold iblk2
  rw [View.read_apply]
  show V c main_v46 _ = V c main_v46 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 64 + 1 * (x 1).val = (k 1).val; rw [e1, hk1]; omega

/-- Block t of the neighbour counts is rows 5000·t … 5000·t + 4999 of the column. -/
theorem rows2_1 (c : Dev nD) (t : Fin cfg2.N) (x : S5000x1.Idx) (k : S100000x1.Idx)
    (hk0 : (k 0).val = 5000 * t.val + (x 0).val) (hk1 : (k 1).val = (x 1).val) :
    (iblk2 V c 1 t : Vec Ideal S5000x1 .f32) x = (V c main_v8 : S100000x1.Idx → Elt Ideal .f32) k := by
  obtain ⟨-, -, e0, e1, -⟩ := idx2 t
  unfold iblk2
  rw [View.read_apply]
  show V c main_v8 _ = V c main_v8 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 1 + 1 * (x 1).val = (k 1).val; rw [e1, hk1]; omega

/-- Block t of the node features is rows 5000·t … 5000·t + 4999 of the array. -/
theorem rows2_2 (c : Dev nD) (t : Fin cfg2.N) (x : S5000x64.Idx) (k : S100000x64.Idx)
    (hk0 : (k 0).val = 5000 * t.val + (x 0).val) (hk1 : (k 1).val = (x 1).val) :
    (iblk2 V c 2 t : Vec Ideal S5000x64 .f32) x = (V c main_v36 : S100000x64.Idx → Elt Ideal .f32) k := by
  obtain ⟨-, -, -, -, e0, e1, -⟩ := idx2 t
  unfold iblk2
  rw [View.read_apply]
  show V c main_v36 _ = V c main_v36 _
  congr 1
  funext a
  apply Fin.ext
  match a with
  | ⟨0, _⟩ => show win2_2.index t (0 : Fin 2) * 5000 + 1 * (x 0).val = (k 0).val; rw [e0, hk0]; omega
  | ⟨1, _⟩ => show win2_2.index t (1 : Fin 2) * 64 + 1 * (x 1).val = (k 1).val; rw [e1, hk1]; omega

/-- A weight matrix: the window's one block, at block (0, 0), is its whole array. -/
theorem whole2_3 (c : Dev nD) (t : Fin cfg2.N) :
    (iblk2 V c 3 t : Vec Ideal S64x64 .f32) = (V c main_v47 : S64x64.Idx → Elt Ideal .f32) := by
  obtain ⟨-, -, -, -, -, -, e0, e1, -⟩ := idx2 t
  funext x
  unfold iblk2
  rw [View.read_apply]
  show V c main_v47 _ = V c main_v47 _
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

theorem whole2_4 (c : Dev nD) (t : Fin cfg2.N) :
    (iblk2 V c 4 t : Vec Ideal S64x64 .f32) = (V c main_v48 : S64x64.Idx → Elt Ideal .f32) := by
  obtain ⟨-, -, -, -, -, -, -, -, e0, e1, -⟩ := idx2 t
  funext x
  unfold iblk2
  rw [View.read_apply]
  show V c main_v48 _ = V c main_v48 _
  congr 1
  funext a
  apply Fin.ext
  match a with
  | ⟨0, _⟩ => show win2_4.index t (0 : Fin 2) * 64 + 1 * (x 0).val = (x 0).val; rw [e0]; omega
  | ⟨1, _⟩ => show win2_4.index t (1 : Fin 2) * 64 + 1 * (x 1).val = (x 1).val; rw [e1]; omega

/-- The bias row likewise. -/
theorem whole2_5 (c : Dev nD) (t : Fin cfg2.N) :
    (iblk2 V c 5 t : Vec Ideal S1x64 .f32) = (V c main_v49 : S1x64.Idx → Elt Ideal .f32) := by
  obtain ⟨-, -, -, -, -, -, -, -, -, -, e0, e1, -⟩ := idx2 t
  funext x
  unfold iblk2
  rw [View.read_apply]
  show V c main_v49 _ = V c main_v49 _
  congr 1
  funext a
  apply Fin.ext
  match a with
  | ⟨0, _⟩ => show win2_5.index t (0 : Fin 2) * 1 + 1 * (x 0).val = (x 0).val; rw [e0]; omega
  | ⟨1, _⟩ => show win2_5.index t (1 : Fin 2) * 64 + 1 * (x 1).val = (x 1).val; rw [e1]; omega

/-- The normalised layer of blocks whose rows are rows 5000·t … of the arrays is block t of the normalised layer of the
    arrays: over any block and array contents. -/
theorem convN_block2 (t : Fin cfg2.N) (agg' : Vec Ideal S5000x64 .f32) (cnt' : Vec Ideal S5000x1 .f32) (feat' : Vec Ideal S5000x64 .f32)
    (agg : S100000x64.Idx → EReal) (cnt : S100000x1.Idx → EReal) (feat : S100000x64.Idx → EReal)
    (wl wr : Vec Ideal S64x64 .f32) (b : Vec Ideal S1x64 .f32)
    (ha : ∀ (x : S5000x64.Idx) (k : S100000x64.Idx), (k 0).val = 5000 * t.val + (x 0).val → (k 1).val = (x 1).val → agg' x = agg k)
    (hc : ∀ (x : S5000x1.Idx) (k : S100000x1.Idx), (k 0).val = 5000 * t.val + (x 0).val → (k 1).val = (x 1).val → cnt' x = cnt k)
    (hf : ∀ (x : S5000x64.Idx) (k : S100000x64.Idx), (k 0).val = 5000 * t.val + (x 0).val → (k 1).val = (x 1).val → feat' x = feat k) :
    (cfg2.win 6).cut (grid2.coords t) (Cert.Sage.convN agg' cnt' feat' wl wr b)
      = ((cfg2.win 6).blk t).view.read (Elt Ideal) (Cert.Sage.convN agg cnt feat wl wr b) := by
  have ht : t.val < 20 := Nat.lt_of_lt_of_eq t.isLt N_2
  obtain ⟨-, -, -, -, -, -, -, -, -, -, -, -, e0, e1⟩ := idx2 t
  funext j
  obtain ⟨p, q, rfl⟩ : ∃ (p : Fin 5000) (q : Fin 64), j = ix2 p q := ⟨j 0, j 1, eq_ix2 j⟩
  rw [View.read_apply]
  show Cert.Sage.convN agg' cnt' feat' wl wr b (ix2 p q) = Cert.Sage.convN agg cnt feat wl wr b (((cfg2.win 6).blk t).view.emb (ix2 p q))
  have hemb : ((cfg2.win 6).blk t).view.emb (ix2 p q)
      = (ix2 (⟨5000 * t.val + p.val, by omega⟩ : Fin 100000) q : S100000x64.Idx) := by
    funext a
    apply Fin.ext
    match a with
    | ⟨0, _⟩ => show win2_6.index t (0 : Fin 2) * 5000 + 1 * p.val = 5000 * t.val + p.val; rw [e0]; omega
    | ⟨1, _⟩ => show win2_6.index t (1 : Fin 2) * 64 + 1 * q.val = q.val; rw [e1]; omega
  rw [hemb]
  exact Cert.Sage.convN_rows (fun p : Fin 5000 => (⟨5000 * t.val + p.val, by omega⟩ : Fin 100000)) wl wr b
    (fun p k => ha (ix2 p k) (ix2 ⟨5000 * t.val + p.val, by omega⟩ k) rfl rfl)
    (fun p => hc (ix2 p 0) (ix2 ⟨5000 * t.val + p.val, by omega⟩ 0) rfl rfl)
    (fun p k => hf (ix2 p k) (ix2 ⟨5000 * t.val + p.val, by omega⟩ k) rfl rfl) p q

/-- An index of the output array is in point t's block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v50).slice (win2_6.rect t)).set ↔ _
  rw [View.set_slice_whole, Rect.mem_set_unit]
  exact Iff.rfl

/-- Every index of the 100000 × 64 output array lies in the block of the point (row / 5000): the 20 blocks tile the rows. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, -, -, -, -, -, -, -, -, e0, e1⟩ := idx2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e0]; show (i 0).val / 5000 * 5000 ≤ (i 0).val ∧ (i 0).val < (i 0).val / 5000 * 5000 + 5000; omega
  | ⟨1, _⟩ => show win2_6.index t (1 : Fin 2) * 64 ≤ (i 1).val ∧ (i 1).val < win2_6.index t (1 : Fin 2) * 64 + 64; rw [e1]; omega

/-- What point t writes back is block t of the normalised layer of the region's input arrays. -/
theorem flushed2 (c : Dev nD) (t : Fin cfg2.N) :
    (dat2 (F := Ideal) V c).flushed 6 t = ((cfg2.win 6).blk t).view.read (Elt Ideal)
      (Cert.Sage.convN (V c main_v46) (V c main_v8) (V c main_v36) (V c main_v47) (V c main_v48) (V c main_v49)) := by
  show (cfg2.win 6).cut (grid2.coords t) ((dat2 V c).after 6 t) = _
  rw [after2_6]
  unfold out2_6
  rw [View.canon_unit_zero offsets_zero2]
  simp only [View.ld_unit_zero (S := S5000x1) offsets_zero2, View.ld_unit_zero (S := S5000x64) offsets_zero2, View.ld_unit_zero (S := S64x64) offsets_zero2, View.ld_unit_zero (S := S1x64) offsets_zero2]
  rw [Payloads.pay2, whole2_3, whole2_4, whole2_5]
  exact convN_block2 t _ _ _ _ _ _ _ _ _ (rows2_0 V c t) (rows2_1 V c t) (rows2_2 V c t)

theorem region2 (c : Dev nD) : (dat2 (F := Ideal) V c).arrAt 6 cfg2.N
    = Cert.Sage.convN (V c main_v46) (V c main_v8) (V c main_v36) (V c main_v47) (V c main_v48) (V c main_v49) :=
  (dat2 V c).arrAt_eq_of_cover 6 _ (fun t _ => flushed2 V c t) cover2

end Cert.KernelIdeal.Regions

end
-- ==== Proof.Region3.lean ====
/-
  Region 3 (the second batch normalisation with given column statistics, then relu), from blocks to the whole array.
  Point t of the grid works on rows 5000·t … 5000·t + 4999; the 20 blocks tile the 100000 rows.
-/
import proofs.«167795_j71949292143006_1_alg».proof.Proof.Gen.KernelIdeal.Frame
import proofs.«167795_j71949292143006_1_alg».proof.Proof.Payloads
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The whole-shape rectangle's offsets, however the zeros are spelt. -/
theorem offsets_zero3 : (![0, 0] : Fin 2 → Nat) = fun _ => 0 := funext fun a => by fin_cases a <;> rfl

/-- The index maps of region 3 over its 20 points: the row-blocked input and output sit at block (t, 0), the four rows of column statistics at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Block t of the row-blocked input is rows 5000·t … 5000·t + 4999 of its array. -/
theorem rows3_0 (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v50 : S100000x64.Idx → Elt Ideal .f32) k := by
  obtain ⟨e0, e1, -⟩ := idx3 t
  unfold iblk3
  rw [View.read_apply]
  show V c main_v50 _ = V c main_v50 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- A row of column statistics: the window's one block, at block (0, 0), is its whole array. -/
theorem whole3_1 (c : Dev nD) (t : Fin cfg3.N) :
    (iblk3 V c 1 t : Vec Ideal S1x64 .f32) = (V c main_v54 : S1x64.Idx → Elt Ideal .f32) := by
  obtain ⟨-, -, e0, e1, -⟩ := idx3 t
  funext x
  unfold iblk3
  rw [View.read_apply]
  show V c main_v54 _ = V c main_v54 _
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

theorem whole3_2 (c : Dev nD) (t : Fin cfg3.N) :
    (iblk3 V c 2 t : Vec Ideal S1x64 .f32) = (V c main_v61 : S1x64.Idx → Elt Ideal .f32) := by
  obtain ⟨-, -, -, -, e0, e1, -⟩ := idx3 t
  funext x
  unfold iblk3
  rw [View.read_apply]
  show V c main_v61 _ = V c main_v61 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 64 + 1 * (x 1).val = (x 1).val; rw [e1]; omega

theorem whole3_3 (c : Dev nD) (t : Fin cfg3.N) :
    (iblk3 V c 3 t : Vec Ideal S1x64 .f32) = (V c main_v62 : S1x64.Idx → Elt Ideal .f32) := by
  obtain ⟨-, -, -, -, -, -, e0, e1, -⟩ := idx3 t
  funext x
  unfold iblk3
  rw [View.read_apply]
  show V c main_v62 _ = V c main_v62 _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 64 + 1 * (x 1).val = (x 1).val; rw [e1]; omega

theorem whole3_4 (c : Dev nD) (t : Fin cfg3.N) :
    (iblk3 V c 4 t : Vec Ideal S1x64 .f32) = (V c main_v63 : S1x64.Idx → Elt Ideal .f32) := by
  obtain ⟨-, -, -, -, -, -, -, -, e0, e1, -⟩ := idx3 t
  funext x
  unfold iblk3
  rw [View.read_apply]
  show V c main_v63 _ = V c main_v63 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 64 + 1 * (x 1).val = (x 1).val; rw [e1]; omega

/-- The batch-norm / relu stage of a block whose rows are rows 5000·t … of an array is block t of the stage of
    that array: over any block and array contents. -/
theorem bnrelu_block3 (t : Fin cfg3.N) (h' : Vec Ideal S5000x64 .f32) (h : S100000x64.Idx → EReal)
    (mu var g be : Vec Ideal S1x64 .f32)
    (hh : ∀ (x : S5000x64.Idx) (k : S100000x64.Idx), (k 0).val = 5000 * t.val + (x 0).val → (k 1).val = (x 1).val → h' x = h k) :
    (cfg3.win 5).cut (grid3.coords t) (Cert.Sage.bnrelu h' mu var g be)
      = ((cfg3.win 5).blk t).view.read (Elt Ideal) (Cert.Sage.bnrelu h mu var g be) := by
  have ht : t.val < 20 := Nat.lt_of_lt_of_eq t.isLt N_3
  obtain ⟨-, -, -, -, -, -, -, -, -, -, e0, e1⟩ := idx3 t
  funext j
  obtain ⟨p, q, rfl⟩ : ∃ (p : Fin 5000) (q : Fin 64), j = ix2 p q := ⟨j 0, j 1, eq_ix2 j⟩
  rw [View.read_apply]
  show Cert.Sage.bnrelu h' mu var g be (ix2 p q) = Cert.Sage.bnrelu h mu var g be (((cfg3.win 5).blk t).view.emb (ix2 p q))
  have hemb : ((cfg3.win 5).blk t).view.emb (ix2 p q)
      = (ix2 (⟨5000 * t.val + p.val, by omega⟩ : Fin 100000) q : S100000x64.Idx) := by
    funext a
    apply Fin.ext
    match a with
    | ⟨0, _⟩ => show win3_5.index t (0 : Fin 2) * 5000 + 1 * p.val = 5000 * t.val + p.val; rw [e0]; omega
    | ⟨1, _⟩ => show win3_5.index t (1 : Fin 2) * 64 + 1 * q.val = q.val; rw [e1]; omega
  rw [hemb]
  exact Cert.Sage.bnrelu_rows (fun p : Fin 5000 => (⟨5000 * t.val + p.val, by omega⟩ : Fin 100000)) mu var g be
    (fun p c => hh (ix2 p c) (ix2 ⟨5000 * t.val + p.val, by omega⟩ c) rfl rfl) p q

/-- An index of the output array is in point t's block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v64).slice (win3_5.rect t)).set ↔ _
  rw [View.set_slice_whole, Rect.mem_set_unit]
  exact Iff.rfl

/-- Every index of the 100000 × 64 output array lies in the block of the point (row / 5000): the 20 blocks tile the rows. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, -, -, -, -, e0, e1⟩ := idx3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [e0]; show (i 0).val / 5000 * 5000 ≤ (i 0).val ∧ (i 0).val < (i 0).val / 5000 * 5000 + 5000; omega
  | ⟨1, _⟩ => show win3_5.index t (1 : Fin 2) * 64 ≤ (i 1).val ∧ (i 1).val < win3_5.index t (1 : Fin 2) * 64 + 64; rw [e1]; omega

/-- What point t writes back is block t of the stage of the region's input arrays. -/
theorem flushed3 (c : Dev nD) (t : Fin cfg3.N) :
    (dat3 (F := Ideal) V c).flushed 5 t = ((cfg3.win 5).blk t).view.read (Elt Ideal)
      (Cert.Sage.bnrelu (V c main_v50) (V c main_v54) (V c main_v61) (V c main_v62) (V c main_v63)) := by
  show (cfg3.win 5).cut (grid3.coords t) ((dat3 V c).after 5 t) = _
  rw [after3_5]
  unfold out3_5
  rw [View.canon_unit_zero offsets_zero3]
  simp only [View.ld_unit_zero (S := S5000x64) offsets_zero3, View.ld_unit_zero (S := S1x64) offsets_zero3]
  rw [Payloads.pay3, whole3_1, whole3_2, whole3_3, whole3_4]
  exact bnrelu_block3 t _ _ _ _ _ _ (rows3_0 V c t)

theorem region3 (c : Dev nD) : (dat3 (F := Ideal) V c).arrAt 5 cfg3.N
    = Cert.Sage.bnrelu (V c main_v50) (V c main_v54) (V c main_v61) (V c main_v62) (V c main_v63) :=
  (dat3 V c).arrAt_eq_of_cover 5 _ (fun t _ => flushed3 V c t) cover3

end Cert.KernelIdeal.Regions

end
-- ==== Proof.Region4.lean ====
/-
  Region 4 (the last layer, not normalised, ten output columns), from blocks to the whole array: whatever the buffers
  hold when the region is entered, its output array ends as the layer of the region's input arrays.  Point t of the
  grid works on rows 5000·t … 5000·t + 4999; the 20 blocks tile the 100000 rows.
-/
import proofs.«167795_j71949292143006_1_alg».proof.Proof.Gen.KernelIdeal.Frame
import proofs.«167795_j71949292143006_1_alg».proof.Proof.Payloads
import Idealize.ShloMosaic.Lib.Pipeline.Value

noncomputable section

namespace Cert.KernelIdeal.Regions

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The whole-shape rectangle's offsets, however the zeros are spelt. -/
theorem offsets_zero4 : (![0, 0] : Fin 2 → Nat) = fun _ => 0 := funext fun a => by fin_cases a <;> rfl

/-- The index maps of region 4 over its 20 points: the row-blocked windows (summed neighbour features, counts, node features, output) sit at block (t, 0), the weights and the bias at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Block t of the summed neighbour features is rows 5000·t … 5000·t + 4999 of the array. -/
theorem rows4_0 (c : Dev nD) (t : Fin cfg4.N) (x : S5000x64.Idx) (k : S100000x64.Idx)
    (hk0 : (k 0).val = 5000 * t.val + (x 0).val) (hk1 : (k 1).val = (x 1).val) :
    (iblk4 V c 0 t : Vec Ideal S5000x64 .f32) x = (V c main_v74 : S100000x64.Idx → Elt Ideal .f32) k := by
  obtain ⟨e0, e1, -⟩ := idx4 t
  unfold iblk4
  rw [View.read_apply]
  show V c main_v74 _ = V c main_v74 _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 64 + 1 * (x 1).val = (k 1).val; rw [e1, hk1]; omega

/-- Block t of the neighbour counts is rows 5000·t … 5000·t + 4999 of the column. -/
theorem rows4_1 (c : Dev nD) (t : Fin cfg4.N) (x : S5000x1.Idx) (k : S100000x1.Idx)
    (hk0 : (k 0).val = 5000 * t.val + (x 0).val) (hk1 : (k 1).val = (x 1).val) :
    (iblk4 V c 1 t : Vec Ideal S5000x1 .f32) x = (V c main_v8 : S100000x1.Idx → Elt Ideal .f32) k := by
  obtain ⟨-, -, e0, e1, -⟩ := idx4 t
  unfold iblk4
  rw [View.read_apply]
  show V c main_v8 _ = V c main_v8 _
  congr 1
  funext a
  apply Fin.ext
  match a with
  | ⟨0, _⟩ => show win4_1.index t (0 : Fin 2) * 5000 + 1 * (x 0).val = (k 0).val; rw [e0, hk0]; omega
  | ⟨1, _⟩ => show win4_1.index t (1 : Fin 2) * 1 + 1 * (x 1).val = (k 1).val; rw [e1, hk1]; omega

/-- Block t of the node features is rows 5000·t … 5000·t + 4999 of the array. -/
theorem rows4_2 (c : Dev nD) (t : Fin cfg4.N) (x : S5000x64.Idx) (k : S100000x64.Idx)
    (hk0 : (k 0).val = 5000 * t.val + (x 0).val) (hk1 : (k 1).val = (x 1).val) :
    (iblk4 V c 2 t : Vec Ideal S5000x64 .f32) x = (V c main_v64 : S100000x64.Idx → Elt Ideal .f32) k := by
  obtain ⟨-, -, -, -, e0, e1, -⟩ := idx4 t
  unfold iblk4
  rw [View.read_apply]
  show V c main_v64 _ = V c main_v64 _
  congr 1
  funext a
  apply Fin.ext
  match a with
  | ⟨0, _⟩ => show win4_2.index t (0 : Fin 2) * 5000 + 1 * (x 0).val = (k 0).val; rw [e0, hk0]; omega
  | ⟨1, _⟩ => show win4_2.index t (1 : Fin 2) * 64 + 1 * (x 1).val = (k 1).val; rw [e1, hk1]; omega

/-- A weight matrix: the window's one block, at block (0, 0), is its whole array. -/
theorem whole4_3 (c : Dev nD) (t : Fin cfg4.N) :
    (iblk4 V c 3 t : Vec Ideal S64x10 .f32) = (V c main_v75 : S64x10.Idx → Elt Ideal .f32) := by
  obtain ⟨-, -, -, -, -, -, e0, e1, -⟩ := idx4 t
  funext x
  unfold iblk4
  rw [View.read_apply]
  show V c main_v75 _ = V c main_v75 _
  congr 1
  funext a
  apply Fin.ext
  match a with
  | ⟨0, _⟩ => show win4_3.index t (0 : Fin 2) * 64 + 1 * (x 0).val = (x 0).val; rw [e0]; omega
  | ⟨1, _⟩ => show win4_3.index t (1 : Fin 2) * 10 + 1 * (x 1).val = (x 1).val; rw [e1]; omega

theorem whole4_4 (c : Dev nD) (t : Fin cfg4.N) :
    (iblk4 V c 4 t : Vec Ideal S64x10 .f32) = (V c main_v76 : S64x10.Idx → Elt Ideal .f32) := by
  obtain ⟨-, -, -, -, -, -, -, -, e0, e1, -⟩ := idx4 t
  funext x
  unfold iblk4
  rw [View.read_apply]
  show V c main_v76 _ = V c main_v76 _
  congr 1
  funext a
  apply Fin.ext
  match a with
  | ⟨0, _⟩ => show win4_4.index t (0 : Fin 2) * 64 + 1 * (x 0).val = (x 0).val; rw [e0]; omega
  | ⟨1, _⟩ => show win4_4.index t (1 : Fin 2) * 10 + 1 * (x 1).val = (x 1).val; rw [e1]; omega

/-- The bias row likewise. -/
theorem whole4_5 (c : Dev nD) (t : Fin cfg4.N) :
    (iblk4 V c 5 t : Vec Ideal S1x10 .f32) = (V c main_v77 : S1x10.Idx → Elt Ideal .f32) := by
  obtain ⟨-, -, -, -, -, -, -, -, -, -, e0, e1, -⟩ := idx4 t
  funext x
  unfold iblk4
  rw [View.read_apply]
  show V c main_v77 _ = V c main_v77 _
  congr 1
  funext a
  apply Fin.ext
  match a with
  | ⟨0, _⟩ => show win4_5.index t (0 : Fin 2) * 1 + 1 * (x 0).val = (x 0).val; rw [e0]; omega
  | ⟨1, _⟩ => show win4_5.index t (1 : Fin 2) * 10 + 1 * (x 1).val = (x 1).val; rw [e1]; omega

/-- The layer of blocks whose rows are rows 5000·t … of the arrays is block t of the layer of the
    arrays: over any block and array contents. -/
theorem conv_block4 (t : Fin cfg4.N) (agg' : Vec Ideal S5000x64 .f32) (cnt' : Vec Ideal S5000x1 .f32) (feat' : Vec Ideal S5000x64 .f32)
    (agg : S100000x64.Idx → EReal) (cnt : S100000x1.Idx → EReal) (feat : S100000x64.Idx → EReal)
    (wl wr : Vec Ideal S64x10 .f32) (b : Vec Ideal S1x10 .f32)
    (ha : ∀ (x : S5000x64.Idx) (k : S100000x64.Idx), (k 0).val = 5000 * t.val + (x 0).val → (k 1).val = (x 1).val → agg' x = agg k)
    (hc : ∀ (x : S5000x1.Idx) (k : S100000x1.Idx), (k 0).val = 5000 * t.val + (x 0).val → (k 1).val = (x 1).val → cnt' x = cnt k)
    (hf : ∀ (x : S5000x64.Idx) (k : S100000x64.Idx), (k 0).val = 5000 * t.val + (x 0).val → (k 1).val = (x 1).val → feat' x = feat k) :
    (cfg4.win 6).cut (grid4.coords t) (Cert.Sage.conv agg' cnt' feat' wl wr b)
      = ((cfg4.win 6).blk t).view.read (Elt Ideal) (Cert.Sage.conv agg cnt feat wl wr b) := by
  have ht : t.val < 20 := Nat.lt_of_lt_of_eq t.isLt N_4
  obtain ⟨-, -, -, -, -, -, -, -, -, -, -, -, e0, e1⟩ := idx4 t
  funext j
  obtain ⟨p, q, rfl⟩ : ∃ (p : Fin 5000) (q : Fin 10), j = ix2 p q := ⟨j 0, j 1, eq_ix2 j⟩
  rw [View.read_apply]
  show Cert.Sage.conv agg' cnt' feat' wl wr b (ix2 p q) = Cert.Sage.conv agg cnt feat wl wr b (((cfg4.win 6).blk t).view.emb (ix2 p q))
  have hemb : ((cfg4.win 6).blk t).view.emb (ix2 p q)
      = (ix2 (⟨5000 * t.val + p.val, by omega⟩ : Fin 100000) q : S100000x10.Idx) := by
    funext a
    apply Fin.ext
    match a with
    | ⟨0, _⟩ => show win4_6.index t (0 : Fin 2) * 5000 + 1 * p.val = 5000 * t.val + p.val; rw [e0]; omega
    | ⟨1, _⟩ => show win4_6.index t (1 : Fin 2) * 10 + 1 * q.val = q.val; rw [e1]; omega
  rw [hemb]
  exact Cert.Sage.conv_rows (fun p : Fin 5000 => (⟨5000 * t.val + p.val, by omega⟩ : Fin 100000)) wl wr b
    (fun p k => ha (ix2 p k) (ix2 ⟨5000 * t.val + p.val, by omega⟩ k) rfl rfl)
    (fun p => hc (ix2 p 0) (ix2 ⟨5000 * t.val + p.val, by omega⟩ 0) rfl rfl)
    (fun p k => hf (ix2 p k) (ix2 ⟨5000 * t.val + p.val, by omega⟩ k) rfl rfl) p q

/-- An index of the output array is in point t's block iff each coordinate is in the block's range on its axis. -/
theorem mem_blk4 (t : Fin cfg4.N) (i : S100000x10.Idx) :
    i ∈ ((cfg4.win 6).blk t).view.set ↔ ∀ a : Fin 2, win4_6.index t a * S5000x10.size a ≤ (i a).val ∧ (i a).val < win4_6.index t a * S5000x10.size a + S5000x10.size a := by
  show i ∈ ((View.whole main_v78).slice (win4_6.rect t)).set ↔ _
  rw [View.set_slice_whole, Rect.mem_set_unit]
  exact Iff.rfl

/-- Every index of the 100000 × 10 output array lies in the block of the point (row / 5000): the 20 blocks tile the rows. -/
theorem cover4 (i : S100000x10.Idx) :
    ∃ t : Fin cfg4.N, (cfg4.win 6).flush t = true ∧ i ∈ ((cfg4.win 6).blk t).view.set := by
  have hi0 : (i 0).val < 100000 := (i 0).isLt
  have hi1 : (i 1).val < 10 := (i 1).isLt
  have hN : cfg4.N = 20 := N_4
  let t : Fin cfg4.N := ⟨(i 0).val / 5000, by rw [hN]; omega⟩
  obtain ⟨-, -, -, -, -, -, -, -, -, -, -, -, e0, e1⟩ := idx4 t
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; rw [e0]; show (i 0).val / 5000 * 5000 ≤ (i 0).val ∧ (i 0).val < (i 0).val / 5000 * 5000 + 5000; omega
  | ⟨1, _⟩ => show win4_6.index t (1 : Fin 2) * 10 ≤ (i 1).val ∧ (i 1).val < win4_6.index t (1 : Fin 2) * 10 + 10; rw [e1]; omega

/-- What point t writes back is block t of the layer of the region's input arrays. -/
theorem flushed4 (c : Dev nD) (t : Fin cfg4.N) :
    (dat4 (F := Ideal) V c).flushed 6 t = ((cfg4.win 6).blk t).view.read (Elt Ideal)
      (Cert.Sage.conv (V c main_v74) (V c main_v8) (V c main_v64) (V c main_v75) (V c main_v76) (V c main_v77)) := by
  show (cfg4.win 6).cut (grid4.coords t) ((dat4 V c).after 6 t) = _
  rw [after4_6]
  unfold out4_6
  rw [View.canon_unit_zero offsets_zero4]
  simp only [View.ld_unit_zero (S := S5000x1) offsets_zero4, View.ld_unit_zero (S := S5000x64) offsets_zero4, View.ld_unit_zero (S := S64x10) offsets_zero4, View.ld_unit_zero (S := S1x10) offsets_zero4]
  rw [Payloads.pay4, whole4_3, whole4_4, whole4_5]
  exact conv_block4 t _ _ _ _ _ _ _ _ _ (rows4_0 V c t) (rows4_1 V c t) (rows4_2 V c t)

theorem region4 (c : Dev nD) : (dat4 (F := Ideal) V c).arrAt 6 cfg4.N
    = Cert.Sage.conv (V c main_v74) (V c main_v8) (V c main_v64) (V c main_v75) (V c main_v76) (V c main_v77) :=
  (dat4 V c).arrAt_eq_of_cover 6 _ (fun t _ => flushed4 V c t) cover4

end Cert.KernelIdeal.Regions

end
-- ==== Proof.Regions.lean ====
/-
  Each of the five regions, from blocks to the whole array: whatever the buffers hold when the region is entered
  (`V`), its output array ends as the layer function of `Cert.Sage` of the region's input arrays.  Point `t` of the
  grid works on rows 5000·t … 5000·t + 4999; the 20 blocks tile the 100000 rows.  One module per region
  (`region0` … `region4`); this one gathers them.
-/
import proofs.«167795_j71949292143006_1_alg».proof.Proof.Region0
import proofs.«167795_j71949292143006_1_alg».proof.Proof.Region1
import proofs.«167795_j71949292143006_1_alg».proof.Proof.Region2
import proofs.«167795_j71949292143006_1_alg».proof.Proof.Region3
import proofs.«167795_j71949292143006_1_alg».proof.Proof.Region4
-- ==== Proof.Net.lean ====
/-
  The whole network as one function of the argument arrays.

  Around the five layers the program works on the host: it splits the edge list into its source and destination rows,
  counts the edges into each node (`cntVec`, a sum of ones scattered by destination), sums the source rows' features into
  each destination (`agg`: gather the rows `feat[src]`, negative indices wrapped by the number of nodes, then scatter-add
  by destination), and takes the column mean of an array (`colMean`) and of its centred squares (`colVar`), each kept
  as a one-row matrix.  These stretches are the same operations in both programs, so they are named here once and never
  opened: only the values going into them are compared.  The layers themselves are the index-by-index functions of
  `Cert.Sage`.
-/
import proofs.«167795_j71949292143006_1_alg».proof.Proof.Gen.KernelIdeal
import proofs.«167795_j71949292143006_1_alg».proof.Proof.Spec

noncomputable section

namespace Cert.Net

open Idealize.ShloMosaic Cert.KernelIdeal Cert.KernelIdeal.Gen

/-- An array of extended reals (or of index words) of a literal shape. -/
abbrev Arr (S : Shape) (e : EltTy) : Type := (⟨S, e⟩ : BufTy).Contents (Elt Ideal)

/-- Row 0 of the edge list: the source node of each edge. -/
def src (ei : Arr S2x1600000 .i32) : Arr S1600000 .i32 :=
  shapeCast S1600000 (extractStridedSlice S1x1600000 ![0, 0] ei slices_S2x1600000_S1x1600000_0_0) shapeCasts_S1x1600000_S1600000

/-- Row 1 of the edge list: the destination node of each edge. -/
def dst (ei : Arr S2x1600000 .i32) : Arr S1600000 .i32 :=
  shapeCast S1600000 (extractStridedSlice S1x1600000 ![1, 0] ei slices_S2x1600000_S1x1600000_1_0) shapeCasts_S1x1600000_S1600000

/-- The number of edges into each node: ones scatter-added by destination. -/
def cntVec (d : Arr S1600000 .i32) : Arr S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The counts as a column. -/
def cntCol (d : Arr S1600000 .i32) : Arr S100000x1 .f32 :=
  shapeCast S100000x1 (cntVec d) shapeCasts_S100000_S100000x1

/-- The source indices with a negative index wrapped by the number of nodes. -/
def wrapped (s : Arr S1600000 .i32) : Arr S1600000 .i32 :=
  select (cmpi .slt s (broadcastInDim S1600000 ![] bcast_S_S1600000 (constantI S_ 32 0#32)))
    (addi s (broadcastInDim S1600000 ![] bcast_S_S1600000 (constantI S_ 32 100000#32))) s

/-- The summed neighbour features: the rows `feat[src]` scatter-added by destination. -/
def agg (s d : Arr S1600000 .i32) (feat : Arr S100000x64 .f32) : Arr S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 feat
      (broadcastInDim S1600000x1 ![0] bcast_S1600000_S1600000x1_0 (wrapped s)))

/-- The mean of each column: the column sums divided by the number of rows. -/
def colMeanVec (h : Arr S100000x64 .f32) : Arr S64 .f32 :=
  Host.divf (Host.reduceAdd h (constant (F := Ideal) S_ .f32 0x00000000#32) reducesTo_S100000x64_S64_d0 h_S_)
    (broadcastInDim S64 ![] bcast_S_S64 (constant (F := Ideal) S_ .f32 0x47C35000#32))

/-- A vector of 64 entries as a one-row matrix. -/
def rowOf (v : Arr S64 .f32) : Arr S1x64 .f32 := shapeCast S1x64 v shapeCasts_S64_S1x64

/-- A vector of 10 entries as a one-row matrix. -/
def rowOf10 (v : Arr S10 .f32) : Arr S1x10 .f32 := shapeCast S1x10 v shapeCasts_S10_S1x10

/-- The column means as a row. -/
def colMean (h : Arr S100000x64 .f32) : Arr S1x64 .f32 := rowOf (colMeanVec h)

/-- The squares of an array's entries centred by a row of column statistics. -/
def centredSq (h : Arr S100000x64 .f32) (mu : Arr S1x64 .f32) : Arr S100000x64 .f32 :=
  mulf (F := Ideal) (φ := .f32) (subf (F := Ideal) (φ := .f32) h (broadcastInDim S100000x64 ![0, 1] bcast_S1x64_S100000x64_0_1 mu))
    (subf (F := Ideal) (φ := .f32) h (broadcastInDim S100000x64 ![0, 1] bcast_S1x64_S100000x64_0_1 mu))

/-- The (biased) column variances about `mu`, as a row. -/
def colVar (h : Arr S100000x64 .f32) (mu : Arr S1x64 .f32) : Arr S1x64 .f32 := rowOf (colMeanVec (centredSq h mu))

/-- A normalised layer of 64 output columns. -/
def layerN (s d : Arr S1600000 .i32) (feat : Arr S100000x64 .f32) (Wl Wr : Arr S64x64 .f32) (b : Arr S64 .f32) : Arr S100000x64 .f32 :=
  Cert.Sage.convN (agg s d feat) (cntCol d) feat (transpose S64x64 [1, 0] Wl transposes_S64x64_S64x64_1_0)
    (transpose S64x64 [1, 0] Wr transposes_S64x64_S64x64_1_0) (rowOf b)

/-- Batch normalisation by the array's own column statistics, then relu. -/
def bn (h : Arr S100000x64 .f32) (g be : Arr S64 .f32) : Arr S100000x64 .f32 :=
  Cert.Sage.bnrelu h (colMean h) (colVar h (colMean h)) (rowOf g) (rowOf be)

/-- The last layer: 10 output columns, no normalisation. -/
def layer3 (s d : Arr S1600000 .i32) (feat : Arr S100000x64 .f32) (Wl Wr : Arr S10x64 .f32) (b : Arr S10 .f32) : Arr S100000x10 .f32 :=
  Cert.Sage.conv (agg s d feat) (cntCol d) feat (transpose S64x10 [1, 0] Wl transposes_S10x64_S64x10_1_0)
    (transpose S64x10 [1, 0] Wr transposes_S10x64_S64x10_1_0) (rowOf10 b)

/-- The network: two normalised layers, each followed by batch norm and relu, then the last layer. -/
def net (x : Arr S100000x64 .f32) (ei : Arr S2x1600000 .i32)
    (Wl1 Wr1 : Arr S64x64 .f32) (b1 g1 be1 : Arr S64 .f32)
    (Wl2 Wr2 : Arr S64x64 .f32) (b2 g2 be2 : Arr S64 .f32)
    (Wl3 Wr3 : Arr S10x64 .f32) (b3 : Arr S10 .f32) : Arr S100000x10 .f32 :=
  layer3 (src ei) (dst ei)
    (bn (layerN (src ei) (dst ei) (bn (layerN (src ei) (dst ei) x Wl1 Wr1 b1) g1 be1) Wl2 Wr2 b2) g2 be2)
    Wl3 Wr3 b3

end Cert.Net

end
-- ==== Proof.HostStretches.lean ====
/-
  The host stretches of the kernel's program, read back.  A stretch is a straight line of host operations run from some
  buffer contents `W`; each lemma says what one buffer holds afterwards as a function of what `W` held: either one of
  the named functions of `Cert.Net` of the stretch's inputs (`hostK_vJ`), or, for a buffer the stretch does not write,
  what it held before (`keepK_…`).  All are stated for an arbitrary `W`, so nothing upstream is ever unfolded.
-/
import proofs.«167795_j71949292143006_1_alg».proof.Proof.Gen.KernelIdeal.Launch
import proofs.«167795_j71949292143006_1_alg».proof.Proof.Net
import Idealize.ShloMosaic.Lib.StableHlo.Run

noncomputable section

namespace Cert.KernelIdeal.Stretches

open Idealize.ShloMosaic Idealize.ShloMosaic.TcCoe Idealize.ShloMosaic.Tactic Idealize.SL.Sem Cert.KernelIdeal Cert.KernelIdeal.Gen

variable (W : Valuation τ sig (Elt Ideal))

theorem host0_v1 : StableHlo.after (hostOps0 (F := Ideal)) W (Proc.devRef .tc main_v1) = Net.src (W (Proc.devRef .tc main_arg1)) := by
  after_results_simp <;> rfl

theorem host0_v3 : StableHlo.after (hostOps0 (F := Ideal)) W (Proc.devRef .tc main_v3) = Net.dst (W (Proc.devRef .tc main_arg1)) := by
  after_results_simp <;> rfl

theorem host0_v8 : StableHlo.after (hostOps0 (F := Ideal)) W (Proc.devRef .tc main_v8) = Net.cntCol (Net.dst (W (Proc.devRef .tc main_arg1))) := by
  after_results_simp <;> rfl

theorem host0_v18 : StableHlo.after (hostOps0 (F := Ideal)) W (Proc.devRef .tc main_v18) = Net.agg (Net.src (W (Proc.devRef .tc main_arg1))) (Net.dst (W (Proc.devRef .tc main_arg1))) (W (Proc.devRef .tc main_arg0)) := by
  after_results_simp <;> rfl

theorem host0_v19 : StableHlo.after (hostOps0 (F := Ideal)) W (Proc.devRef .tc main_v19) = transpose S64x64 [1, 0] (W (Proc.devRef .tc main_arg2)) transposes_S64x64_S64x64_1_0 := by
  after_results_simp <;> rfl

theorem host0_v20 : StableHlo.after (hostOps0 (F := Ideal)) W (Proc.devRef .tc main_v20) = transpose S64x64 [1, 0] (W (Proc.devRef .tc main_arg3)) transposes_S64x64_S64x64_1_0 := by
  after_results_simp <;> rfl

theorem host0_v21 : StableHlo.after (hostOps0 (F := Ideal)) W (Proc.devRef .tc main_v21) = Net.rowOf (W (Proc.devRef .tc main_arg4)) := by
  after_results_simp <;> rfl

theorem host1_v26 : StableHlo.after (hostOps1 (F := Ideal)) W (Proc.devRef .tc main_v26) = Net.colMean (W (Proc.devRef .tc main_v22)) := by
  after_results_simp <;> rfl

theorem host1_v33 : StableHlo.after (hostOps1 (F := Ideal)) W (Proc.devRef .tc main_v33) = Net.colVar (W (Proc.devRef .tc main_v22)) (Net.colMean (W (Proc.devRef .tc main_v22))) := by
  after_results_simp <;> rfl

theorem host1_v34 : StableHlo.after (hostOps1 (F := Ideal)) W (Proc.devRef .tc main_v34) = Net.rowOf (W (Proc.devRef .tc main_arg5)) := by
  after_results_simp <;> rfl

theorem host1_v35 : StableHlo.after (hostOps1 (F := Ideal)) W (Proc.devRef .tc main_v35) = Net.rowOf (W (Proc.devRef .tc main_arg6)) := by
  after_results_simp <;> rfl

theorem host2_v46 : StableHlo.after (hostOps2 (F := Ideal)) W (Proc.devRef .tc main_v46) = Net.agg (W (Proc.devRef .tc main_v1)) (W (Proc.devRef .tc main_v3)) (W (Proc.devRef .tc main_v36)) := by
  after_results_simp <;> rfl

theorem host2_v47 : StableHlo.after (hostOps2 (F := Ideal)) W (Proc.devRef .tc main_v47) = transpose S64x64 [1, 0] (W (Proc.devRef .tc main_arg7)) transposes_S64x64_S64x64_1_0 := by
  after_results_simp <;> rfl

theorem host2_v48 : StableHlo.after (hostOps2 (F := Ideal)) W (Proc.devRef .tc main_v48) = transpose S64x64 [1, 0] (W (Proc.devRef .tc main_arg8)) transposes_S64x64_S64x64_1_0 := by
  after_results_simp <;> rfl

theorem host2_v49 : StableHlo.after (hostOps2 (F := Ideal)) W (Proc.devRef .tc main_v49) = Net.rowOf (W (Proc.devRef .tc main_arg9)) := by
  after_results_simp <;> rfl

theorem host3_v54 : StableHlo.after (hostOps3 (F := Ideal)) W (Proc.devRef .tc main_v54) = Net.colMean (W (Proc.devRef .tc main_v50)) := by
  after_results_simp <;> rfl

theorem host3_v61 : StableHlo.after (hostOps3 (F := Ideal)) W (Proc.devRef .tc main_v61) = Net.colVar (W (Proc.devRef .tc main_v50)) (Net.colMean (W (Proc.devRef .tc main_v50))) := by
  after_results_simp <;> rfl

theorem host3_v62 : StableHlo.after (hostOps3 (F := Ideal)) W (Proc.devRef .tc main_v62) = Net.rowOf (W (Proc.devRef .tc main_arg10)) := by
  after_results_simp <;> rfl

theorem host3_v63 : StableHlo.after (hostOps3 (F := Ideal)) W (Proc.devRef .tc main_v63) = Net.rowOf (W (Proc.devRef .tc main_arg11)) := by
  after_results_simp <;> rfl

theorem host4_v74 : StableHlo.after (hostOps4 (F := Ideal)) W (Proc.devRef .tc main_v74) = Net.agg (W (Proc.devRef .tc main_v1)) (W (Proc.devRef .tc main_v3)) (W (Proc.devRef .tc main_v64)) := by
  after_results_simp <;> rfl

theorem host4_v75 : StableHlo.after (hostOps4 (F := Ideal)) W (Proc.devRef .tc main_v75) = transpose S64x10 [1, 0] (W (Proc.devRef .tc main_arg12)) transposes_S10x64_S64x10_1_0 := by
  after_results_simp <;> rfl

theorem host4_v76 : StableHlo.after (hostOps4 (F := Ideal)) W (Proc.devRef .tc main_v76) = transpose S64x10 [1, 0] (W (Proc.devRef .tc main_arg13)) transposes_S10x64_S64x10_1_0 := by
  after_results_simp <;> rfl

theorem host4_v77 : StableHlo.after (hostOps4 (F := Ideal)) W (Proc.devRef .tc main_v77) = Net.rowOf10 (W (Proc.devRef .tc main_arg14)) := by
  after_results_simp <;> rfl

theorem keep0_arg0 : StableHlo.after (hostOps0 (F := Ideal)) W (Proc.devRef .tc main_arg0) = W (Proc.devRef .tc main_arg0) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg1 : StableHlo.after (hostOps0 (F := Ideal)) W (Proc.devRef .tc main_arg1) = W (Proc.devRef .tc main_arg1) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg5 : StableHlo.after (hostOps0 (F := Ideal)) W (Proc.devRef .tc main_arg5) = W (Proc.devRef .tc main_arg5) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg6 : StableHlo.after (hostOps0 (F := Ideal)) W (Proc.devRef .tc main_arg6) = W (Proc.devRef .tc main_arg6) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg7 : StableHlo.after (hostOps0 (F := Ideal)) W (Proc.devRef .tc main_arg7) = W (Proc.devRef .tc main_arg7) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg8 : StableHlo.after (hostOps0 (F := Ideal)) W (Proc.devRef .tc main_arg8) = W (Proc.devRef .tc main_arg8) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg9 : StableHlo.after (hostOps0 (F := Ideal)) W (Proc.devRef .tc main_arg9) = W (Proc.devRef .tc main_arg9) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg10 : StableHlo.after (hostOps0 (F := Ideal)) W (Proc.devRef .tc main_arg10) = W (Proc.devRef .tc main_arg10) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg11 : StableHlo.after (hostOps0 (F := Ideal)) W (Proc.devRef .tc main_arg11) = W (Proc.devRef .tc main_arg11) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg12 : StableHlo.after (hostOps0 (F := Ideal)) W (Proc.devRef .tc main_arg12) = W (Proc.devRef .tc main_arg12) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg13 : StableHlo.after (hostOps0 (F := Ideal)) W (Proc.devRef .tc main_arg13) = W (Proc.devRef .tc main_arg13) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep0_arg14 : StableHlo.after (hostOps0 (F := Ideal)) W (Proc.devRef .tc main_arg14) = W (Proc.devRef .tc main_arg14) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_v22 : StableHlo.after (hostOps1 (F := Ideal)) W (Proc.devRef .tc main_v22) = W (Proc.devRef .tc main_v22) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_v1 : StableHlo.after (hostOps1 (F := Ideal)) W (Proc.devRef .tc main_v1) = W (Proc.devRef .tc main_v1) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_v3 : StableHlo.after (hostOps1 (F := Ideal)) W (Proc.devRef .tc main_v3) = W (Proc.devRef .tc main_v3) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_v8 : StableHlo.after (hostOps1 (F := Ideal)) W (Proc.devRef .tc main_v8) = W (Proc.devRef .tc main_v8) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg7 : StableHlo.after (hostOps1 (F := Ideal)) W (Proc.devRef .tc main_arg7) = W (Proc.devRef .tc main_arg7) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg8 : StableHlo.after (hostOps1 (F := Ideal)) W (Proc.devRef .tc main_arg8) = W (Proc.devRef .tc main_arg8) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg9 : StableHlo.after (hostOps1 (F := Ideal)) W (Proc.devRef .tc main_arg9) = W (Proc.devRef .tc main_arg9) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg10 : StableHlo.after (hostOps1 (F := Ideal)) W (Proc.devRef .tc main_arg10) = W (Proc.devRef .tc main_arg10) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg11 : StableHlo.after (hostOps1 (F := Ideal)) W (Proc.devRef .tc main_arg11) = W (Proc.devRef .tc main_arg11) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg12 : StableHlo.after (hostOps1 (F := Ideal)) W (Proc.devRef .tc main_arg12) = W (Proc.devRef .tc main_arg12) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg13 : StableHlo.after (hostOps1 (F := Ideal)) W (Proc.devRef .tc main_arg13) = W (Proc.devRef .tc main_arg13) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep1_arg14 : StableHlo.after (hostOps1 (F := Ideal)) W (Proc.devRef .tc main_arg14) = W (Proc.devRef .tc main_arg14) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_v36 : StableHlo.after (hostOps2 (F := Ideal)) W (Proc.devRef .tc main_v36) = W (Proc.devRef .tc main_v36) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_v8 : StableHlo.after (hostOps2 (F := Ideal)) W (Proc.devRef .tc main_v8) = W (Proc.devRef .tc main_v8) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_v1 : StableHlo.after (hostOps2 (F := Ideal)) W (Proc.devRef .tc main_v1) = W (Proc.devRef .tc main_v1) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_v3 : StableHlo.after (hostOps2 (F := Ideal)) W (Proc.devRef .tc main_v3) = W (Proc.devRef .tc main_v3) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_arg10 : StableHlo.after (hostOps2 (F := Ideal)) W (Proc.devRef .tc main_arg10) = W (Proc.devRef .tc main_arg10) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_arg11 : StableHlo.after (hostOps2 (F := Ideal)) W (Proc.devRef .tc main_arg11) = W (Proc.devRef .tc main_arg11) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_arg12 : StableHlo.after (hostOps2 (F := Ideal)) W (Proc.devRef .tc main_arg12) = W (Proc.devRef .tc main_arg12) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_arg13 : StableHlo.after (hostOps2 (F := Ideal)) W (Proc.devRef .tc main_arg13) = W (Proc.devRef .tc main_arg13) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep2_arg14 : StableHlo.after (hostOps2 (F := Ideal)) W (Proc.devRef .tc main_arg14) = W (Proc.devRef .tc main_arg14) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_v50 : StableHlo.after (hostOps3 (F := Ideal)) W (Proc.devRef .tc main_v50) = W (Proc.devRef .tc main_v50) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_v1 : StableHlo.after (hostOps3 (F := Ideal)) W (Proc.devRef .tc main_v1) = W (Proc.devRef .tc main_v1) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_v3 : StableHlo.after (hostOps3 (F := Ideal)) W (Proc.devRef .tc main_v3) = W (Proc.devRef .tc main_v3) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_v8 : StableHlo.after (hostOps3 (F := Ideal)) W (Proc.devRef .tc main_v8) = W (Proc.devRef .tc main_v8) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_arg12 : StableHlo.after (hostOps3 (F := Ideal)) W (Proc.devRef .tc main_arg12) = W (Proc.devRef .tc main_arg12) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_arg13 : StableHlo.after (hostOps3 (F := Ideal)) W (Proc.devRef .tc main_arg13) = W (Proc.devRef .tc main_arg13) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep3_arg14 : StableHlo.after (hostOps3 (F := Ideal)) W (Proc.devRef .tc main_arg14) = W (Proc.devRef .tc main_arg14) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep4_v64 : StableHlo.after (hostOps4 (F := Ideal)) W (Proc.devRef .tc main_v64) = W (Proc.devRef .tc main_v64) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

theorem keep4_v8 : StableHlo.after (hostOps4 (F := Ideal)) W (Proc.devRef .tc main_v8) = W (Proc.devRef .tc main_v8) := by
    refine StableHlo.after_of_forall_not_mem _ _ (List.forall_iff_forall_mem.mp ?_)
    simp only [hostOps0, hostOps1, hostOps2, hostOps3, hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

end Cert.KernelIdeal.Stretches

end
-- ==== Proof.KernelChain.lean ====
/-
  The kernel's program followed from the launch to the return.  Its run is a fold of buffer contents, `W0` (the launch
  memory), `W1` (after the first host stretch), `W2` (after the first region) … `W10` (after the last region).  Level by
  level, each buffer a later step reads is identified with a function of the ARGUMENT arrays: a host stretch's result by
  the stretch's read-back, a region's output array by the region's blocks-to-array theorem, and a buffer that a step
  does not write by what it held before.  At the end the result buffer holds `Cert.Net.net` of the arguments.
-/
import proofs.«167795_j71949292143006_1_alg».proof.Proof.Gen.KernelIdeal.Frame
import proofs.«167795_j71949292143006_1_alg».proof.Proof.Regions
import proofs.«167795_j71949292143006_1_alg».proof.Proof.HostStretches

set_option maxRecDepth 16384

noncomputable section

namespace Cert.KernelIdeal.Chain

open Idealize.ShloMosaic Idealize.ShloMosaic.TcCoe Idealize.SL.Sem Cert.KernelIdeal Cert.KernelIdeal.Gen Cert.KernelIdeal.Stretches

variable (m : (ℓ : Loc nD τ sig) → Buf (Elt Ideal) ℓ) (ρ : Dev nD → PrngReg) (c : Dev nD)

/-- The first normalised layer of the arguments. -/
def C1 : Net.Arr S100000x64 .f32 := Net.layerN (Net.src (m ((c : Thread nD τ).loc main_arg1))) (Net.dst (m ((c : Thread nD τ).loc main_arg1))) (m ((c : Thread nD τ).loc main_arg0)) (m ((c : Thread nD τ).loc main_arg2)) (m ((c : Thread nD τ).loc main_arg3)) (m ((c : Thread nD τ).loc main_arg4))
/-- … after batch norm and relu. -/
def H1 : Net.Arr S100000x64 .f32 := Net.bn (C1 m c) (m ((c : Thread nD τ).loc main_arg5)) (m ((c : Thread nD τ).loc main_arg6))
/-- The second normalised layer. -/
def C2 : Net.Arr S100000x64 .f32 := Net.layerN (Net.src (m ((c : Thread nD τ).loc main_arg1))) (Net.dst (m ((c : Thread nD τ).loc main_arg1))) (H1 m c) (m ((c : Thread nD τ).loc main_arg7)) (m ((c : Thread nD τ).loc main_arg8)) (m ((c : Thread nD τ).loc main_arg9))
/-- … after batch norm and relu. -/
def H2 : Net.Arr S100000x64 .f32 := Net.bn (C2 m c) (m ((c : Thread nD τ).loc main_arg10)) (m ((c : Thread nD τ).loc main_arg11))

theorem w0_arg0 : W0 m ρ c (Proc.devRef .tc main_arg0) = (m ((c : Thread nD τ).loc main_arg0)) := by
  rfl

theorem w0_arg1 : W0 m ρ c (Proc.devRef .tc main_arg1) = (m ((c : Thread nD τ).loc main_arg1)) := by
  rfl

theorem w0_arg2 : W0 m ρ c (Proc.devRef .tc main_arg2) = (m ((c : Thread nD τ).loc main_arg2)) := by
  rfl

theorem w0_arg3 : W0 m ρ c (Proc.devRef .tc main_arg3) = (m ((c : Thread nD τ).loc main_arg3)) := by
  rfl

theorem w0_arg4 : W0 m ρ c (Proc.devRef .tc main_arg4) = (m ((c : Thread nD τ).loc main_arg4)) := by
  rfl

theorem w0_arg5 : W0 m ρ c (Proc.devRef .tc main_arg5) = (m ((c : Thread nD τ).loc main_arg5)) := by
  rfl

theorem w0_arg6 : W0 m ρ c (Proc.devRef .tc main_arg6) = (m ((c : Thread nD τ).loc main_arg6)) := by
  rfl

theorem w0_arg7 : W0 m ρ c (Proc.devRef .tc main_arg7) = (m ((c : Thread nD τ).loc main_arg7)) := by
  rfl

theorem w0_arg8 : W0 m ρ c (Proc.devRef .tc main_arg8) = (m ((c : Thread nD τ).loc main_arg8)) := by
  rfl

theorem w0_arg9 : W0 m ρ c (Proc.devRef .tc main_arg9) = (m ((c : Thread nD τ).loc main_arg9)) := by
  rfl

theorem w0_arg10 : W0 m ρ c (Proc.devRef .tc main_arg10) = (m ((c : Thread nD τ).loc main_arg10)) := by
  rfl

theorem w0_arg11 : W0 m ρ c (Proc.devRef .tc main_arg11) = (m ((c : Thread nD τ).loc main_arg11)) := by
  rfl

theorem w0_arg12 : W0 m ρ c (Proc.devRef .tc main_arg12) = (m ((c : Thread nD τ).loc main_arg12)) := by
  rfl

theorem w0_arg13 : W0 m ρ c (Proc.devRef .tc main_arg13) = (m ((c : Thread nD τ).loc main_arg13)) := by
  rfl

theorem w0_arg14 : W0 m ρ c (Proc.devRef .tc main_arg14) = (m ((c : Thread nD τ).loc main_arg14)) := by
  rfl

/-! ## Host stretch 0: level 0 to level 1 -/

theorem w1_v1 : W1 m ρ c (Proc.devRef .tc main_v1) = (Net.src (m ((c : Thread nD τ).loc main_arg1))) := by
  refine (host0_v1 (W0 m ρ c)).trans ?_
  rw [w0_arg1 m ρ c]

theorem w1_v3 : W1 m ρ c (Proc.devRef .tc main_v3) = (Net.dst (m ((c : Thread nD τ).loc main_arg1))) := by
  refine (host0_v3 (W0 m ρ c)).trans ?_
  rw [w0_arg1 m ρ c]

theorem w1_v8 : W1 m ρ c (Proc.devRef .tc main_v8) = (Net.cntCol (Net.dst (m ((c : Thread nD τ).loc main_arg1)))) := by
  refine (host0_v8 (W0 m ρ c)).trans ?_
  rw [w0_arg1 m ρ c]

theorem w1_v18 : W1 m ρ c (Proc.devRef .tc main_v18) = (Net.agg (Net.src (m ((c : Thread nD τ).loc main_arg1))) (Net.dst (m ((c : Thread nD τ).loc main_arg1))) (m ((c : Thread nD τ).loc main_arg0))) := by
  refine (host0_v18 (W0 m ρ c)).trans ?_
  rw [w0_arg1 m ρ c, w0_arg0 m ρ c]

theorem w1_v19 : W1 m ρ c (Proc.devRef .tc main_v19) = (transpose S64x64 [1, 0] (m ((c : Thread nD τ).loc main_arg2)) transposes_S64x64_S64x64_1_0) := by
  refine (host0_v19 (W0 m ρ c)).trans ?_
  rw [w0_arg2 m ρ c]

theorem w1_v20 : W1 m ρ c (Proc.devRef .tc main_v20) = (transpose S64x64 [1, 0] (m ((c : Thread nD τ).loc main_arg3)) transposes_S64x64_S64x64_1_0) := by
  refine (host0_v20 (W0 m ρ c)).trans ?_
  rw [w0_arg3 m ρ c]

theorem w1_v21 : W1 m ρ c (Proc.devRef .tc main_v21) = (Net.rowOf (m ((c : Thread nD τ).loc main_arg4))) := by
  refine (host0_v21 (W0 m ρ c)).trans ?_
  rw [w0_arg4 m ρ c]

theorem w1_arg0 : W1 m ρ c (Proc.devRef .tc main_arg0) = (m ((c : Thread nD τ).loc main_arg0)) := by
  exact (keep0_arg0 (W0 m ρ c)).trans (w0_arg0 m ρ c)

theorem w1_arg5 : W1 m ρ c (Proc.devRef .tc main_arg5) = (m ((c : Thread nD τ).loc main_arg5)) := by
  exact (keep0_arg5 (W0 m ρ c)).trans (w0_arg5 m ρ c)

theorem w1_arg6 : W1 m ρ c (Proc.devRef .tc main_arg6) = (m ((c : Thread nD τ).loc main_arg6)) := by
  exact (keep0_arg6 (W0 m ρ c)).trans (w0_arg6 m ρ c)

theorem w1_arg7 : W1 m ρ c (Proc.devRef .tc main_arg7) = (m ((c : Thread nD τ).loc main_arg7)) := by
  exact (keep0_arg7 (W0 m ρ c)).trans (w0_arg7 m ρ c)

theorem w1_arg8 : W1 m ρ c (Proc.devRef .tc main_arg8) = (m ((c : Thread nD τ).loc main_arg8)) := by
  exact (keep0_arg8 (W0 m ρ c)).trans (w0_arg8 m ρ c)

theorem w1_arg9 : W1 m ρ c (Proc.devRef .tc main_arg9) = (m ((c : Thread nD τ).loc main_arg9)) := by
  exact (keep0_arg9 (W0 m ρ c)).trans (w0_arg9 m ρ c)

theorem w1_arg10 : W1 m ρ c (Proc.devRef .tc main_arg10) = (m ((c : Thread nD τ).loc main_arg10)) := by
  exact (keep0_arg10 (W0 m ρ c)).trans (w0_arg10 m ρ c)

theorem w1_arg11 : W1 m ρ c (Proc.devRef .tc main_arg11) = (m ((c : Thread nD τ).loc main_arg11)) := by
  exact (keep0_arg11 (W0 m ρ c)).trans (w0_arg11 m ρ c)

theorem w1_arg12 : W1 m ρ c (Proc.devRef .tc main_arg12) = (m ((c : Thread nD τ).loc main_arg12)) := by
  exact (keep0_arg12 (W0 m ρ c)).trans (w0_arg12 m ρ c)

theorem w1_arg13 : W1 m ρ c (Proc.devRef .tc main_arg13) = (m ((c : Thread nD τ).loc main_arg13)) := by
  exact (keep0_arg13 (W0 m ρ c)).trans (w0_arg13 m ρ c)

theorem w1_arg14 : W1 m ρ c (Proc.devRef .tc main_arg14) = (m ((c : Thread nD τ).loc main_arg14)) := by
  exact (keep0_arg14 (W0 m ρ c)).trans (w0_arg14 m ρ c)

/-! ## Region 0: level 1 to level 2 -/

theorem w2_v1 : W2 m ρ c (Proc.devRef .tc main_v1) = (Net.src (m ((c : Thread nD τ).loc main_arg1))) := by
  exact (W2_of_ne m ρ c main_v1 (by decide)).trans (w1_v1 m ρ c)

theorem w2_v3 : W2 m ρ c (Proc.devRef .tc main_v3) = (Net.dst (m ((c : Thread nD τ).loc main_arg1))) := by
  exact (W2_of_ne m ρ c main_v3 (by decide)).trans (w1_v3 m ρ c)

theorem w2_v8 : W2 m ρ c (Proc.devRef .tc main_v8) = (Net.cntCol (Net.dst (m ((c : Thread nD τ).loc main_arg1)))) := by
  exact ((W2_arr m ρ c 1).trans (((dat0 (V1 m ρ) c).arrAt_in 1 rfl _).trans (A_eq0 (V1 m ρ) c 1))).trans (w1_v8 m ρ c)

theorem w2_arg5 : W2 m ρ c (Proc.devRef .tc main_arg5) = (m ((c : Thread nD τ).loc main_arg5)) := by
  exact (W2_of_ne m ρ c main_arg5 (by decide)).trans (w1_arg5 m ρ c)

theorem w2_arg6 : W2 m ρ c (Proc.devRef .tc main_arg6) = (m ((c : Thread nD τ).loc main_arg6)) := by
  exact (W2_of_ne m ρ c main_arg6 (by decide)).trans (w1_arg6 m ρ c)

theorem w2_arg7 : W2 m ρ c (Proc.devRef .tc main_arg7) = (m ((c : Thread nD τ).loc main_arg7)) := by
  exact (W2_of_ne m ρ c main_arg7 (by decide)).trans (w1_arg7 m ρ c)

theorem w2_arg8 : W2 m ρ c (Proc.devRef .tc main_arg8) = (m ((c : Thread nD τ).loc main_arg8)) := by
  exact (W2_of_ne m ρ c main_arg8 (by decide)).trans (w1_arg8 m ρ c)

theorem w2_arg9 : W2 m ρ c (Proc.devRef .tc main_arg9) = (m ((c : Thread nD τ).loc main_arg9)) := by
  exact (W2_of_ne m ρ c main_arg9 (by decide)).trans (w1_arg9 m ρ c)

theorem w2_arg10 : W2 m ρ c (Proc.devRef .tc main_arg10) = (m ((c : Thread nD τ).loc main_arg10)) := by
  exact (W2_of_ne m ρ c main_arg10 (by decide)).trans (w1_arg10 m ρ c)

theorem w2_arg11 : W2 m ρ c (Proc.devRef .tc main_arg11) = (m ((c : Thread nD τ).loc main_arg11)) := by
  exact (W2_of_ne m ρ c main_arg11 (by decide)).trans (w1_arg11 m ρ c)

theorem w2_arg12 : W2 m ρ c (Proc.devRef .tc main_arg12) = (m ((c : Thread nD τ).loc main_arg12)) := by
  exact (W2_of_ne m ρ c main_arg12 (by decide)).trans (w1_arg12 m ρ c)

theorem w2_arg13 : W2 m ρ c (Proc.devRef .tc main_arg13) = (m ((c : Thread nD τ).loc main_arg13)) := by
  exact (W2_of_ne m ρ c main_arg13 (by decide)).trans (w1_arg13 m ρ c)

theorem w2_arg14 : W2 m ρ c (Proc.devRef .tc main_arg14) = (m ((c : Thread nD τ).loc main_arg14)) := by
  exact (W2_of_ne m ρ c main_arg14 (by decide)).trans (w1_arg14 m ρ c)

theorem w2_v22 : W2 m ρ c (Proc.devRef .tc main_v22) = (C1 m c) := by
  refine (W2_arr m ρ c 6).trans ((Regions.region0 (V1 m ρ) c).trans ?_)
  show Cert.Sage.convN (W1 m ρ c (Proc.devRef .tc main_v18)) (W1 m ρ c (Proc.devRef .tc main_v8)) (W1 m ρ c (Proc.devRef .tc main_arg0)) (W1 m ρ c (Proc.devRef .tc main_v19)) (W1 m ρ c (Proc.devRef .tc main_v20)) (W1 m ρ c (Proc.devRef .tc main_v21)) = _
  rw [w1_v18 m ρ c, w1_v8 m ρ c, w1_arg0 m ρ c, w1_v19 m ρ c, w1_v20 m ρ c, w1_v21 m ρ c]
  rfl

/-! ## Host stretch 1: level 2 to level 3 -/

theorem w3_v26 : W3 m ρ c (Proc.devRef .tc main_v26) = (Net.colMean (C1 m c)) := by
  refine (host1_v26 (W2 m ρ c)).trans ?_
  rw [w2_v22 m ρ c]

theorem w3_v33 : W3 m ρ c (Proc.devRef .tc main_v33) = (Net.colVar (C1 m c) (Net.colMean (C1 m c))) := by
  refine (host1_v33 (W2 m ρ c)).trans ?_
  rw [w2_v22 m ρ c]

theorem w3_v34 : W3 m ρ c (Proc.devRef .tc main_v34) = (Net.rowOf (m ((c : Thread nD τ).loc main_arg5))) := by
  refine (host1_v34 (W2 m ρ c)).trans ?_
  rw [w2_arg5 m ρ c]

theorem w3_v35 : W3 m ρ c (Proc.devRef .tc main_v35) = (Net.rowOf (m ((c : Thread nD τ).loc main_arg6))) := by
  refine (host1_v35 (W2 m ρ c)).trans ?_
  rw [w2_arg6 m ρ c]

theorem w3_v22 : W3 m ρ c (Proc.devRef .tc main_v22) = (C1 m c) := by
  exact (keep1_v22 (W2 m ρ c)).trans (w2_v22 m ρ c)

theorem w3_v1 : W3 m ρ c (Proc.devRef .tc main_v1) = (Net.src (m ((c : Thread nD τ).loc main_arg1))) := by
  exact (keep1_v1 (W2 m ρ c)).trans (w2_v1 m ρ c)

theorem w3_v3 : W3 m ρ c (Proc.devRef .tc main_v3) = (Net.dst (m ((c : Thread nD τ).loc main_arg1))) := by
  exact (keep1_v3 (W2 m ρ c)).trans (w2_v3 m ρ c)

theorem w3_v8 : W3 m ρ c (Proc.devRef .tc main_v8) = (Net.cntCol (Net.dst (m ((c : Thread nD τ).loc main_arg1)))) := by
  exact (keep1_v8 (W2 m ρ c)).trans (w2_v8 m ρ c)

theorem w3_arg7 : W3 m ρ c (Proc.devRef .tc main_arg7) = (m ((c : Thread nD τ).loc main_arg7)) := by
  exact (keep1_arg7 (W2 m ρ c)).trans (w2_arg7 m ρ c)

theorem w3_arg8 : W3 m ρ c (Proc.devRef .tc main_arg8) = (m ((c : Thread nD τ).loc main_arg8)) := by
  exact (keep1_arg8 (W2 m ρ c)).trans (w2_arg8 m ρ c)

theorem w3_arg9 : W3 m ρ c (Proc.devRef .tc main_arg9) = (m ((c : Thread nD τ).loc main_arg9)) := by
  exact (keep1_arg9 (W2 m ρ c)).trans (w2_arg9 m ρ c)

theorem w3_arg10 : W3 m ρ c (Proc.devRef .tc main_arg10) = (m ((c : Thread nD τ).loc main_arg10)) := by
  exact (keep1_arg10 (W2 m ρ c)).trans (w2_arg10 m ρ c)

theorem w3_arg11 : W3 m ρ c (Proc.devRef .tc main_arg11) = (m ((c : Thread nD τ).loc main_arg11)) := by
  exact (keep1_arg11 (W2 m ρ c)).trans (w2_arg11 m ρ c)

theorem w3_arg12 : W3 m ρ c (Proc.devRef .tc main_arg12) = (m ((c : Thread nD τ).loc main_arg12)) := by
  exact (keep1_arg12 (W2 m ρ c)).trans (w2_arg12 m ρ c)

theorem w3_arg13 : W3 m ρ c (Proc.devRef .tc main_arg13) = (m ((c : Thread nD τ).loc main_arg13)) := by
  exact (keep1_arg13 (W2 m ρ c)).trans (w2_arg13 m ρ c)

theorem w3_arg14 : W3 m ρ c (Proc.devRef .tc main_arg14) = (m ((c : Thread nD τ).loc main_arg14)) := by
  exact (keep1_arg14 (W2 m ρ c)).trans (w2_arg14 m ρ c)

/-! ## Region 1: level 3 to level 4 -/

theorem w4_v1 : W4 m ρ c (Proc.devRef .tc main_v1) = (Net.src (m ((c : Thread nD τ).loc main_arg1))) := by
  exact (W4_of_ne m ρ c main_v1 (by decide)).trans (w3_v1 m ρ c)

theorem w4_v3 : W4 m ρ c (Proc.devRef .tc main_v3) = (Net.dst (m ((c : Thread nD τ).loc main_arg1))) := by
  exact (W4_of_ne m ρ c main_v3 (by decide)).trans (w3_v3 m ρ c)

theorem w4_v8 : W4 m ρ c (Proc.devRef .tc main_v8) = (Net.cntCol (Net.dst (m ((c : Thread nD τ).loc main_arg1)))) := by
  exact (W4_of_ne m ρ c main_v8 (by decide)).trans (w3_v8 m ρ c)

theorem w4_arg7 : W4 m ρ c (Proc.devRef .tc main_arg7) = (m ((c : Thread nD τ).loc main_arg7)) := by
  exact (W4_of_ne m ρ c main_arg7 (by decide)).trans (w3_arg7 m ρ c)

theorem w4_arg8 : W4 m ρ c (Proc.devRef .tc main_arg8) = (m ((c : Thread nD τ).loc main_arg8)) := by
  exact (W4_of_ne m ρ c main_arg8 (by decide)).trans (w3_arg8 m ρ c)

theorem w4_arg9 : W4 m ρ c (Proc.devRef .tc main_arg9) = (m ((c : Thread nD τ).loc main_arg9)) := by
  exact (W4_of_ne m ρ c main_arg9 (by decide)).trans (w3_arg9 m ρ c)

theorem w4_arg10 : W4 m ρ c (Proc.devRef .tc main_arg10) = (m ((c : Thread nD τ).loc main_arg10)) := by
  exact (W4_of_ne m ρ c main_arg10 (by decide)).trans (w3_arg10 m ρ c)

theorem w4_arg11 : W4 m ρ c (Proc.devRef .tc main_arg11) = (m ((c : Thread nD τ).loc main_arg11)) := by
  exact (W4_of_ne m ρ c main_arg11 (by decide)).trans (w3_arg11 m ρ c)

theorem w4_arg12 : W4 m ρ c (Proc.devRef .tc main_arg12) = (m ((c : Thread nD τ).loc main_arg12)) := by
  exact (W4_of_ne m ρ c main_arg12 (by decide)).trans (w3_arg12 m ρ c)

theorem w4_arg13 : W4 m ρ c (Proc.devRef .tc main_arg13) = (m ((c : Thread nD τ).loc main_arg13)) := by
  exact (W4_of_ne m ρ c main_arg13 (by decide)).trans (w3_arg13 m ρ c)

theorem w4_arg14 : W4 m ρ c (Proc.devRef .tc main_arg14) = (m ((c : Thread nD τ).loc main_arg14)) := by
  exact (W4_of_ne m ρ c main_arg14 (by decide)).trans (w3_arg14 m ρ c)

theorem w4_v36 : W4 m ρ c (Proc.devRef .tc main_v36) = (H1 m c) := by
  refine (W4_arr m ρ c 5).trans ((Regions.region1 (V3 m ρ) c).trans ?_)
  show Cert.Sage.bnrelu (W3 m ρ c (Proc.devRef .tc main_v22)) (W3 m ρ c (Proc.devRef .tc main_v26)) (W3 m ρ c (Proc.devRef .tc main_v33)) (W3 m ρ c (Proc.devRef .tc main_v34)) (W3 m ρ c (Proc.devRef .tc main_v35)) = _
  rw [w3_v22 m ρ c, w3_v26 m ρ c, w3_v33 m ρ c, w3_v34 m ρ c, w3_v35 m ρ c]
  rfl

/-! ## Host stretch 2: level 4 to level 5 -/

theorem w5_v46 : W5 m ρ c (Proc.devRef .tc main_v46) = (Net.agg (Net.src (m ((c : Thread nD τ).loc main_arg1))) (Net.dst (m ((c : Thread nD τ).loc main_arg1))) (H1 m c)) := by
  refine (host2_v46 (W4 m ρ c)).trans ?_
  rw [w4_v1 m ρ c, w4_v3 m ρ c, w4_v36 m ρ c]

theorem w5_v47 : W5 m ρ c (Proc.devRef .tc main_v47) = (transpose S64x64 [1, 0] (m ((c : Thread nD τ).loc main_arg7)) transposes_S64x64_S64x64_1_0) := by
  refine (host2_v47 (W4 m ρ c)).trans ?_
  rw [w4_arg7 m ρ c]

theorem w5_v48 : W5 m ρ c (Proc.devRef .tc main_v48) = (transpose S64x64 [1, 0] (m ((c : Thread nD τ).loc main_arg8)) transposes_S64x64_S64x64_1_0) := by
  refine (host2_v48 (W4 m ρ c)).trans ?_
  rw [w4_arg8 m ρ c]

theorem w5_v49 : W5 m ρ c (Proc.devRef .tc main_v49) = (Net.rowOf (m ((c : Thread nD τ).loc main_arg9))) := by
  refine (host2_v49 (W4 m ρ c)).trans ?_
  rw [w4_arg9 m ρ c]

theorem w5_v36 : W5 m ρ c (Proc.devRef .tc main_v36) = (H1 m c) := by
  exact (keep2_v36 (W4 m ρ c)).trans (w4_v36 m ρ c)

theorem w5_v8 : W5 m ρ c (Proc.devRef .tc main_v8) = (Net.cntCol (Net.dst (m ((c : Thread nD τ).loc main_arg1)))) := by
  exact (keep2_v8 (W4 m ρ c)).trans (w4_v8 m ρ c)

theorem w5_v1 : W5 m ρ c (Proc.devRef .tc main_v1) = (Net.src (m ((c : Thread nD τ).loc main_arg1))) := by
  exact (keep2_v1 (W4 m ρ c)).trans (w4_v1 m ρ c)

theorem w5_v3 : W5 m ρ c (Proc.devRef .tc main_v3) = (Net.dst (m ((c : Thread nD τ).loc main_arg1))) := by
  exact (keep2_v3 (W4 m ρ c)).trans (w4_v3 m ρ c)

theorem w5_arg10 : W5 m ρ c (Proc.devRef .tc main_arg10) = (m ((c : Thread nD τ).loc main_arg10)) := by
  exact (keep2_arg10 (W4 m ρ c)).trans (w4_arg10 m ρ c)

theorem w5_arg11 : W5 m ρ c (Proc.devRef .tc main_arg11) = (m ((c : Thread nD τ).loc main_arg11)) := by
  exact (keep2_arg11 (W4 m ρ c)).trans (w4_arg11 m ρ c)

theorem w5_arg12 : W5 m ρ c (Proc.devRef .tc main_arg12) = (m ((c : Thread nD τ).loc main_arg12)) := by
  exact (keep2_arg12 (W4 m ρ c)).trans (w4_arg12 m ρ c)

theorem w5_arg13 : W5 m ρ c (Proc.devRef .tc main_arg13) = (m ((c : Thread nD τ).loc main_arg13)) := by
  exact (keep2_arg13 (W4 m ρ c)).trans (w4_arg13 m ρ c)

theorem w5_arg14 : W5 m ρ c (Proc.devRef .tc main_arg14) = (m ((c : Thread nD τ).loc main_arg14)) := by
  exact (keep2_arg14 (W4 m ρ c)).trans (w4_arg14 m ρ c)

/-! ## Region 2: level 5 to level 6 -/

theorem w6_v1 : W6 m ρ c (Proc.devRef .tc main_v1) = (Net.src (m ((c : Thread nD τ).loc main_arg1))) := by
  exact (W6_of_ne m ρ c main_v1 (by decide)).trans (w5_v1 m ρ c)

theorem w6_v3 : W6 m ρ c (Proc.devRef .tc main_v3) = (Net.dst (m ((c : Thread nD τ).loc main_arg1))) := by
  exact (W6_of_ne m ρ c main_v3 (by decide)).trans (w5_v3 m ρ c)

theorem w6_v8 : W6 m ρ c (Proc.devRef .tc main_v8) = (Net.cntCol (Net.dst (m ((c : Thread nD τ).loc main_arg1)))) := by
  exact ((W6_arr m ρ c 1).trans (((dat2 (V5 m ρ) c).arrAt_in 1 rfl _).trans (A_eq2 (V5 m ρ) c 1))).trans (w5_v8 m ρ c)

theorem w6_arg10 : W6 m ρ c (Proc.devRef .tc main_arg10) = (m ((c : Thread nD τ).loc main_arg10)) := by
  exact (W6_of_ne m ρ c main_arg10 (by decide)).trans (w5_arg10 m ρ c)

theorem w6_arg11 : W6 m ρ c (Proc.devRef .tc main_arg11) = (m ((c : Thread nD τ).loc main_arg11)) := by
  exact (W6_of_ne m ρ c main_arg11 (by decide)).trans (w5_arg11 m ρ c)

theorem w6_arg12 : W6 m ρ c (Proc.devRef .tc main_arg12) = (m ((c : Thread nD τ).loc main_arg12)) := by
  exact (W6_of_ne m ρ c main_arg12 (by decide)).trans (w5_arg12 m ρ c)

theorem w6_arg13 : W6 m ρ c (Proc.devRef .tc main_arg13) = (m ((c : Thread nD τ).loc main_arg13)) := by
  exact (W6_of_ne m ρ c main_arg13 (by decide)).trans (w5_arg13 m ρ c)

theorem w6_arg14 : W6 m ρ c (Proc.devRef .tc main_arg14) = (m ((c : Thread nD τ).loc main_arg14)) := by
  exact (W6_of_ne m ρ c main_arg14 (by decide)).trans (w5_arg14 m ρ c)

theorem w6_v50 : W6 m ρ c (Proc.devRef .tc main_v50) = (C2 m c) := by
  refine (W6_arr m ρ c 6).trans ((Regions.region2 (V5 m ρ) c).trans ?_)
  show Cert.Sage.convN (W5 m ρ c (Proc.devRef .tc main_v46)) (W5 m ρ c (Proc.devRef .tc main_v8)) (W5 m ρ c (Proc.devRef .tc main_v36)) (W5 m ρ c (Proc.devRef .tc main_v47)) (W5 m ρ c (Proc.devRef .tc main_v48)) (W5 m ρ c (Proc.devRef .tc main_v49)) = _
  rw [w5_v46 m ρ c, w5_v8 m ρ c, w5_v36 m ρ c, w5_v47 m ρ c, w5_v48 m ρ c, w5_v49 m ρ c]
  rfl

/-! ## Host stretch 3: level 6 to level 7 -/

theorem w7_v54 : W7 m ρ c (Proc.devRef .tc main_v54) = (Net.colMean (C2 m c)) := by
  refine (host3_v54 (W6 m ρ c)).trans ?_
  rw [w6_v50 m ρ c]

theorem w7_v61 : W7 m ρ c (Proc.devRef .tc main_v61) = (Net.colVar (C2 m c) (Net.colMean (C2 m c))) := by
  refine (host3_v61 (W6 m ρ c)).trans ?_
  rw [w6_v50 m ρ c]

theorem w7_v62 : W7 m ρ c (Proc.devRef .tc main_v62) = (Net.rowOf (m ((c : Thread nD τ).loc main_arg10))) := by
  refine (host3_v62 (W6 m ρ c)).trans ?_
  rw [w6_arg10 m ρ c]

theorem w7_v63 : W7 m ρ c (Proc.devRef .tc main_v63) = (Net.rowOf (m ((c : Thread nD τ).loc main_arg11))) := by
  refine (host3_v63 (W6 m ρ c)).trans ?_
  rw [w6_arg11 m ρ c]

theorem w7_v50 : W7 m ρ c (Proc.devRef .tc main_v50) = (C2 m c) := by
  exact (keep3_v50 (W6 m ρ c)).trans (w6_v50 m ρ c)

theorem w7_v1 : W7 m ρ c (Proc.devRef .tc main_v1) = (Net.src (m ((c : Thread nD τ).loc main_arg1))) := by
  exact (keep3_v1 (W6 m ρ c)).trans (w6_v1 m ρ c)

theorem w7_v3 : W7 m ρ c (Proc.devRef .tc main_v3) = (Net.dst (m ((c : Thread nD τ).loc main_arg1))) := by
  exact (keep3_v3 (W6 m ρ c)).trans (w6_v3 m ρ c)

theorem w7_v8 : W7 m ρ c (Proc.devRef .tc main_v8) = (Net.cntCol (Net.dst (m ((c : Thread nD τ).loc main_arg1)))) := by
  exact (keep3_v8 (W6 m ρ c)).trans (w6_v8 m ρ c)

theorem w7_arg12 : W7 m ρ c (Proc.devRef .tc main_arg12) = (m ((c : Thread nD τ).loc main_arg12)) := by
  exact (keep3_arg12 (W6 m ρ c)).trans (w6_arg12 m ρ c)

theorem w7_arg13 : W7 m ρ c (Proc.devRef .tc main_arg13) = (m ((c : Thread nD τ).loc main_arg13)) := by
  exact (keep3_arg13 (W6 m ρ c)).trans (w6_arg13 m ρ c)

theorem w7_arg14 : W7 m ρ c (Proc.devRef .tc main_arg14) = (m ((c : Thread nD τ).loc main_arg14)) := by
  exact (keep3_arg14 (W6 m ρ c)).trans (w6_arg14 m ρ c)

/-! ## Region 3: level 7 to level 8 -/

theorem w8_v1 : W8 m ρ c (Proc.devRef .tc main_v1) = (Net.src (m ((c : Thread nD τ).loc main_arg1))) := by
  exact (W8_of_ne m ρ c main_v1 (by decide)).trans (w7_v1 m ρ c)

theorem w8_v3 : W8 m ρ c (Proc.devRef .tc main_v3) = (Net.dst (m ((c : Thread nD τ).loc main_arg1))) := by
  exact (W8_of_ne m ρ c main_v3 (by decide)).trans (w7_v3 m ρ c)

theorem w8_v8 : W8 m ρ c (Proc.devRef .tc main_v8) = (Net.cntCol (Net.dst (m ((c : Thread nD τ).loc main_arg1)))) := by
  exact (W8_of_ne m ρ c main_v8 (by decide)).trans (w7_v8 m ρ c)

theorem w8_arg12 : W8 m ρ c (Proc.devRef .tc main_arg12) = (m ((c : Thread nD τ).loc main_arg12)) := by
  exact (W8_of_ne m ρ c main_arg12 (by decide)).trans (w7_arg12 m ρ c)

theorem w8_arg13 : W8 m ρ c (Proc.devRef .tc main_arg13) = (m ((c : Thread nD τ).loc main_arg13)) := by
  exact (W8_of_ne m ρ c main_arg13 (by decide)).trans (w7_arg13 m ρ c)

theorem w8_arg14 : W8 m ρ c (Proc.devRef .tc main_arg14) = (m ((c : Thread nD τ).loc main_arg14)) := by
  exact (W8_of_ne m ρ c main_arg14 (by decide)).trans (w7_arg14 m ρ c)

theorem w8_v64 : W8 m ρ c (Proc.devRef .tc main_v64) = (H2 m c) := by
  refine (W8_arr m ρ c 5).trans ((Regions.region3 (V7 m ρ) c).trans ?_)
  show Cert.Sage.bnrelu (W7 m ρ c (Proc.devRef .tc main_v50)) (W7 m ρ c (Proc.devRef .tc main_v54)) (W7 m ρ c (Proc.devRef .tc main_v61)) (W7 m ρ c (Proc.devRef .tc main_v62)) (W7 m ρ c (Proc.devRef .tc main_v63)) = _
  rw [w7_v50 m ρ c, w7_v54 m ρ c, w7_v61 m ρ c, w7_v62 m ρ c, w7_v63 m ρ c]
  rfl

/-! ## Host stretch 4: level 8 to level 9 -/

theorem w9_v74 : W9 m ρ c (Proc.devRef .tc main_v74) = (Net.agg (Net.src (m ((c : Thread nD τ).loc main_arg1))) (Net.dst (m ((c : Thread nD τ).loc main_arg1))) (H2 m c)) := by
  refine (host4_v74 (W8 m ρ c)).trans ?_
  rw [w8_v1 m ρ c, w8_v3 m ρ c, w8_v64 m ρ c]

theorem w9_v75 : W9 m ρ c (Proc.devRef .tc main_v75) = (transpose S64x10 [1, 0] (m ((c : Thread nD τ).loc main_arg12)) transposes_S10x64_S64x10_1_0) := by
  refine (host4_v75 (W8 m ρ c)).trans ?_
  rw [w8_arg12 m ρ c]

theorem w9_v76 : W9 m ρ c (Proc.devRef .tc main_v76) = (transpose S64x10 [1, 0] (m ((c : Thread nD τ).loc main_arg13)) transposes_S10x64_S64x10_1_0) := by
  refine (host4_v76 (W8 m ρ c)).trans ?_
  rw [w8_arg13 m ρ c]

theorem w9_v77 : W9 m ρ c (Proc.devRef .tc main_v77) = (Net.rowOf10 (m ((c : Thread nD τ).loc main_arg14))) := by
  refine (host4_v77 (W8 m ρ c)).trans ?_
  rw [w8_arg14 m ρ c]

theorem w9_v64 : W9 m ρ c (Proc.devRef .tc main_v64) = (H2 m c) := by
  exact (keep4_v64 (W8 m ρ c)).trans (w8_v64 m ρ c)

theorem w9_v8 : W9 m ρ c (Proc.devRef .tc main_v8) = (Net.cntCol (Net.dst (m ((c : Thread nD τ).loc main_arg1)))) := by
  exact (keep4_v8 (W8 m ρ c)).trans (w8_v8 m ρ c)

/-! ## Region 4: level 9 to level 10 -/

theorem w10_v78 : W10 m ρ c (Proc.devRef .tc main_v78) = Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 6).trans ((Regions.region4 (V9 m ρ) c).trans ?_)
  show Cert.Sage.conv (W9 m ρ c (Proc.devRef .tc main_v74)) (W9 m ρ c (Proc.devRef .tc main_v8)) (W9 m ρ c (Proc.devRef .tc main_v64)) (W9 m ρ c (Proc.devRef .tc main_v75)) (W9 m ρ c (Proc.devRef .tc main_v76)) (W9 m ρ c (Proc.devRef .tc main_v77)) = _
  rw [w9_v74 m ρ c, w9_v8 m ρ c, w9_v64 m ρ c, w9_v75 m ρ c, w9_v76 m ρ c, w9_v77 m ρ c]
  rfl

end Cert.KernelIdeal.Chain

end
-- ==== Proof.RefFold.lean ====
/- The reference's fold, read a layer at a time.

   The reference program is a straight line of 192 whole-array operations; its result is the fold of their
   results over the launch contents. Each layer's output array is read several times by the next layer
   (by the gather, by the second matrix product, and through the normalisation and the batch statistics),
   so the term obtained by substituting every operation's operands is exponential in the number of
   layers, while inside one layer it is small. The line is therefore cut at the two layer boundaries,
   `ops = P1 ++ (P2 ++ P3)` (P1 ends with the operation writing the first layer's output %63, P2 with
   the one writing the second layer's output %123), the fold over an append is the fold of the second
   part over the fold of the first, and each part is read from an ARBITRARY valuation `W` of which only
   the arrays the part reads are known: its own arguments, the two edge-index vectors %1 and %3 (written
   once, by the first part, and read by all three), and the previous layer's output, each named by the
   cumulative stage function of the arguments. A part's output is then the next stage function by
   substitution inside that one layer. What a later part reads of an earlier one it finds unchanged
   because no operation in between writes it. -/
import proofs.«167795_j71949292143006_1_alg».proof.Proof.RefRunP
import proofs.«167795_j71949292143006_1_alg».proof.Proof.RefReadP

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other: the second line's fold over the first's. -/
theorem after_append {Val : EltTy → Type} (A B : List (HloOp τ sig Val)) (V : Valuation τ sig Val) :
    after (A ++ B) V = after B (after A V) := by
  induction A generalizing V with
  | nil => rfl
  | cons op A ih => exact ih (op.result V)

/-! ## The three parts of the line -/

/-- The first layer: the edge-index vectors %1 and %3, the mean aggregation, the two matrix products, the bias,
    the row normalisation, the batch norm and the relu; ends with the operation writing %63. -/
abbrev P1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v17) (TRef.of (T := ⟨S100000, .f32⟩) main_v18) maximumf,
    unary main_v18 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v13 main_v20 main_v21 (Host.divf : (⟨S100000x64, .f32⟩ : BufTy).Contents (Elt F) → (⟨S100000x64, .f32⟩ : BufTy).Contents (Elt F) → (⟨S100000x64, .f32⟩ : BufTy).Contents (Elt F)),
    unary main_arg2 main_v22 ((transpose S64x64 [1, 0] · transposes_S64x64_S64x64_1_0) : (⟨S64x64, .f32⟩ : BufTy).Contents (Elt F) → (⟨S64x64, .f32⟩ : BufTy).Contents (Elt F)),
    binary main_v21 main_v22 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v24 ((transpose S64x64 [1, 0] · transposes_S64x64_S64x64_1_0) : (⟨S64x64, .f32⟩ : BufTy).Contents (Elt F) → (⟨S64x64, .f32⟩ : BufTy).Contents (Elt F)),
    binary main_arg0 main_v24 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    unary main_arg4 main_v27 (broadcastInDim S1x64 ![1] bcast_S64_S1x64_1 : (⟨S64, .f32⟩ : BufTy).Contents (Elt F) → (⟨S1x64, .f32⟩ : BufTy).Contents (Elt F)),
    unary main_v27 main_v28 (broadcastInDim S100000x64 ![0, 1] bcast_S1x64_S100000x64_0_1 : (⟨S1x64, .f32⟩ : BufTy).Contents (Elt F) → (⟨S100000x64, .f32⟩ : BufTy).Contents (Elt F)),
    binary main_v26 main_v28 main_v29 (addf : (⟨S100000x64, .f32⟩ : BufTy).Contents (Elt F) → (⟨S100000x64, .f32⟩ : BufTy).Contents (Elt F) → (⟨S100000x64, .f32⟩ : BufTy).Contents (Elt F)),
    binary main_v29 main_v29 main_v30 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v30 main_cst_4 main_v31 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v31 main_v32 (broadcastInDim S100000x1 ![0] bcast_S100000_S100000x1_0 : (⟨S100000, .f32⟩ : BufTy).Contents (Elt F) → (⟨S100000x1, .f32⟩ : BufTy).Contents (Elt F)),
    unary main_v32 main_v33 (Host.sqrt : (⟨S100000x1, .f32⟩ : BufTy).Contents (Elt F) → (⟨S100000x1, .f32⟩ : BufTy).Contents (Elt F)),
    nullary main_cst_5 (constant S_ .f32 0x2B8CBCCC#32),
    unary main_cst_5 main_v34 (broadcastInDim S100000x1 ![] bcast_S_S100000x1 : (⟨S_, .f32⟩ : BufTy).Contents (Elt F) → (⟨S100000x1, .f32⟩ : BufTy).Contents (Elt F)),
    binary main_v33 main_v34 main_v35 (maximumf : (⟨S100000x1, .f32⟩ : BufTy).Contents (Elt F) → (⟨S100000x1, .f32⟩ : BufTy).Contents (Elt F) → (⟨S100000x1, .f32⟩ : BufTy).Contents (Elt F)),
    unary main_v35 main_v36 (broadcastInDim S100000x64 ![0, 1] bcast_S100000x1_S100000x64_0_1 : (⟨S100000x1, .f32⟩ : BufTy).Contents (Elt F) → (⟨S100000x64, .f32⟩ : BufTy).Contents (Elt F)),
    binary main_v29 main_v36 main_v37 (Host.divf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x00000000#32),
    binary main_v37 main_cst_6 main_v38 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v39 (broadcastInDim S64 ![] bcast_S_S64 : (⟨S_, .f32⟩ : BufTy).Contents (Elt F) → (⟨S64, .f32⟩ : BufTy).Contents (Elt F)),
    binary main_v38 main_v39 main_v40 (Host.divf : (⟨S64, .f32⟩ : BufTy).Contents (Elt F) → (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (subf : (⟨S100000x64, .f32⟩ : BufTy).Contents (Elt F) → (⟨S100000x64, .f32⟩ : BufTy).Contents (Elt F) → (⟨S100000x64, .f32⟩ : BufTy).Contents (Elt F)),
    binary main_v43 main_v43 main_v44 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v44 main_cst_8 main_v45 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v46 (broadcastInDim S64 ![] bcast_S_S64 : (⟨S_, .f32⟩ : BufTy).Contents (Elt F) → (⟨S64, .f32⟩ : BufTy).Contents (Elt F)),
    binary main_v45 main_v46 main_v47 (Host.divf : (⟨S64, .f32⟩ : BufTy).Contents (Elt F) → (⟨S64, .f32⟩ : BufTy).Contents (Elt F) → (⟨S64, .f32⟩ : BufTy).Contents (Elt F)),
    unary main_v40 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v37 main_v49 main_v50 (subf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3727C5AC#32),
    unary main_cst_10 main_v51 (broadcastInDim S64 ![] bcast_S_S64 : (⟨S_, .f32⟩ : BufTy).Contents (Elt F) → (⟨S64, .f32⟩ : BufTy).Contents (Elt F)),
    binary main_v47 main_v51 main_v52 (addf : (⟨S64, .f32⟩ : BufTy).Contents (Elt F) → (⟨S64, .f32⟩ : BufTy).Contents (Elt F) → (⟨S64, .f32⟩ : BufTy).Contents (Elt F)),
    unary main_v52 main_v53 (Host.rsqrt : (⟨S64, .f32⟩ : BufTy).Contents (Elt F) → (⟨S64, .f32⟩ : BufTy).Contents (Elt F)),
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v50 main_v55 main_v56 (mulf : (⟨S100000x64, .f32⟩ : BufTy).Contents (Elt F) → (⟨S100000x64, .f32⟩ : BufTy).Contents (Elt F) → (⟨S100000x64, .f32⟩ : BufTy).Contents (Elt F)),
    unary main_arg5 main_v57 (broadcastInDim S1x64 ![1] bcast_S64_S1x64_1 : (⟨S64, .f32⟩ : BufTy).Contents (Elt F) → (⟨S1x64, .f32⟩ : BufTy).Contents (Elt F)),
    unary main_v57 main_v58 (broadcastInDim S100000x64 ![0, 1] bcast_S1x64_S100000x64_0_1 : (⟨S1x64, .f32⟩ : BufTy).Contents (Elt F) → (⟨S100000x64, .f32⟩ : BufTy).Contents (Elt F)),
    binary main_v56 main_v58 main_v59 (mulf : (⟨S100000x64, .f32⟩ : BufTy).Contents (Elt F) → (⟨S100000x64, .f32⟩ : BufTy).Contents (Elt F) → (⟨S100000x64, .f32⟩ : BufTy).Contents (Elt F)),
    unary main_arg6 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v62) (TRef.of (T := ⟨S100000x64, .f32⟩) main_call1_v0) (TRef.of (T := ⟨S100000x64, .f32⟩) main_v63) maximumf ]

/-- The second layer, the same operations on %63; ends with the operation writing %123. -/
abbrev P2 : List (HloOp τ sig (Elt F)) :=
  [ nullary main_c_11 (constantI S_ 32 0#32),
    unary main_c_11 main_v64 (broadcastInDim S1600000 ![] bcast_S_S1600000 : (⟨S_, .i32⟩ : BufTy).Contents (Elt F) → (⟨S1600000, .i32⟩ : BufTy).Contents (Elt F)),
    binary main_v1 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v66 (broadcastInDim S1600000 ![] bcast_S_S1600000 : (⟨S_, .i32⟩ : BufTy).Contents (Elt F) → (⟨S1600000, .i32⟩ : BufTy).Contents (Elt F)),
    binary main_v1 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v63 main_v69 main_v70 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_13 (constant S_ .f32 0x00000000#32),
    unary main_cst_13 main_v71 (broadcastInDim S100000x64 ![] bcast_S_S100000x64 : (⟨S_, .f32⟩ : BufTy).Contents (Elt F) → (⟨S100000x64, .f32⟩ : BufTy).Contents (Elt F)),
    unary main_v3 main_v72 (broadcastInDim S1600000x1 ![0] bcast_S1600000_S1600000x1_0 : (⟨S1600000, .i32⟩ : BufTy).Contents (Elt F) → (⟨S1600000x1, .i32⟩ : BufTy).Contents (Elt F)),
    ternary main_v71 main_v72 main_v70 main_v73 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_14 (constant S_ .f32 0x3F800000#32),
    unary main_cst_14 main_v74 (broadcastInDim S1600000 ![] bcast_S_S1600000 : (⟨S_, .f32⟩ : BufTy).Contents (Elt F) → (⟨S1600000, .f32⟩ : BufTy).Contents (Elt F)),
    nullary main_cst_15 (constant S_ .f32 0x00000000#32),
    unary main_cst_15 main_v75 (broadcastInDim S100000 ![] bcast_S_S100000 : (⟨S_, .f32⟩ : BufTy).Contents (Elt F) → (⟨S100000, .f32⟩ : BufTy).Contents (Elt F)),
    unary main_v3 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_16 (constant S_ .f32 0x3F800000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_v77) (TRef.of (T := ⟨S100000, .f32⟩) main_v78) maximumf,
    unary main_v78 main_v79 (broadcastInDim S100000x1 ![0] bcast_S100000_S100000x1_0 : (⟨S100000, .f32⟩ : BufTy).Contents (Elt F) → (⟨S100000x1, .f32⟩ : BufTy).Contents (Elt F)),
    unary main_v79 main_v80 (broadcastInDim S100000x64 ![0, 1] bcast_S100000x1_S100000x64_0_1 : (⟨S100000x1, .f32⟩ : BufTy).Contents (Elt F) → (⟨S100000x64, .f32⟩ : BufTy).Contents (Elt F)),
    binary main_v73 main_v80 main_v81 (Host.divf : (⟨S100000x64, .f32⟩ : BufTy).Contents (Elt F) → (⟨S100000x64, .f32⟩ : BufTy).Contents (Elt F) → (⟨S100000x64, .f32⟩ : BufTy).Contents (Elt F)),
    unary main_arg7 main_v82 ((transpose S64x64 [1, 0] · transposes_S64x64_S64x64_1_0) : (⟨S64x64, .f32⟩ : BufTy).Contents (Elt F) → (⟨S64x64, .f32⟩ : BufTy).Contents (Elt F)),
    binary main_v81 main_v82 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v84 ((transpose S64x64 [1, 0] · transposes_S64x64_S64x64_1_0) : (⟨S64x64, .f32⟩ : BufTy).Contents (Elt F) → (⟨S64x64, .f32⟩ : BufTy).Contents (Elt F)),
    binary main_v63 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v83 main_v85 main_v86 (addf : (⟨S100000x64, .f32⟩ : BufTy).Contents (Elt F) → (⟨S100000x64, .f32⟩ : BufTy).Contents (Elt F) → (⟨S100000x64, .f32⟩ : BufTy).Contents (Elt F)),
    unary main_arg9 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v86 main_v88 main_v89 (addf : (⟨S100000x64, .f32⟩ : BufTy).Contents (Elt F) → (⟨S100000x64, .f32⟩ : BufTy).Contents (Elt F) → (⟨S100000x64, .f32⟩ : BufTy).Contents (Elt F)),
    binary main_v89 main_v89 main_v90 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v90 main_cst_17 main_v91 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v91 main_v92 (broadcastInDim S100000x1 ![0] bcast_S100000_S100000x1_0 : (⟨S100000, .f32⟩ : BufTy).Contents (Elt F) → (⟨S100000x1, .f32⟩ : BufTy).Contents (Elt F)),
    unary main_v92 main_v93 (Host.sqrt : (⟨S100000x1, .f32⟩ : BufTy).Contents (Elt F) → (⟨S100000x1, .f32⟩ : BufTy).Contents (Elt F)),
    nullary main_cst_18 (constant S_ .f32 0x2B8CBCCC#32),
    unary main_cst_18 main_v94 (broadcastInDim S100000x1 ![] bcast_S_S100000x1 : (⟨S_, .f32⟩ : BufTy).Contents (Elt F) → (⟨S100000x1, .f32⟩ : BufTy).Contents (Elt F)),
    binary main_v93 main_v94 main_v95 (maximumf : (⟨S100000x1, .f32⟩ : BufTy).Contents (Elt F) → (⟨S100000x1, .f32⟩ : BufTy).Contents (Elt F) → (⟨S100000x1, .f32⟩ : BufTy).Contents (Elt F)),
    unary main_v95 main_v96 (broadcastInDim S100000x64 ![0, 1] bcast_S100000x1_S100000x64_0_1 : (⟨S100000x1, .f32⟩ : BufTy).Contents (Elt F) → (⟨S100000x64, .f32⟩ : BufTy).Contents (Elt F)),
    binary main_v89 main_v96 main_v97 (Host.divf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v97 main_cst_19 main_v98 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v99 (broadcastInDim S64 ![] bcast_S_S64 : (⟨S_, .f32⟩ : BufTy).Contents (Elt F) → (⟨S64, .f32⟩ : BufTy).Contents (Elt F)),
    binary main_v98 main_v99 main_v100 (Host.divf : (⟨S64, .f32⟩ : BufTy).Contents (Elt F) → (⟨S64, .f32⟩ : BufTy).Contents (Elt F) → (⟨S64, .f32⟩ : BufTy).Contents (Elt F)),
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S100000x64 ![0, 1] bcast_S1x64_S100000x64_0_1 : (⟨S1x64, .f32⟩ : BufTy).Contents (Elt F) → (⟨S100000x64, .f32⟩ : BufTy).Contents (Elt F)),
    binary main_v97 main_v102 main_v103 (subf : (⟨S100000x64, .f32⟩ : BufTy).Contents (Elt F) → (⟨S100000x64, .f32⟩ : BufTy).Contents (Elt F) → (⟨S100000x64, .f32⟩ : BufTy).Contents (Elt F)),
    binary main_v103 main_v103 main_v104 (mulf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x00000000#32),
    binary main_v104 main_cst_21 main_v105 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_22 (constant S_ .f32 0x47C35000#32),
    unary main_cst_22 main_v106 (broadcastInDim S64 ![] bcast_S_S64 : (⟨S_, .f32⟩ : BufTy).Contents (Elt F) → (⟨S64, .f32⟩ : BufTy).Contents (Elt F)),
    binary main_v105 main_v106 main_v107 (Host.divf : (⟨S64, .f32⟩ : BufTy).Contents (Elt F) → (⟨S64, .f32⟩ : BufTy).Contents (Elt F) → (⟨S64, .f32⟩ : BufTy).Contents (Elt F)),
    unary main_v100 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v97 main_v109 main_v110 (subf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x3727C5AC#32),
    unary main_cst_23 main_v111 (broadcastInDim S64 ![] bcast_S_S64 : (⟨S_, .f32⟩ : BufTy).Contents (Elt F) → (⟨S64, .f32⟩ : BufTy).Contents (Elt F)),
    binary main_v107 main_v111 main_v112 (addf : (⟨S64, .f32⟩ : BufTy).Contents (Elt F) → (⟨S64, .f32⟩ : BufTy).Contents (Elt F) → (⟨S64, .f32⟩ : BufTy).Contents (Elt F)),
    unary main_v112 main_v113 (Host.rsqrt : (⟨S64, .f32⟩ : BufTy).Contents (Elt F) → (⟨S64, .f32⟩ : BufTy).Contents (Elt F)),
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S100000x64 ![0, 1] bcast_S1x64_S100000x64_0_1 : (⟨S1x64, .f32⟩ : BufTy).Contents (Elt F) → (⟨S100000x64, .f32⟩ : BufTy).Contents (Elt F)),
    binary main_v110 main_v115 main_v116 (mulf : (⟨S100000x64, .f32⟩ : BufTy).Contents (Elt F) → (⟨S100000x64, .f32⟩ : BufTy).Contents (Elt F) → (⟨S100000x64, .f32⟩ : BufTy).Contents (Elt F)),
    unary main_arg10 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (mulf : (⟨S100000x64, .f32⟩ : BufTy).Contents (Elt F) → (⟨S100000x64, .f32⟩ : BufTy).Contents (Elt F) → (⟨S100000x64, .f32⟩ : BufTy).Contents (Elt F)),
    unary main_arg11 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v119 main_v121 main_v122 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v122) (TRef.of (T := ⟨S100000x64, .f32⟩) main_call3_v0) (TRef.of (T := ⟨S100000x64, .f32⟩) main_v123) maximumf ]

/-- The third layer on %123: aggregation, the two matrix products and the bias; ends with the result %149. -/
abbrev P3 : List (HloOp τ sig (Elt F)) :=
  [ nullary main_c_24 (constantI S_ 32 0#32),
    unary main_c_24 main_v124 (broadcastInDim S1600000 ![] bcast_S_S1600000 : (⟨S_, .i32⟩ : BufTy).Contents (Elt F) → (⟨S1600000, .i32⟩ : BufTy).Contents (Elt F)),
    binary main_v1 main_v124 main_v125 (cmpi .slt : (⟨S1600000, .i32⟩ : BufTy).Contents (Elt F) → (⟨S1600000, .i32⟩ : BufTy).Contents (Elt F) → (⟨S1600000, .i1⟩ : BufTy).Contents (Elt F)),
    nullary main_c_25 (constantI S_ 32 100000#32),
    unary main_c_25 main_v126 (broadcastInDim S1600000 ![] bcast_S_S1600000 : (⟨S_, .i32⟩ : BufTy).Contents (Elt F) → (⟨S1600000, .i32⟩ : BufTy).Contents (Elt F)),
    binary main_v1 main_v126 main_v127 (addi : (⟨S1600000, .i32⟩ : BufTy).Contents (Elt F) → (⟨S1600000, .i32⟩ : BufTy).Contents (Elt F) → (⟨S1600000, .i32⟩ : BufTy).Contents (Elt F)),
    ternary main_v125 main_v127 main_v1 main_v128 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v128 main_v129 (broadcastInDim S1600000x1 ![0] bcast_S1600000_S1600000x1_0 : (⟨S1600000, .i32⟩ : BufTy).Contents (Elt F) → (⟨S1600000x1, .i32⟩ : BufTy).Contents (Elt F)),
    binary main_v123 main_v129 main_v130 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_26 (constant S_ .f32 0x00000000#32),
    unary main_cst_26 main_v131 (broadcastInDim S100000x64 ![] bcast_S_S100000x64 : (⟨S_, .f32⟩ : BufTy).Contents (Elt F) → (⟨S100000x64, .f32⟩ : BufTy).Contents (Elt F)),
    unary main_v3 main_v132 (broadcastInDim S1600000x1 ![0] bcast_S1600000_S1600000x1_0 : (⟨S1600000, .i32⟩ : BufTy).Contents (Elt F) → (⟨S1600000x1, .i32⟩ : BufTy).Contents (Elt F)),
    ternary main_v131 main_v132 main_v130 main_v133 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_27 (constant S_ .f32 0x3F800000#32),
    unary main_cst_27 main_v134 (broadcastInDim S1600000 ![] bcast_S_S1600000 : (⟨S_, .f32⟩ : BufTy).Contents (Elt F) → (⟨S1600000, .f32⟩ : BufTy).Contents (Elt F)),
    nullary main_cst_28 (constant S_ .f32 0x00000000#32),
    unary main_cst_28 main_v135 (broadcastInDim S100000 ![] bcast_S_S100000 : (⟨S_, .f32⟩ : BufTy).Contents (Elt F) → (⟨S100000, .f32⟩ : BufTy).Contents (Elt F)),
    unary main_v3 main_v136 (broadcastInDim S1600000x1 ![0] bcast_S1600000_S1600000x1_0 : (⟨S1600000, .i32⟩ : BufTy).Contents (Elt F) → (⟨S1600000x1, .i32⟩ : BufTy).Contents (Elt F)),
    ternary main_v135 main_v136 main_v134 main_v137 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_29 (constant S_ .f32 0x3F800000#32),
    TRef.unary (TRef.of (T := ⟨S_, .f32⟩) main_cst_29) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_v137) (TRef.of (T := ⟨S100000, .f32⟩) main_v138) maximumf,
    unary main_v138 main_v139 (broadcastInDim S100000x1 ![0] bcast_S100000_S100000x1_0 : (⟨S100000, .f32⟩ : BufTy).Contents (Elt F) → (⟨S100000x1, .f32⟩ : BufTy).Contents (Elt F)),
    unary main_v139 main_v140 (broadcastInDim S100000x64 ![0, 1] bcast_S100000x1_S100000x64_0_1 : (⟨S100000x1, .f32⟩ : BufTy).Contents (Elt F) → (⟨S100000x64, .f32⟩ : BufTy).Contents (Elt F)),
    binary main_v133 main_v140 main_v141 (Host.divf : (⟨S100000x64, .f32⟩ : BufTy).Contents (Elt F) → (⟨S100000x64, .f32⟩ : BufTy).Contents (Elt F) → (⟨S100000x64, .f32⟩ : BufTy).Contents (Elt F)),
    unary main_arg12 main_v142 ((transpose S64x10 [1, 0] · transposes_S10x64_S64x10_1_0) : (⟨S10x64, .f32⟩ : BufTy).Contents (Elt F) → (⟨S64x10, .f32⟩ : BufTy).Contents (Elt F)),
    binary main_v141 main_v142 main_v143 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    unary main_arg13 main_v144 ((transpose S64x10 [1, 0] · transposes_S10x64_S64x10_1_0) : (⟨S10x64, .f32⟩ : BufTy).Contents (Elt F) → (⟨S64x10, .f32⟩ : BufTy).Contents (Elt F)),
    binary main_v123 main_v144 main_v145 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    binary main_v143 main_v145 main_v146 (addf : (⟨S100000x10, .f32⟩ : BufTy).Contents (Elt F) → (⟨S100000x10, .f32⟩ : BufTy).Contents (Elt F) → (⟨S100000x10, .f32⟩ : BufTy).Contents (Elt F)),
    unary main_arg14 main_v147 (broadcastInDim S1x10 ![1] bcast_S10_S1x10_1 : (⟨S10, .f32⟩ : BufTy).Contents (Elt F) → (⟨S1x10, .f32⟩ : BufTy).Contents (Elt F)),
    unary main_v147 main_v148 (broadcastInDim S100000x10 ![0, 1] bcast_S1x10_S100000x10_0_1 : (⟨S1x10, .f32⟩ : BufTy).Contents (Elt F) → (⟨S100000x10, .f32⟩ : BufTy).Contents (Elt F)),
    binary main_v146 main_v148 main_v149 (addf : (⟨S100000x10, .f32⟩ : BufTy).Contents (Elt F) → (⟨S100000x10, .f32⟩ : BufTy).Contents (Elt F) → (⟨S100000x10, .f32⟩ : BufTy).Contents (Elt F)) ]

/-- The line is the three parts in order (the same operations, term by term). -/
theorem ops_split : (ValueP.ops (F := F)) = P1 ++ (P2 ++ P3) := rfl

/-! ## What a part leaves alone

A buffer that no operation of a part writes holds after the part what it held before: every operation writes
exactly its result buffer, and that is another reference. -/

local macro "not_written" : tactic =>
  `(tactic| (refine after_of_forall_not_mem _ _ (List.forall_iff_forall_mem.mp ?_)
             simp only [List.Forall, nullary_writes, unary_writes, binary_writes, ternary_writes, reshape_writes,
               Finset.mem_singleton]
             repeat' apply And.intro
             all_goals exact devRef_ne_of_ne (by decide)))

theorem keep1_arg7 (W : Valuation τ sig (Elt F)) :
    after (P1 (F := F)) W (Proc.devRef .tc main_arg7) = W (Proc.devRef .tc main_arg7) := by
  not_written
theorem keep1_arg8 (W : Valuation τ sig (Elt F)) :
    after (P1 (F := F)) W (Proc.devRef .tc main_arg8) = W (Proc.devRef .tc main_arg8) := by
  not_written
theorem keep1_arg9 (W : Valuation τ sig (Elt F)) :
    after (P1 (F := F)) W (Proc.devRef .tc main_arg9) = W (Proc.devRef .tc main_arg9) := by
  not_written
theorem keep1_arg10 (W : Valuation τ sig (Elt F)) :
    after (P1 (F := F)) W (Proc.devRef .tc main_arg10) = W (Proc.devRef .tc main_arg10) := by
  not_written
theorem keep1_arg11 (W : Valuation τ sig (Elt F)) :
    after (P1 (F := F)) W (Proc.devRef .tc main_arg11) = W (Proc.devRef .tc main_arg11) := by
  not_written
theorem keep1_arg12 (W : Valuation τ sig (Elt F)) :
    after (P1 (F := F)) W (Proc.devRef .tc main_arg12) = W (Proc.devRef .tc main_arg12) := by
  not_written
theorem keep1_arg13 (W : Valuation τ sig (Elt F)) :
    after (P1 (F := F)) W (Proc.devRef .tc main_arg13) = W (Proc.devRef .tc main_arg13) := by
  not_written
theorem keep1_arg14 (W : Valuation τ sig (Elt F)) :
    after (P1 (F := F)) W (Proc.devRef .tc main_arg14) = W (Proc.devRef .tc main_arg14) := by
  not_written

theorem keep2_v1 (W : Valuation τ sig (Elt F)) :
    after (P2 (F := F)) W (Proc.devRef .tc main_v1) = W (Proc.devRef .tc main_v1) := by
  not_written
theorem keep2_v3 (W : Valuation τ sig (Elt F)) :
    after (P2 (F := F)) W (Proc.devRef .tc main_v3) = W (Proc.devRef .tc main_v3) := by
  not_written
theorem keep2_arg12 (W : Valuation τ sig (Elt F)) :
    after (P2 (F := F)) W (Proc.devRef .tc main_arg12) = W (Proc.devRef .tc main_arg12) := by
  not_written
theorem keep2_arg13 (W : Valuation τ sig (Elt F)) :
    after (P2 (F := F)) W (Proc.devRef .tc main_arg13) = W (Proc.devRef .tc main_arg13) := by
  not_written
theorem keep2_arg14 (W : Valuation τ sig (Elt F)) :
    after (P2 (F := F)) W (Proc.devRef .tc main_arg14) = W (Proc.devRef .tc main_arg14) := by
  not_written

/-! ## Each part read from an arbitrary valuation -/

/-- The first part writes the source vector %1: row 0 of the edge index. -/
theorem part1_v1 (W : Valuation τ sig (Elt F)) (x1 : (⟨S2x1600000, .i32⟩ : BufTy).Contents (Elt F)) (h1 : W (Proc.devRef .tc main_arg1) = x1) :
    after (P1 (F := F)) W (Proc.devRef .tc main_v1) = ReadP.val_main_v1 (F := F) x1 := by
  after_results_simp
  simp only [h1]
  rfl

/-- The first part writes the destination vector %3: row 1 of the edge index. -/
theorem part1_v3 (W : Valuation τ sig (Elt F)) (x1 : (⟨S2x1600000, .i32⟩ : BufTy).Contents (Elt F)) (h1 : W (Proc.devRef .tc main_arg1) = x1) :
    after (P1 (F := F)) W (Proc.devRef .tc main_v3) = ReadP.val_main_v3 (F := F) x1 := by
  after_results_simp
  simp only [h1]
  rfl

/-- The first part writes the first layer's output %63, a function of the arguments 0 … 6. -/
theorem part1_v63 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) :
    after (P1 (F := F)) W (Proc.devRef .tc main_v63) = ReadP.val_main_v63 (F := F) x0 x1 x2 x3 x4 x5 x6 := by
  after_results_simp
  simp only [h0, h1, h2, h3, h4, h5, h6]
  rfl

/-- The second part, from any valuation holding the edge-index vectors, the first layer's output and the
    arguments 7 … 11, writes the second layer's output %123. -/
theorem part2_v123 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64x64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F))
    (hs : W (Proc.devRef .tc main_v1) = ReadP.val_main_v1 (F := F) x1)
    (hd : W (Proc.devRef .tc main_v3) = ReadP.val_main_v3 (F := F) x1)
    (hl : W (Proc.devRef .tc main_v63) = ReadP.val_main_v63 (F := F) x0 x1 x2 x3 x4 x5 x6)
    (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) :
    after (P2 (F := F)) W (Proc.devRef .tc main_v123) = ReadP.val_main_v123 (F := F) x0 x1 x2 x3 x4 x5 x6 x7 x8 x9 x10 x11 := by
  after_results_simp
  simp only [hs, hd, hl, h7, h8, h9, h10, h11]
  rfl

/-- The third part, from any valuation holding the edge-index vectors, the second layer's output and the
    arguments 12 … 14, writes the result %149. -/
theorem part3_v149 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64x64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S10x64, .f32⟩ : BufTy).Contents (Elt F)) (x13 : (⟨S10x64, .f32⟩ : BufTy).Contents (Elt F)) (x14 : (⟨S10, .f32⟩ : BufTy).Contents (Elt F))
    (hs : W (Proc.devRef .tc main_v1) = ReadP.val_main_v1 (F := F) x1)
    (hd : W (Proc.devRef .tc main_v3) = ReadP.val_main_v3 (F := F) x1)
    (hl : W (Proc.devRef .tc main_v123) = ReadP.val_main_v123 (F := F) x0 x1 x2 x3 x4 x5 x6 x7 x8 x9 x10 x11)
    (h12 : W (Proc.devRef .tc main_arg12) = x12) (h13 : W (Proc.devRef .tc main_arg13) = x13) (h14 : W (Proc.devRef .tc main_arg14) = x14) :
    after (P3 (F := F)) W (Proc.devRef .tc main_v149) = ReadP.val_main_v149 (F := F) x0 x1 x2 x3 x4 x5 x6 x7 x8 x9 x10 x11 x12 x13 x14 := by
  after_results_simp
  simp only [hs, hd, hl, h12, h13, h14]
  rfl

/-! ## The whole line -/

/-- From any valuation holding the fifteen arguments, the line's fold holds at %149 the last stage function of
    the arguments: the three parts chained, each reading what the earlier ones wrote or left alone. -/
theorem result_of (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64, .f32⟩ : BufTy).Contents (Elt F)) (x6 : (⟨S64, .f32⟩ : BufTy).Contents (Elt F)) (x7 : (⟨S64x64, .f32⟩ : BufTy).Contents (Elt F)) (x8 : (⟨S64x64, .f32⟩ : BufTy).Contents (Elt F)) (x9 : (⟨S64, .f32⟩ : BufTy).Contents (Elt F)) (x10 : (⟨S64, .f32⟩ : BufTy).Contents (Elt F)) (x11 : (⟨S64, .f32⟩ : BufTy).Contents (Elt F)) (x12 : (⟨S10x64, .f32⟩ : BufTy).Contents (Elt F)) (x13 : (⟨S10x64, .f32⟩ : BufTy).Contents (Elt F)) (x14 : (⟨S10, .f32⟩ : BufTy).Contents (Elt F))
    (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) :
    after (ValueP.ops (F := F)) W (Proc.devRef .tc main_v149) = ReadP.val_main_v149 (F := F) x0 x1 x2 x3 x4 x5 x6 x7 x8 x9 x10 x11 x12 x13 x14 := by
  rw [ops_split, after_append, after_append]
  have e1 : after (P1 (F := F)) W (Proc.devRef .tc main_v1) = ReadP.val_main_v1 (F := F) x1 := part1_v1 W x1 h1
  have e3 : after (P1 (F := F)) W (Proc.devRef .tc main_v3) = ReadP.val_main_v3 (F := F) x1 := part1_v3 W x1 h1
  refine part3_v149 _ x0 x1 x2 x3 x4 x5 x6 x7 x8 x9 x10 x11 x12 x13 x14 ((keep2_v1 _).trans e1) ((keep2_v3 _).trans e3) ?_
    ((keep2_arg12 _).trans ((keep1_arg12 W).trans h12)) ((keep2_arg13 _).trans ((keep1_arg13 W).trans h13))
    ((keep2_arg14 _).trans ((keep1_arg14 W).trans h14))
  exact part2_v123 _ x0 x1 x2 x3 x4 x5 x6 x7 x8 x9 x10 x11 e1 e3 (part1_v63 W x0 x1 x2 x3 x4 x5 x6 h0 h1 h2 h3 h4 h5 h6)
    ((keep1_arg7 W).trans h7) ((keep1_arg8 W).trans h8) ((keep1_arg9 W).trans h9) ((keep1_arg10 W).trans h10)
    ((keep1_arg11 W).trans h11)

/-- On every device, the fold of the reference's operations over the launch contents holds at the result buffer
    %149 the last stage function of the fifteen launched arguments. -/
theorem result (m : (ℓ : Loc nD τ sig) → Buf (Elt Ideal) ℓ) (d : Dev nD) :
    StableHlo.after (Cert.ReferenceIdeal.ValueP.ops (F := Ideal)) (launchContents m d) (Proc.devRef .tc main_v149)
      = Cert.ReferenceIdeal.ReadP.val_main_v149 (F := Ideal)
          (m ((d.tc : Thread nD τ).loc main_arg0))
          (m ((d.tc : Thread nD τ).loc main_arg1))
          (m ((d.tc : Thread nD τ).loc main_arg2))
          (m ((d.tc : Thread nD τ).loc main_arg3))
          (m ((d.tc : Thread nD τ).loc main_arg4))
          (m ((d.tc : Thread nD τ).loc main_arg5))
          (m ((d.tc : Thread nD τ).loc main_arg6))
          (m ((d.tc : Thread nD τ).loc main_arg7))
          (m ((d.tc : Thread nD τ).loc main_arg8))
          (m ((d.tc : Thread nD τ).loc main_arg9))
          (m ((d.tc : Thread nD τ).loc main_arg10))
          (m ((d.tc : Thread nD τ).loc main_arg11))
          (m ((d.tc : Thread nD τ).loc main_arg12))
          (m ((d.tc : Thread nD τ).loc main_arg13))
          (m ((d.tc : Thread nD τ).loc main_arg14)) :=
  result_of (launchContents m d) _ _ _ _ _ _ _ _ _ _ _ _ _ _ _ rfl rfl rfl rfl rfl rfl rfl rfl rfl rfl rfl rfl rfl rfl rfl

end Cert.ReferenceIdeal.Fold

end
-- ==== Proof.RefKept.lean ====
/-
  The reference's arguments after its line of host operations.  The fifteen arguments of the reference are the buffers
  numbered 0 to 14; every operation of the line writes one buffer, and that buffer is numbered 15 or more.  So the fold of
  the operations' results over the launch contents, read at an argument's buffer, is what the launch memory held there.
-/
import proofs.«167795_j71949292143006_1_alg».proof.Proof.RefRunP
import Idealize.ShloMosaic.PureOps.Ideal

noncomputable section

namespace Cert.ReferenceIdeal.Fold

open Cert.ReferenceIdeal Cert.ReferenceIdeal.Gen Idealize.ShloMosaic Idealize.ShloMosaic.TcCoe Idealize.SL.Sem Idealize.ShloMosaic.StableHlo

/-- No operation of the line writes a buffer numbered below 15: each writes exactly one buffer, numbered 15 or more. -/
theorem arg_not_written (b : Ref sig .tc) (hb : b.idx.val < 15) :
    ∀ op ∈ (ValueP.ops (F := Ideal)), Proc.devRef (τ := τ) .tc b ∉ op.writes := by
  refine List.forall_iff_forall_mem.mp ?_
  simp only [ValueP.ops, List.Forall, nullary_writes, unary_writes, binary_writes, ternary_writes, reshape_writes,
    Finset.mem_singleton]
  repeat' apply And.intro
  all_goals exact devRef_ne_of_ne (fun e => by subst e; exact absurd hb (by decide))

/-- Argument 0 after the line: what the launch memory held. -/
theorem kept_arg0 (m : (ℓ : Loc nD τ sig) → Buf (Elt Ideal) ℓ) (d : Dev nD) :
    StableHlo.after (Cert.ReferenceIdeal.ValueP.ops (F := Ideal)) (launchContents m d) (Proc.devRef .tc main_arg0)
      = m ((d.tc : Thread nD τ).loc main_arg0) :=
  after_of_forall_not_mem _ _ (arg_not_written main_arg0 (by decide))

/-- Argument 1 after the line: what the launch memory held. -/
theorem kept_arg1 (m : (ℓ : Loc nD τ sig) → Buf (Elt Ideal) ℓ) (d : Dev nD) :
    StableHlo.after (Cert.ReferenceIdeal.ValueP.ops (F := Ideal)) (launchContents m d) (Proc.devRef .tc main_arg1)
      = m ((d.tc : Thread nD τ).loc main_arg1) :=
  after_of_forall_not_mem _ _ (arg_not_written main_arg1 (by decide))

/-- Argument 2 after the line: what the launch memory held. -/
theorem kept_arg2 (m : (ℓ : Loc nD τ sig) → Buf (Elt Ideal) ℓ) (d : Dev nD) :
    StableHlo.after (Cert.ReferenceIdeal.ValueP.ops (F := Ideal)) (launchContents m d) (Proc.devRef .tc main_arg2)
      = m ((d.tc : Thread nD τ).loc main_arg2) :=
  after_of_forall_not_mem _ _ (arg_not_written main_arg2 (by decide))

/-- Argument 3 after the line: what the launch memory held. -/
theorem kept_arg3 (m : (ℓ : Loc nD τ sig) → Buf (Elt Ideal) ℓ) (d : Dev nD) :
    StableHlo.after (Cert.ReferenceIdeal.ValueP.ops (F := Ideal)) (launchContents m d) (Proc.devRef .tc main_arg3)
      = m ((d.tc : Thread nD τ).loc main_arg3) :=
  after_of_forall_not_mem _ _ (arg_not_written main_arg3 (by decide))

/-- Argument 4 after the line: what the launch memory held. -/
theorem kept_arg4 (m : (ℓ : Loc nD τ sig) → Buf (Elt Ideal) ℓ) (d : Dev nD) :
    StableHlo.after (Cert.ReferenceIdeal.ValueP.ops (F := Ideal)) (launchContents m d) (Proc.devRef .tc main_arg4)
      = m ((d.tc : Thread nD τ).loc main_arg4) :=
  after_of_forall_not_mem _ _ (arg_not_written main_arg4 (by decide))

/-- Argument 5 after the line: what the launch memory held. -/
theorem kept_arg5 (m : (ℓ : Loc nD τ sig) → Buf (Elt Ideal) ℓ) (d : Dev nD) :
    StableHlo.after (Cert.ReferenceIdeal.ValueP.ops (F := Ideal)) (launchContents m d) (Proc.devRef .tc main_arg5)
      = m ((d.tc : Thread nD τ).loc main_arg5) :=
  after_of_forall_not_mem _ _ (arg_not_written main_arg5 (by decide))

/-- Argument 6 after the line: what the launch memory held. -/
theorem kept_arg6 (m : (ℓ : Loc nD τ sig) → Buf (Elt Ideal) ℓ) (d : Dev nD) :
    StableHlo.after (Cert.ReferenceIdeal.ValueP.ops (F := Ideal)) (launchContents m d) (Proc.devRef .tc main_arg6)
      = m ((d.tc : Thread nD τ).loc main_arg6) :=
  after_of_forall_not_mem _ _ (arg_not_written main_arg6 (by decide))

/-- Argument 7 after the line: what the launch memory held. -/
theorem kept_arg7 (m : (ℓ : Loc nD τ sig) → Buf (Elt Ideal) ℓ) (d : Dev nD) :
    StableHlo.after (Cert.ReferenceIdeal.ValueP.ops (F := Ideal)) (launchContents m d) (Proc.devRef .tc main_arg7)
      = m ((d.tc : Thread nD τ).loc main_arg7) :=
  after_of_forall_not_mem _ _ (arg_not_written main_arg7 (by decide))

/-- Argument 8 after the line: what the launch memory held. -/
theorem kept_arg8 (m : (ℓ : Loc nD τ sig) → Buf (Elt Ideal) ℓ) (d : Dev nD) :
    StableHlo.after (Cert.ReferenceIdeal.ValueP.ops (F := Ideal)) (launchContents m d) (Proc.devRef .tc main_arg8)
      = m ((d.tc : Thread nD τ).loc main_arg8) :=
  after_of_forall_not_mem _ _ (arg_not_written main_arg8 (by decide))

/-- Argument 9 after the line: what the launch memory held. -/
theorem kept_arg9 (m : (ℓ : Loc nD τ sig) → Buf (Elt Ideal) ℓ) (d : Dev nD) :
    StableHlo.after (Cert.ReferenceIdeal.ValueP.ops (F := Ideal)) (launchContents m d) (Proc.devRef .tc main_arg9)
      = m ((d.tc : Thread nD τ).loc main_arg9) :=
  after_of_forall_not_mem _ _ (arg_not_written main_arg9 (by decide))

/-- Argument 10 after the line: what the launch memory held. -/
theorem kept_arg10 (m : (ℓ : Loc nD τ sig) → Buf (Elt Ideal) ℓ) (d : Dev nD) :
    StableHlo.after (Cert.ReferenceIdeal.ValueP.ops (F := Ideal)) (launchContents m d) (Proc.devRef .tc main_arg10)
      = m ((d.tc : Thread nD τ).loc main_arg10) :=
  after_of_forall_not_mem _ _ (arg_not_written main_arg10 (by decide))

/-- Argument 11 after the line: what the launch memory held. -/
theorem kept_arg11 (m : (ℓ : Loc nD τ sig) → Buf (Elt Ideal) ℓ) (d : Dev nD) :
    StableHlo.after (Cert.ReferenceIdeal.ValueP.ops (F := Ideal)) (launchContents m d) (Proc.devRef .tc main_arg11)
      = m ((d.tc : Thread nD τ).loc main_arg11) :=
  after_of_forall_not_mem _ _ (arg_not_written main_arg11 (by decide))

/-- Argument 12 after the line: what the launch memory held. -/
theorem kept_arg12 (m : (ℓ : Loc nD τ sig) → Buf (Elt Ideal) ℓ) (d : Dev nD) :
    StableHlo.after (Cert.ReferenceIdeal.ValueP.ops (F := Ideal)) (launchContents m d) (Proc.devRef .tc main_arg12)
      = m ((d.tc : Thread nD τ).loc main_arg12) :=
  after_of_forall_not_mem _ _ (arg_not_written main_arg12 (by decide))

/-- Argument 13 after the line: what the launch memory held. -/
theorem kept_arg13 (m : (ℓ : Loc nD τ sig) → Buf (Elt Ideal) ℓ) (d : Dev nD) :
    StableHlo.after (Cert.ReferenceIdeal.ValueP.ops (F := Ideal)) (launchContents m d) (Proc.devRef .tc main_arg13)
      = m ((d.tc : Thread nD τ).loc main_arg13) :=
  after_of_forall_not_mem _ _ (arg_not_written main_arg13 (by decide))

/-- Argument 14 after the line: what the launch memory held. -/
theorem kept_arg14 (m : (ℓ : Loc nD τ sig) → Buf (Elt Ideal) ℓ) (d : Dev nD) :
    StableHlo.after (Cert.ReferenceIdeal.ValueP.ops (F := Ideal)) (launchContents m d) (Proc.devRef .tc main_arg14)
      = m ((d.tc : Thread nD τ).loc main_arg14) :=
  after_of_forall_not_mem _ _ (arg_not_written main_arg14 (by decide))

end Cert.ReferenceIdeal.Fold

end
-- ==== Proof.RefLayer1.lean ====
/-
  The reference's first two layers are the network's.

  The reference computes a layer as a chain of whole-array host operations: the summed neighbour features divided by the
  clipped neighbour counts, two matrix products with the transposed weights, the bias, the division of each row by the
  larger of its Euclidean norm and ε; then batch normalisation by the array's own column mean and variance, and relu.
  Read at row `r`, column `c`, each operation is the corresponding term of `Cert.Sage.lin`, `normed` and `bnrelu`.
  The differences are of spelling only: the clip is `max 1 cnt` where the network has `max cnt 1`; the bias, mean,
  rsqrt, scale and shift rows are broadcasts of a vector where the network reshapes it (equal as arrays); a sum carries
  its initial value 0. The scatter / gather stretches and the column statistics are the same operations on the same
  operands in both programs and are equated without being opened. The second layer is the first layer's text applied
  to the first layer's output with the second layer's parameters.
-/
import proofs.«167795_j71949292143006_1_alg».proof.Proof.RefReadP
import proofs.«167795_j71949292143006_1_alg».proof.Proof.Net

noncomputable section

namespace Cert.ReferenceIdeal.Layers

open Idealize.ShloMosaic Idealize.ShloMosaic.ValueIdx Cert.ReferenceIdeal Cert.ReferenceIdeal.Gen Cert.ReferenceIdeal.ReadP

/-- An array of extended reals (or of index words) of a literal shape. -/
abbrev A (S : Shape) (e : EltTy) : Type := (⟨S, e⟩ : BufTy).Contents (Elt Ideal)

namespace One

/-! ## The host stretches that both programs spell alike -/

/-- The reference's neighbour counts are the network's: ones scatter-added by destination. -/
theorem cnt1 (x1 : A S2x1600000 .i32) : val_main_v17 (F := Ideal) x1 = Cert.Net.cntVec (Cert.Net.dst x1) := rfl

/-- The reference's summed neighbour features are the network's: the rows at the wrapped sources scatter-added by destination. -/
theorem agg1 (x0 : A S100000x64 .f32) (x1 : A S2x1600000 .i32) :
    val_main_v13 (F := Ideal) x0 x1 = Cert.Net.agg (Cert.Net.src x1) (Cert.Net.dst x1) x0 := rfl

/-! ## Layout operations of the network's host stretches read at a pair of coordinates -/

/-- A vector of 64 entries laid out as one row reads its entry at the column. -/
theorem rowOf_apply (v : A S64 .f32) (c : Fin 64) : Cert.Net.rowOf v (ix2 0 c) = v (ix1 c) := by
  unfold Cert.Net.rowOf
  exact shapeCast_apply v _ (ix2 0 c) (ix1 c)
    (by rewrite [Shape.rowMajor_val_two, Shape.rowMajor_val_one]; show c.val = 0 * 64 + c.val; omega)

/-- The counts laid out as one column read the count of the row. -/
theorem cntCol_apply (d : A S1600000 .i32) (r : Fin 100000) :
    Cert.Net.cntCol d (ix2 r 0) = Cert.Net.cntVec d (ix1 r) := by
  unfold Cert.Net.cntCol
  exact shapeCast_apply (Cert.Net.cntVec d) _ (ix2 r 0) (ix1 r)
    (by rewrite [Shape.rowMajor_val_two, Shape.rowMajor_val_one]; show r.val = r.val * 1 + 0; omega)

/-- The transposed 64 × 64 weight matrix at `(k, c)` is the matrix at `(c, k)`. -/
theorem transpose64_apply (w : A S64x64 .f32) (k c : Fin 64) :
    transpose Cert.KernelIdeal.S64x64 [1, 0] w Cert.KernelIdeal.Gen.transposes_S64x64_S64x64_1_0 (ix2 k c) = w (ix2 c k) :=
  transpose_apply [1, 0] w Cert.KernelIdeal.Gen.transposes_S64x64_S64x64_1_0 (ix2 k c) (ix2 c k) (fun b => match b with
    | ⟨0, _⟩ => rfl
    | ⟨1, _⟩ => rfl)

/-- The normalised layer read at a pair of coordinates. -/
theorem layerN_apply (s d : A S1600000 .i32) (feat : A S100000x64 .f32) (Wl Wr : A S64x64 .f32) (b : A S64 .f32)
    (r : Fin 100000) (c : Fin 64) :
    Cert.Net.layerN s d feat Wl Wr b (ix2 r c)
      = Cert.Sage.normed (Cert.Sage.lin (Cert.Net.agg s d feat) (Cert.Net.cntCol d) feat
          (transpose Cert.KernelIdeal.S64x64 [1, 0] Wl Cert.KernelIdeal.Gen.transposes_S64x64_S64x64_1_0)
          (transpose Cert.KernelIdeal.S64x64 [1, 0] Wr Cert.KernelIdeal.Gen.transposes_S64x64_S64x64_1_0) (Cert.Net.rowOf b)) r c := rfl

/-! ## The affine part and its normalisation, index by index -/

/-- The reference's affine stage of the first layer at row `r`, column `c` is `Cert.Sage.lin` of the network's operands:
    the two matrix products are the two sums, the clipped count is `max 1 cnt = max cnt 1`, the broadcast bias is the bias row. -/
theorem lin1 (x0 : A S100000x64 .f32) (x1 : A S2x1600000 .i32) (x2 x3 : A S64x64 .f32) (x4 : A S64 .f32) (r : Fin 100000) (c : Fin 64) :
    val_main_v29 (F := Ideal) x0 x1 x2 x3 x4 (ix2 r c)
      = Cert.Sage.lin (Cert.Net.agg (Cert.Net.src x1) (Cert.Net.dst x1) x0) (Cert.Net.cntCol (Cert.Net.dst x1)) x0
          (transpose Cert.KernelIdeal.S64x64 [1, 0] x2 Cert.KernelIdeal.Gen.transposes_S64x64_S64x64_1_0)
          (transpose Cert.KernelIdeal.S64x64 [1, 0] x3 Cert.KernelIdeal.Gen.transposes_S64x64_S64x64_1_0) (Cert.Net.rowOf x4) r c := by
  have e1 : ∀ k : Fin 64, lidx_main_v23 (ix2 r c) k = ix2 r k := fun k => funext fun a => Fin.ext (by
    match a with | ⟨0, _⟩ => rfl | ⟨1, _⟩ => rfl)
  have e2 : ∀ k : Fin 64, idx_main_v19 (idx_main_v20 (ix2 r k)) = ix1 r := fun k => funext fun a => Fin.ext (by
    match a with | ⟨0, _⟩ => rfl)
  have e3 : ∀ k : Fin 64, idx_main_v22 (ridx_main_v23 (ix2 r c) k) = ix2 c k := fun k => funext fun a => Fin.ext (by
    match a with | ⟨0, _⟩ => rfl | ⟨1, _⟩ => rfl)
  have e4 : ∀ k : Fin 64, lidx_main_v25 (ix2 r c) k = ix2 r k := fun k => funext fun a => Fin.ext (by
    match a with | ⟨0, _⟩ => rfl | ⟨1, _⟩ => rfl)
  have e5 : ∀ k : Fin 64, idx_main_v24 (ridx_main_v25 (ix2 r c) k) = ix2 c k := fun k => funext fun a => Fin.ext (by
    match a with | ⟨0, _⟩ => rfl | ⟨1, _⟩ => rfl)
  have e6 : idx_main_v27 (idx_main_v28 (ix2 r c)) = ix1 c := funext fun a => Fin.ext (by
    match a with | ⟨0, _⟩ => rfl)
  rw [val_main_v29_apply, val_main_v26_apply, val_main_v23_apply, val_main_v25_apply, val_main_v28_apply, val_main_v27_apply, e6]
  unfold Cert.Sage.lin
  rw [rowOf_apply]
  refine congrArg₂ (· + ·) (congrArg₂ (· + ·) (Finset.sum_congr rfl fun k _ => ?_) (Finset.sum_congr rfl fun k _ => ?_)) rfl
  · rw [e1 k, val_main_v21_apply, val_main_v20_apply, val_main_v19_apply, e2 k, val_main_v18_apply, val_main_call0_v1_apply,
      val_main_call0_v0_apply, val_main_cst_3_apply, val_main_v22_apply, e3 k, agg1, cnt1, cntCol_apply, transpose64_apply,
      Ideal.hostDivf_def, Ideal.maximumf_def, Ideal.ofBits_def, max_comm]
  · rw [e4 k, val_main_v24_apply, e5 k, transpose64_apply]

/-- The first layer before batch normalisation: the reference's normalised affine stage is the network's. -/
theorem conv1 (x0 : A S100000x64 .f32) (x1 : A S2x1600000 .i32) (x2 x3 : A S64x64 .f32) (x4 : A S64 .f32) :
    val_main_v37 (F := Ideal) x0 x1 x2 x3 x4 = Cert.Net.layerN (Cert.Net.src x1) (Cert.Net.dst x1) x0 x2 x3 x4 := by
  funext i
  obtain ⟨r, c, rfl⟩ : ∃ (r : Fin 100000) (c : Fin 64), i = ix2 r c := ⟨i 0, i 1, eq_ix2 i⟩
  have e7 : ∀ k : Fin 64, idx_main_v31 (idx_main_v32 (idx_main_v36 (ix2 r c))) k = ix2 r k := fun k => funext fun a => Fin.ext (by
    match a with | ⟨0, _⟩ => rfl | ⟨1, _⟩ => rfl)
  have hs : (∑ k : Fin 64, val_main_v30 (F := Ideal) x0 x1 x2 x3 x4 (idx_main_v31 (idx_main_v32 (idx_main_v36 (ix2 r c))) k))
      = ∑ k : Fin 64, val_main_v29 (F := Ideal) x0 x1 x2 x3 x4 (ix2 r k) * val_main_v29 (F := Ideal) x0 x1 x2 x3 x4 (ix2 r k) :=
    Finset.sum_congr rfl fun k _ => by rw [e7 k, val_main_v30_apply, Ideal.mulf_def]
  rw [val_main_v37_apply, val_main_v36_apply, val_main_v35_apply, val_main_v33_apply, val_main_v32_apply, val_main_v31_apply,
    val_main_v34_apply, val_main_cst_5_apply, val_main_cst_4_apply, hs, layerN_apply]
  unfold Cert.Sage.normed
  simp only [lin1]
  rw [Ideal.hostDivf_def, Ideal.maximumf_def, Ideal.hostUnary_sqrt_def, Ideal.ofBits_def, Ideal.ofBits_def, Ideal.ofBits_zero_f32, zero_add]

/-! ## Batch normalisation and relu -/

/-- A vector of 64 entries broadcast to one row is the vector laid out as one row. -/
theorem bcastRow_eq_rowOf (v : A S64 .f32) :
    broadcastInDim S1x64 ![1] bcast_S64_S1x64_1 v = Cert.Net.rowOf v := by
  funext j
  obtain ⟨z, c, rfl⟩ : ∃ (z : Fin 1) (c : Fin 64), j = ix2 z c := ⟨j 0, j 1, eq_ix2 j⟩
  obtain rfl : z = 0 := Subsingleton.elim _ _
  rw [rowOf_apply]
  exact broadcastInDim_apply _ bcast_S64_S1x64_1 v (ix2 0 c) (ix1 c) (fun a => match a with
    | ⟨0, _⟩ => by show c.val = if (64 : Nat) = 1 then 0 else c.val; rw [if_neg (by decide)])

/-- The reference's column means of the first layer are the network's. -/
theorem mean1 (x0 : A S100000x64 .f32) (x1 : A S2x1600000 .i32) (x2 x3 : A S64x64 .f32) (x4 : A S64 .f32) :
    val_main_v40 (F := Ideal) x0 x1 x2 x3 x4 = Cert.Net.colMeanVec (val_main_v37 (F := Ideal) x0 x1 x2 x3 x4) := rfl

/-- The reference's column variances of the first layer are the network's: the two programs broadcast the same row of means. -/
theorem var1 (x0 : A S100000x64 .f32) (x1 : A S2x1600000 .i32) (x2 x3 : A S64x64 .f32) (x4 : A S64 .f32) :
    val_main_v47 (F := Ideal) x0 x1 x2 x3 x4
      = Cert.Net.colMeanVec (Cert.Net.centredSq (val_main_v37 (F := Ideal) x0 x1 x2 x3 x4)
          (Cert.Net.rowOf (Cert.Net.colMeanVec (val_main_v37 (F := Ideal) x0 x1 x2 x3 x4)))) := by
  rw [← bcastRow_eq_rowOf]
  rfl

/-- Batch normalisation and relu read at a pair of coordinates. -/
theorem bn_apply (h : A S100000x64 .f32) (g be : A S64 .f32) (r : Fin 100000) (c : Fin 64) :
    Cert.Net.bn h g be (ix2 r c)
      = max (((h (ix2 r c) - Cert.Net.colMeanVec h (ix1 c))
            * Ideal.rsqrt (Cert.Net.colMeanVec (Cert.Net.centredSq h (Cert.Net.rowOf (Cert.Net.colMeanVec h))) (ix1 c)
                + Ideal.ofBits .f32 0x3727C5AC#32))
          * g (ix1 c) + be (ix1 c)) (Ideal.ofBits .f32 0x00000000#32) := by
  rw [← rowOf_apply (Cert.Net.colMeanVec h), ← rowOf_apply (Cert.Net.colMeanVec (Cert.Net.centredSq h (Cert.Net.rowOf (Cert.Net.colMeanVec h)))),
    ← rowOf_apply g, ← rowOf_apply be]
  rfl

/-- The first layer's batch normalisation and relu: the reference's stage is the network's on the same array. -/
theorem bn1 (x0 : A S100000x64 .f32) (x1 : A S2x1600000 .i32) (x2 x3 : A S64x64 .f32) (x4 x5 x6 : A S64 .f32) :
    val_main_v63 (F := Ideal) x0 x1 x2 x3 x4 x5 x6 = Cert.Net.bn (val_main_v37 (F := Ideal) x0 x1 x2 x3 x4) x5 x6 := by
  funext i
  obtain ⟨r, c, rfl⟩ : ∃ (r : Fin 100000) (c : Fin 64), i = ix2 r c := ⟨i 0, i 1, eq_ix2 i⟩
  have e8 : idx_main_v48 (idx_main_v49 (ix2 r c)) = ix1 c := funext fun a => Fin.ext (by match a with | ⟨0, _⟩ => rfl)
  have e9 : idx_main_v54 (idx_main_v55 (ix2 r c)) = ix1 c := funext fun a => Fin.ext (by match a with | ⟨0, _⟩ => rfl)
  have e10 : idx_main_v57 (idx_main_v58 (ix2 r c)) = ix1 c := funext fun a => Fin.ext (by match a with | ⟨0, _⟩ => rfl)
  have e11 : idx_main_v60 (idx_main_v61 (ix2 r c)) = ix1 c := funext fun a => Fin.ext (by match a with | ⟨0, _⟩ => rfl)
  rw [val_main_v63_apply, val_main_v62_apply, val_main_v59_apply, val_main_v56_apply, val_main_v50_apply, val_main_v49_apply,
    val_main_v48_apply, e8, val_main_v55_apply, val_main_v54_apply, e9, val_main_v53_apply, val_main_v52_apply, val_main_v51_apply,
    val_main_cst_10_apply, val_main_v58_apply, val_main_v57_apply, e10, val_main_v61_apply, val_main_v60_apply, e11,
    val_main_call1_v0_apply, val_main_call1_cst_apply, mean1, var1, bn_apply]
  rfl

end One

open One

/-- THE FIRST LAYER: the reference's value after the first relu is the network's first normalised layer, batch-normalised
    by its own column statistics. -/
theorem layer1 (x0 : A S100000x64 .f32) (x1 : A S2x1600000 .i32) (x2 x3 : A S64x64 .f32) (x4 x5 x6 : A S64 .f32) :
    val_main_v63 (F := Ideal) x0 x1 x2 x3 x4 x5 x6
      = Cert.Net.bn (Cert.Net.layerN (Cert.Net.src x1) (Cert.Net.dst x1) x0 x2 x3 x4) x5 x6 := by
  rw [bn1, conv1]

/-- The second layer's stages are, operation by operation, the first layer's applied to the first layer's output with the
    second layer's weights, bias, scale and shift. -/
theorem second_is_first (x0 : A S100000x64 .f32) (x1 : A S2x1600000 .i32) (x2 x3 : A S64x64 .f32) (x4 x5 x6 : A S64 .f32)
    (x7 x8 : A S64x64 .f32) (x9 x10 x11 : A S64 .f32) :
    val_main_v123 (F := Ideal) x0 x1 x2 x3 x4 x5 x6 x7 x8 x9 x10 x11
      = val_main_v63 (F := Ideal) (val_main_v63 (F := Ideal) x0 x1 x2 x3 x4 x5 x6) x1 x7 x8 x9 x10 x11 := rfl

/-- THE SECOND LAYER: the reference's value after the second relu is the network's second layer on the first layer's output. -/
theorem layer2 (x0 : A S100000x64 .f32) (x1 : A S2x1600000 .i32) (x2 x3 : A S64x64 .f32) (x4 x5 x6 : A S64 .f32)
    (x7 x8 : A S64x64 .f32) (x9 x10 x11 : A S64 .f32) :
    val_main_v123 (F := Ideal) x0 x1 x2 x3 x4 x5 x6 x7 x8 x9 x10 x11
      = Cert.Net.bn (Cert.Net.layerN (Cert.Net.src x1) (Cert.Net.dst x1) (val_main_v63 (F := Ideal) x0 x1 x2 x3 x4 x5 x6) x7 x8 x9) x10 x11 := by
  rw [second_is_first, layer1]

end Cert.ReferenceIdeal.Layers

end
-- ==== Proof.RefLayer3.lean ====
/-
  The third layer of the reference program, read index by index: its last stage is the unnormalised ten-column layer of
  the network applied to the second layer's output.  The host stretches around the layer (the edge list's two rows, the
  wrapped source indices, the scatter-added neighbour sums and counts) are the same operations in both programs and are
  matched as whole terms; the layer itself is compared at row r, column c: the reference divides by
  max(1, count) broadcast along the row and adds the bias row broadcast down the rows, the network's layer reads the
  count column at (r, 0), the transposed weights at (k, c) and the bias row at (0, c).
-/
import proofs.«167795_j71949292143006_1_alg».proof.Proof.RefReadP
import proofs.«167795_j71949292143006_1_alg».proof.Proof.Net

noncomputable section

namespace Cert.ReferenceIdeal.Layers

open Idealize.ShloMosaic Idealize.ShloMosaic.ValueIdx Cert.ReferenceIdeal Cert.ReferenceIdeal.Gen Cert.ReferenceIdeal.ReadP

namespace Three

/-- The source row of the edge list, in the two programs' spellings. -/
theorem src_eq (x1 : (⟨S2x1600000, .i32⟩ : BufTy).Contents (Elt Ideal)) : val_main_v1 (F := Ideal) x1 = Cert.Net.src x1 := by
  delta val_main_v1 val_main_v0 Cert.Net.src
  rfl

/-- The destination row of the edge list. -/
theorem dst_eq (x1 : (⟨S2x1600000, .i32⟩ : BufTy).Contents (Elt Ideal)) : val_main_v3 (F := Ideal) x1 = Cert.Net.dst x1 := by
  delta val_main_v3 val_main_v2 Cert.Net.dst
  rfl

/-- The source indices with a negative index wrapped by the number of nodes. -/
theorem wrapped3 (x1 : (⟨S2x1600000, .i32⟩ : BufTy).Contents (Elt Ideal)) : val_main_v128 (F := Ideal) x1 = Cert.Net.wrapped (Cert.Net.src x1) := by
  delta val_main_v128 val_main_v125 val_main_v127 val_main_v124 val_main_c_24 val_main_v126 val_main_c_25 Cert.Net.wrapped
  rw [src_eq]

/-- The summed neighbour features of the third layer: the rows of the second layer's output at the wrapped sources,
    scatter-added by destination. -/
theorem agg3 (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 x5 x6 : (⟨S64, .f32⟩ : BufTy).Contents (Elt Ideal)) (x7 x8 : (⟨S64x64, .f32⟩ : BufTy).Contents (Elt Ideal)) (x9 x10 x11 : (⟨S64, .f32⟩ : BufTy).Contents (Elt Ideal)) :
    val_main_v133 (F := Ideal) x0 x1 x2 x3 x4 x5 x6 x7 x8 x9 x10 x11
      = Cert.Net.agg (Cert.Net.src x1) (Cert.Net.dst x1) (val_main_v123 (F := Ideal) x0 x1 x2 x3 x4 x5 x6 x7 x8 x9 x10 x11) := by
  delta val_main_v133 val_main_v130 val_main_v129 val_main_v132 val_main_v131 val_main_cst_26 Cert.Net.agg
  rw [wrapped3, dst_eq]
  rfl

/-- The number of edges into each node. -/
theorem cnt3 (x1 : (⟨S2x1600000, .i32⟩ : BufTy).Contents (Elt Ideal)) :
    val_main_v137 (F := Ideal) x1 = Cert.Net.cntVec (Cert.Net.dst x1) := by
  delta val_main_v137 val_main_v135 val_main_cst_28 val_main_v136 val_main_v134 val_main_cst_27 Cert.Net.cntVec
  rw [dst_eq]
  rfl

/-- The unnormalised layer at row r, column c, written out. -/
theorem conv_at {N K D : ℕ} (agg : Cert.Sage.Mat N K) (cnt : Cert.Sage.Mat N 1) (feat : Cert.Sage.Mat N K) (wl wr : Cert.Sage.Mat K D)
    (b : Cert.Sage.Mat 1 D) (r : Fin N) (c : Fin D) :
    Cert.Sage.conv agg cnt feat wl wr b (ix2 r c)
      = (∑ k : Fin K, Ideal.div (agg (ix2 r k)) (max (cnt (ix2 r 0)) (Ideal.ofBits .f32 0x3F800000#32)) * wl (ix2 k c))
        + (∑ k : Fin K, feat (ix2 r k) * wr (ix2 k c)) + b (ix2 0 c) := rfl

/-- The counts as a column, read at row r. -/
theorem cntCol_at (d : Cert.Net.Arr Cert.KernelIdeal.S1600000 .i32) (r : Fin 100000) :
    Cert.Net.cntCol d (ix2 r 0) = Cert.Net.cntVec d (ix1 r) := by
  unfold Cert.Net.cntCol
  generalize Cert.Net.cntVec d = y
  exact shapeCast_apply y Cert.KernelIdeal.Gen.shapeCasts_S100000_S100000x1 (ix2 r 0) (ix1 r)
    (by rewrite [Shape.rowMajor_val_two, Shape.rowMajor_val_one]; show r.val = r.val * 1 + 0; omega)

/-- A transposed 10 × 64 weight matrix read at (k, c). -/
theorem transpose_at (w : Cert.Net.Arr Cert.KernelIdeal.S10x64 .f32) (k : Fin 64) (c : Fin 10) :
    transpose Cert.KernelIdeal.S64x10 [1, 0] w Cert.KernelIdeal.Gen.transposes_S10x64_S64x10_1_0 (ix2 k c) = w (ix2 c k) :=
  transpose_apply [1, 0] w Cert.KernelIdeal.Gen.transposes_S10x64_S64x10_1_0 (ix2 k c) (ix2 c k) (fun b => match b with
    | ⟨0, _⟩ => rfl
    | ⟨1, _⟩ => rfl)

/-- The bias vector as a one-row matrix, read at column c. -/
theorem rowOf10_at (b : Cert.Net.Arr Cert.KernelIdeal.S10 .f32) (c : Fin 10) :
    Cert.Net.rowOf10 b (ix2 0 c) = b (ix1 c) := by
  unfold Cert.Net.rowOf10
  exact shapeCast_apply b Cert.KernelIdeal.Gen.shapeCasts_S10_S1x10 (ix2 0 c) (ix1 c)
    (by rewrite [Shape.rowMajor_val_two, Shape.rowMajor_val_one]; show c.val = 0 * 10 + c.val; omega)

/-- The reference's operand indices at row r, column c, coordinate by coordinate. -/
theorem lidx143_at (r : Fin 100000) (c : Fin 10) (k : Fin 64) : lidx_main_v143 (ix2 r c) k = ix2 r k := by
  funext a; match a with | ⟨0, _⟩ => rfl | ⟨1, _⟩ => rfl
theorem lidx145_at (r : Fin 100000) (c : Fin 10) (k : Fin 64) : lidx_main_v145 (ix2 r c) k = ix2 r k := by
  funext a; match a with | ⟨0, _⟩ => rfl | ⟨1, _⟩ => rfl
theorem cntidx_at (r : Fin 100000) (k : Fin 64) : idx_main_v139 (idx_main_v140 (ix2 r k)) = ix1 r := by
  funext a; match a with | ⟨0, _⟩ => rfl
theorem widx143_at (r : Fin 100000) (c : Fin 10) (k : Fin 64) : idx_main_v142 (ridx_main_v143 (ix2 r c) k) = ix2 c k := by
  funext a; match a with | ⟨0, _⟩ => rfl | ⟨1, _⟩ => rfl
theorem widx145_at (r : Fin 100000) (c : Fin 10) (k : Fin 64) : idx_main_v144 (ridx_main_v145 (ix2 r c) k) = ix2 c k := by
  funext a; match a with | ⟨0, _⟩ => rfl | ⟨1, _⟩ => rfl
theorem bidx_at (r : Fin 100000) (c : Fin 10) : idx_main_v147 (idx_main_v148 (ix2 r c)) = ix1 c := by
  funext a; match a with | ⟨0, _⟩ => rfl

end Three

/-- The third layer of the reference program is the unnormalised layer of the network, of the second layer's output. -/
theorem layer3 (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 x5 x6 : (⟨S64, .f32⟩ : BufTy).Contents (Elt Ideal)) (x7 x8 : (⟨S64x64, .f32⟩ : BufTy).Contents (Elt Ideal)) (x9 x10 x11 : (⟨S64, .f32⟩ : BufTy).Contents (Elt Ideal)) (x12 x13 : (⟨S10x64, .f32⟩ : BufTy).Contents (Elt Ideal)) (x14 : (⟨S10, .f32⟩ : BufTy).Contents (Elt Ideal)) :
    val_main_v149 (F := Ideal) x0 x1 x2 x3 x4 x5 x6 x7 x8 x9 x10 x11 x12 x13 x14
      = Cert.Net.layer3 (Cert.Net.src x1) (Cert.Net.dst x1) (val_main_v123 (F := Ideal) x0 x1 x2 x3 x4 x5 x6 x7 x8 x9 x10 x11) x12 x13 x14 := by
  funext i
  obtain ⟨r, c, rfl⟩ : ∃ (r : Fin 100000) (c : Fin 10), i = ix2 r c := ⟨i 0, i 1, eq_ix2 i⟩
  rw [val_main_v149_apply, val_main_v146_apply, val_main_v143_apply, val_main_v145_apply, val_main_v148_apply, val_main_v147_apply,
    Ideal.addf_def, Ideal.addf_def]
  unfold Cert.Net.layer3
  rw [Three.conv_at]
  refine congrArg₂ (· + ·) (congrArg₂ (· + ·) (Finset.sum_congr rfl fun k _ => ?_) (Finset.sum_congr rfl fun k _ => ?_)) ?_
  · rw [Three.lidx143_at, val_main_v141_apply, val_main_v140_apply, val_main_v139_apply, val_main_v138_apply, val_main_call4_v1_apply,
      val_main_call4_v0_apply, val_main_cst_29_apply, Three.cntidx_at, val_main_v142_apply, Three.widx143_at, Three.agg3, Three.cnt3,
      Three.cntCol_at, Three.transpose_at, Ideal.hostDivf_def, Ideal.maximumf_def, Ideal.ofBits_def, max_comm]
  · rw [Three.lidx145_at, val_main_v144_apply, Three.widx145_at, Three.transpose_at]
  · rw [Three.bidx_at, Three.rowOf10_at]

end Cert.ReferenceIdeal.Layers

end
-- ==== Proof.RefLayers.lean ====
/-
  The reference's value is the network of the argument arrays.

  The three layers are composed: the reference's result is the last layer on the second layer's output, the second layer's
  output is the batch-normalised second layer on the first layer's output, and the first layer's output is the
  batch-normalised first layer on the node features; the network is by definition that nesting.
-/
import proofs.«167795_j71949292143006_1_alg».proof.Proof.RefLayer1
import proofs.«167795_j71949292143006_1_alg».proof.Proof.RefLayer3

noncomputable section

namespace Cert.ReferenceIdeal.Layers

open Idealize.ShloMosaic Cert.ReferenceIdeal Cert.ReferenceIdeal.Gen Cert.ReferenceIdeal.ReadP

/-- THE REFERENCE'S VALUE: the last stage of the reference, as a function of the fifteen arguments, is the network. -/
theorem net_eq (x0 : A S100000x64 .f32) (x1 : A S2x1600000 .i32) (x2 x3 : A S64x64 .f32) (x4 x5 x6 : A S64 .f32)
    (x7 x8 : A S64x64 .f32) (x9 x10 x11 : A S64 .f32) (x12 x13 : A S10x64 .f32) (x14 : A S10 .f32) :
    val_main_v149 (F := Ideal) x0 x1 x2 x3 x4 x5 x6 x7 x8 x9 x10 x11 x12 x13 x14
      = Cert.Net.net x0 x1 x2 x3 x4 x5 x6 x7 x8 x9 x10 x11 x12 x13 x14 := by
  rw [layer3, layer2, layer1]
  rfl

end Cert.ReferenceIdeal.Layers

end
-- ==== Proof.lean ====
/-
  The certificate: a three-layer graph network (neighbour aggregation, two weight products, bias, row normalisation;
  batch normalisation and relu between the layers), computed by five tiled regions among host operations, against the
  same network written in plain array operations.

  On the extended reals the two programs compute the same function of the arguments, `Cert.Net.net`: the kernel's
  program because each region's blocks tile its output array and each block is the layer function of the matching rows
  (`Regions`, `Payloads`), the host stretches between the regions being named functions threaded through the run
  (`KernelChain`); the reference because each of its layers, read index by index, is the same layer function of the same
  named host functions (`RefLayers`), its straight line of operations being read one layer at a time (`RefFold`).  No
  law beyond the commutativity of `max` and the shape of the sums is used, so the precondition is never opened.  The
  three frames are the generated frame certificates of the two kernel programs and the reference's run with its result
  dropped; the idealization rewrote no operation, so `preserves` is `True`.
-/
import proofs.«167795_j71949292143006_1_alg».proof.Defs
import proofs.«167795_j71949292143006_1_alg».proof.Proof.Gen.Kernel
import proofs.«167795_j71949292143006_1_alg».proof.Proof.Gen.Kernel.Frame
import proofs.«167795_j71949292143006_1_alg».proof.Proof.Gen.KernelIdeal
import proofs.«167795_j71949292143006_1_alg».proof.Proof.Gen.KernelIdeal.Frame
import proofs.«167795_j71949292143006_1_alg».proof.Proof.Gen.ReferenceIdeal
import proofs.«167795_j71949292143006_1_alg».proof.Proof.Gen.Pre_finite_inputs
import proofs.«167795_j71949292143006_1_alg».proof.Proof.RunResult
import proofs.«167795_j71949292143006_1_alg».proof.Proof.KernelChain
import proofs.«167795_j71949292143006_1_alg».proof.Proof.RefRunP
import proofs.«167795_j71949292143006_1_alg».proof.Proof.RefFold
import proofs.«167795_j71949292143006_1_alg».proof.Proof.RefKept
import proofs.«167795_j71949292143006_1_alg».proof.Proof.RefLayers

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Fold.kept_arg0 m c),
     (h c Cert.ReferenceIdeal.main_arg1).trans (Cert.ReferenceIdeal.Fold.kept_arg1 m c),
     (h c Cert.ReferenceIdeal.main_arg2).trans (Cert.ReferenceIdeal.Fold.kept_arg2 m c),
     (h c Cert.ReferenceIdeal.main_arg3).trans (Cert.ReferenceIdeal.Fold.kept_arg3 m c),
     (h c Cert.ReferenceIdeal.main_arg4).trans (Cert.ReferenceIdeal.Fold.kept_arg4 m c),
     (h c Cert.ReferenceIdeal.main_arg5).trans (Cert.ReferenceIdeal.Fold.kept_arg5 m c),
     (h c Cert.ReferenceIdeal.main_arg6).trans (Cert.ReferenceIdeal.Fold.kept_arg6 m c),
     (h c Cert.ReferenceIdeal.main_arg7).trans (Cert.ReferenceIdeal.Fold.kept_arg7 m c),
     (h c Cert.ReferenceIdeal.main_arg8).trans (Cert.ReferenceIdeal.Fold.kept_arg8 m c),
     (h c Cert.ReferenceIdeal.main_arg9).trans (Cert.ReferenceIdeal.Fold.kept_arg9 m c),
     (h c Cert.ReferenceIdeal.main_arg10).trans (Cert.ReferenceIdeal.Fold.kept_arg10 m c),
     (h c Cert.ReferenceIdeal.main_arg11).trans (Cert.ReferenceIdeal.Fold.kept_arg11 m c),
     (h c Cert.ReferenceIdeal.main_arg12).trans (Cert.ReferenceIdeal.Fold.kept_arg12 m c),
     (h c Cert.ReferenceIdeal.main_arg13).trans (Cert.ReferenceIdeal.Fold.kept_arg13 m c),
     (h c Cert.ReferenceIdeal.main_arg14).trans (Cert.ReferenceIdeal.Fold.kept_arg14 m c)⟩)
    (Cert.ReferenceIdeal.ValueP.run (F := Ideal) m ρ)

theorem preserves : Cert.preserves_Kernel_KernelIdeal := trivial

/-- Both idealized programs end with their result at `Cert.Net.net` of the (agreeing) arguments. -/
theorem algebraic : Cert.algebraic_KernelIdeal_ReferenceIdeal := by
  intro m ρ m' ρ' _ hagree
  refine ⟨fun (c : Dev Cert.KernelIdeal.nD) => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Chain.w10_v78 m ρ c), (h c).2⟩)
      (Cert.KernelIdeal.GenP.run_result (F := Ideal) m ρ)
  · refine (θ_run Cert.ReferenceIdeal.defs _ _).mono (fun r h c => ⟨?_,
      (h c Cert.ReferenceIdeal.main_arg0).trans (Cert.ReferenceIdeal.Fold.kept_arg0 m' c),
      (h c Cert.ReferenceIdeal.main_arg1).trans (Cert.ReferenceIdeal.Fold.kept_arg1 m' c),
      (h c Cert.ReferenceIdeal.main_arg2).trans (Cert.ReferenceIdeal.Fold.kept_arg2 m' c),
      (h c Cert.ReferenceIdeal.main_arg3).trans (Cert.ReferenceIdeal.Fold.kept_arg3 m' c),
      (h c Cert.ReferenceIdeal.main_arg4).trans (Cert.ReferenceIdeal.Fold.kept_arg4 m' c),
      (h c Cert.ReferenceIdeal.main_arg5).trans (Cert.ReferenceIdeal.Fold.kept_arg5 m' c),
      (h c Cert.ReferenceIdeal.main_arg6).trans (Cert.ReferenceIdeal.Fold.kept_arg6 m' c),
      (h c Cert.ReferenceIdeal.main_arg7).trans (Cert.ReferenceIdeal.Fold.kept_arg7 m' c),
      (h c Cert.ReferenceIdeal.main_arg8).trans (Cert.ReferenceIdeal.Fold.kept_arg8 m' c),
      (h c Cert.ReferenceIdeal.main_arg9).trans (Cert.ReferenceIdeal.Fold.kept_arg9 m' c),
      (h c Cert.ReferenceIdeal.main_arg10).trans (Cert.ReferenceIdeal.Fold.kept_arg10 m' c),
      (h c Cert.ReferenceIdeal.main_arg11).trans (Cert.ReferenceIdeal.Fold.kept_arg11 m' c),
      (h c Cert.ReferenceIdeal.main_arg12).trans (Cert.ReferenceIdeal.Fold.kept_arg12 m' c),
      (h c Cert.ReferenceIdeal.main_arg13).trans (Cert.ReferenceIdeal.Fold.kept_arg13 m' c),
      (h c Cert.ReferenceIdeal.main_arg14).trans (Cert.ReferenceIdeal.Fold.kept_arg14 m' c)⟩)
      (Cert.ReferenceIdeal.ValueP.run (F := Ideal) m' ρ')
    refine (h c Cert.ReferenceIdeal.main_v149).trans ((Cert.ReferenceIdeal.Fold.result m' c).trans ?_)
    rw [Cert.ReferenceIdeal.Layers.net_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
